-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  IdealRules.named_const.Statement Cert.KernelIdeal.κ "inv_10000" .f32 0x38D1B717#32 ((1 / 10000 : ℝ) : EReal)
  ∧ IdealRules.named_const.Statement Cert.KernelIdeal.κ "inv_10000" .f32 0x38D1B717#32 ((1 / 10000 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S32x128 : Shape := ⟨2, ![32, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S32x128 : S_.BroadcastsInDim S32x128 (![] : Fin 0 → Fin S32x128.rank)
  reducesTo_S32x128_S_d0_1 : S32x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128 .f32) (main_arg5 : FVec F S128 .f32) (main_v13 : IVec S_ 1) (main_v16 : IVec S32x128 1) : IVec S_ 1 :=
  let main_c_5 : IVec S_ 1 := constantI S_ 1 1#1
  let main_v17 : IVec S_ 1 := (fun x v => Host.reduce IntOp.andi x v reducesTo_S32x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S32x128 .f32) (main_arg3 : FVec F S32x128 .f32) (main_arg4 : FVec F S128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S32x128 .f32 := Host.absf main_arg2
  let main_cst_2 : FVec F S_ .f32 := constant S_ .f32 0x7F800000#32
  let main_v10 : FVec F S32x128 .f32 := broadcastInDim S32x128 ![] bcast_S_S32x128 main_cst_2
  let main_v11 : IVec S32x128 1 := cmpf .olt main_v9 main_v10
  let main_c_3 : IVec S_ 1 := constantI S_ 1 1#1
  let main_v12 : IVec S_ 1 := (fun x v => Host.reduce IntOp.andi x v reducesTo_S32x128_S_d0_1 h_S_) main_v11 main_c_3
  let main_v13 : IVec S_ 1 := andi main_v8 main_v12
  let main_v14 : FVec F S32x128 .f32 := Host.absf main_arg3
  let main_cst_4 : FVec F S_ .f32 := constant S_ .f32 0x7F800000#32
  let main_v15 : FVec F S32x128 .f32 := broadcastInDim S32x128 ![] bcast_S_S32x128 main_cst_4
  let main_v16 : IVec S32x128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S32x128 : Shape := ⟨2, ![32, 128]⟩
abbrev S128 : Shape := ⟨1, ![128]⟩
abbrev S1x128 : Shape := ⟨2, ![1, 128]⟩
abbrev S200x10000 : Shape := ⟨2, ![200, 10000]⟩
abbrev S200x128 : Shape := ⟨2, ![200, 128]⟩
abbrev S8x128 : Shape := ⟨2, ![8, 128]⟩
abbrev S32x32 : Shape := ⟨2, ![32, 32]⟩
abbrev S128x32 : Shape := ⟨2, ![128, 32]⟩
abbrev S128x128 : Shape := ⟨2, ![128, 128]⟩

abbrev nBuf : Space → Nat
  | .hbm => 9
  | .vmem => 12
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32x128, .f32⟩
  | .hbm, ⟨4, _⟩ => ⟨S128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .local _ .vmem, ⟨0, _⟩ => ⟨S10000x128, .f32⟩
  | .local _ .vmem, ⟨1, _⟩ => ⟨S32x128, .f32⟩
  | .local _ .vmem, ⟨2, _⟩ => ⟨S32x128, .f32⟩
  | .local _ .vmem, ⟨3, _⟩ => ⟨S1x128, .f32⟩
  | .local _ .vmem, ⟨4, _⟩ => ⟨S1x128, .f32⟩
  | .local _ .vmem, ⟨5, _⟩ => ⟨S200x10000, .f32⟩
  | .local _ .vmem, ⟨6, _⟩ => ⟨S200x10000, .f32⟩
  | .local _ .vmem, ⟨7, _⟩ => ⟨S200x128, .f32⟩
  | .local _ .vmem, ⟨8, _⟩ => ⟨S200x128, .f32⟩
  | .local _ .vmem, ⟨9, _⟩ => ⟨S10000x128, .bf16⟩
  | .local _ .vmem, ⟨10, _⟩ => ⟨S10000x128, .f32⟩
  | .local _ .vmem, ⟨11, _⟩ => ⟨S8x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 50], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_off1 (i : grid0.Coords) : Fin 2 → Nat :=
  let arg1 : BitVec 32 := BitVec.ofNat 32 (i 1).val
  let c200_i32 : BitVec 32 := 200#32
  let v15 : BitVec 32 := Scalar.muli arg1 c200_i32
  let v16 : Index := Scalar.indexCast v15
  let c0_8 : Index := 0#32
  ![v16.toNat, 0]
def k0_cond3 (i : grid0.Coords) : BitVec 1 :=
  let arg0 : BitVec 32 := BitVec.ofNat 32 (i 0).val
  let c1_i32 : BitVec 32 := 1#32
  let v8 : BitVec 1 := Scalar.cmpi .eq arg0 c1_i32
  let v9 : BitVec 32 := Scalar.extui v8
  let c0_i32_4 : BitVec 32 := 0#32
  let v10 : BitVec 1 := Scalar.cmpi .ne v9 c0_i32_4
  v10

def k0_off2 (i : grid0.Coords) : Fin 2 → Nat :=
  let arg1 : BitVec 32 := BitVec.ofNat 32 (i 1).val
  let c200_i32 : BitVec 32 := 200#32
  let v25 : BitVec 32 := Scalar.muli arg1 c200_i32
  let v26 : Index := Scalar.indexCast v25
  let c0_11 : Index := 0#32
  ![v26.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c49_i32 : BitVec 32 := 49#32
  let v1 : BitVec 32 := Scalar.select v0 arg1 c49_i32
  let c0_i32_0 : BitVec 32 := 0#32
  let c0_i32_1 : BitVec 32 := 0#32
  ![v1.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let v1 : BitVec 32 := Scalar.select v0 c0_i32_0 arg1
  let c0_i32_1 : BitVec 32 := 0#32
  let c0_i32_2 : BitVec 32 := 0#32
  ![v1.toNat, c0_i32_1.toNat]

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S32x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S32x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S200x10000 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S200x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S128_S1x128 : S128.ShapeCasts S1x128
  inb_S32x128_S32x128_0_0 : ∀ a, (![0, 0] : Fin 2 → Nat) a + S32x128.size a ≤ S32x128.size a
  h_S32x128 : 0 < S32x128.numel
  slices_S32x128_o0_0_S32x32 : S32x128.Slices ![0, 0] S32x32
  slices_S32x128_o0_32_S32x32 : S32x128.Slices ![0, 32] S32x32
  slices_S32x128_o0_64_S32x32 : S32x128.Slices ![0, 64] S32x32
  slices_S32x128_o0_96_S32x32 : S32x128.Slices ![0, 96] S32x32
  concatenates_S32x32_S32x32_S32x32_S32x32_S128x32_d0 : Shape.Concatenates [S32x32, S32x32, S32x32, S32x32] S128x32 0
  concatenates_S128x32_S128x32_S128x32_S128x32_S128x128_d1 : Shape.Concatenates [S128x32, S128x32, S128x32, S128x32] S128x128 1
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  inb_S8x128_S8x128_0_0 : ∀ a, (![0, 0] : Fin 2 → Nat) a + S8x128.size a ≤ S8x128.size a
  h_S8x128 : 0 < S8x128.numel
  shapeCasts_S8x128_S8x128 : S8x128.ShapeCasts S8x128
  inb_S200x10000_S200x10000_0_0 : ∀ a, (![0, 0] : Fin 2 → Nat) a + S200x10000.size a ≤ S200x10000.size a
  h_S200x10000 : 0 < S200x10000.numel
  h_S200x128 : 0 < S200x128.numel
  shapeCasts_S200x128_S200x128 : S200x128.ShapeCasts S200x128
  inb_S8x128_S1x128_0_0 : ∀ a, (![0, 0] : Fin 2 → Nat) a + S1x128.size a ≤ S8x128.size a
  h_S1x128 : 0 < S1x128.numel
  reduces_S200x128_S128 : S200x128.Reduces [0] S128
  shapeCasts_S1x128_S1x128 : S1x128.ShapeCasts S1x128
  inb_S8x128_S1x128_1_0 : ∀ a, (![1, 0] : Fin 2 → Nat) a + S1x128.size a ≤ S8x128.size a
  inb_S1x128_S1x128_0_0 : ∀ a, (![0, 0] : Fin 2 → Nat) a + S1x128.size a ≤ S1x128.size a
  broadcasts_S1x128_S200x128 : S1x128.Broadcasts S200x128
  inb_S200x128_S200x128_0_0 : ∀ a, (![0, 0] : Fin 2 → Nat) a + S200x128.size a ≤ S200x128.size a
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  hrank0 : 0 < grid0.rank
  k0_off1_inb : ∀ i : grid0.Coords, ∀ (k0_h2 : k0_cond2 i = 1#1), ∀ a, (k0_off1 i) a + S200x128.size a ≤ S10000x128.size a
  k0_off2_inb : ∀ i : grid0.Coords, ∀ (k0_h3 : k0_cond3 i = 1#1), ∀ a, (k0_off2 i) a + S200x128.size a ≤ S10000x128.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S10000x128.size a
  hwx0_0 : ∀ i : grid0.Coords, EltTy.bits .f32 = 32 ∨ (Rect.block (s := S10000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S32x128.size a ≤ S32x128.size a
  hwx0_1 : ∀ i : grid0.Coords, EltTy.bits .f32 = 32 ∨ (Rect.block (s := S32x128) S32x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S32x128.size a ≤ S32x128.size a
  hwx0_2 : ∀ i : grid0.Coords, EltTy.bits .f32 = 32 ∨ (Rect.block (s := S32x128) S32x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S200x10000.size a ≤ S10000x10000.size a
  hwx0_5 : ∀ i : grid0.Coords, EltTy.bits .f32 = 32 ∨ (Rect.block (s := S10000x10000) S200x10000.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S200x128.size a ≤ S10000x128.size a
  hwx0_6 : ∀ i : grid0.Coords, EltTy.bits .f32 = 32 ∨ (Rect.block (s := S10000x128) S200x128.size (cc0_transform_6 i) (hinb0_6 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf

abbrev win0_0 : Pipeline.Window sig grid0 :=
  Pipeline.Window.ofSpec (Memref.whole main_arg0) S10000x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S32x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S32x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S200x10000.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S200x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond3 i == 1#1) | ⟨_ + 7, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S32x128 : Shape := ⟨2, ![32, 128]⟩
abbrev S128 : Shape := ⟨1, ![128]⟩
abbrev S32x32 : Shape := ⟨2, ![32, 32]⟩
abbrev S128x32 : Shape := ⟨2, ![128, 32]⟩
abbrev S128x128 : Shape := ⟨2, ![128, 128]⟩
abbrev S_ : Shape := ⟨0, ![]⟩
abbrev S1x128 : Shape := ⟨2, ![1, 128]⟩

abbrev nBuf : Space → Nat
  | .hbm => 84
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S32x128, .f32⟩
  | .hbm, ⟨3, _⟩ => ⟨S32x128, .f32⟩
  | .hbm, ⟨4, _⟩ => ⟨S128, .f32⟩
  | .hbm, ⟨5, _⟩ => ⟨S128, .f32⟩
  | .hbm, ⟨6, _⟩ => ⟨S32x32, .f32⟩
  | .hbm, ⟨7, _⟩ => ⟨S32x32, .f32⟩
  | .hbm, ⟨8, _⟩ => ⟨S32x32, .f32⟩
  | .hbm, ⟨9, _⟩ => ⟨S32x32, .f32⟩
  | .hbm, ⟨10, _⟩ => ⟨S32x32, .f32⟩
  | .hbm, ⟨11, _⟩ => ⟨S32x32, .f32⟩
  | .hbm, ⟨12, _⟩ => ⟨S32x32, .f32⟩
  | .hbm, ⟨13, _⟩ => ⟨S128x32, .f32⟩
  | .hbm, ⟨14, _⟩ => ⟨S32x32, .f32⟩
  | .hbm, ⟨15, _⟩ => ⟨S128x32, .f32⟩
  | .hbm, ⟨16, _⟩ => ⟨S32x32, .f32⟩
  | .hbm, ⟨17, _⟩ => ⟨S128x32, .f32⟩
  | .hbm, ⟨18, _⟩ => ⟨S32x32, .f32⟩
  | .hbm, ⟨19, _⟩ => ⟨S128x32, .f32⟩
  | .hbm, ⟨20, _⟩ => ⟨S128x128, .f32⟩
  | .hbm, ⟨21, _⟩ => ⟨S32x32, .f32⟩
  | .hbm, ⟨22, _⟩ => ⟨S32x32, .f32⟩
  | .hbm, ⟨23, _⟩ => ⟨S32x32, .f32⟩
  | .hbm, ⟨24, _⟩ => ⟨S32x32, .f32⟩
  | .hbm, ⟨25, _⟩ => ⟨S32x32, .f32⟩
  | .hbm, ⟨26, _⟩ => ⟨S32x32, .f32⟩
  | .hbm, ⟨27, _⟩ => ⟨S32x32, .f32⟩
  | .hbm, ⟨28, _⟩ => ⟨S128x32, .f32⟩
  | .hbm, ⟨29, _⟩ => ⟨S32x32, .f32⟩
  | .hbm, ⟨30, _⟩ => ⟨S128x32, .f32⟩
  | .hbm, ⟨31, _⟩ => ⟨S32x32, .f32⟩
  | .hbm, ⟨32, _⟩ => ⟨S128x32, .f32⟩
  | .hbm, ⟨33, _⟩ => ⟨S32x32, .f32⟩
  | .hbm, ⟨34, _⟩ => ⟨S128x32, .f32⟩
  | .hbm, ⟨35, _⟩ => ⟨S128x128, .f32⟩
  | .hbm, ⟨36, _⟩ => ⟨S10000x128, .f32⟩
  | .hbm, ⟨37, _⟩ => ⟨S10000x128, .f32⟩
  | .hbm, ⟨38, _⟩ => ⟨S10000x128, .f32⟩
  | .hbm, ⟨39, _⟩ => ⟨S10000x128, .f32⟩
  | .hbm, ⟨40, _⟩ => ⟨S_, .f32⟩
  | .hbm, ⟨41, _⟩ => ⟨S128, .f32⟩
  | .hbm, ⟨42, _⟩ => ⟨S_, .f32⟩
  | .hbm, ⟨43, _⟩ => ⟨S128, .f32⟩
  | .hbm, ⟨44, _⟩ => ⟨S128, .f32⟩
  | .hbm, ⟨45, _⟩ => ⟨S_, .i32⟩
  | .hbm, ⟨46, _⟩ => ⟨S_, .f32⟩
  | .hbm, ⟨47, _⟩ => ⟨S128, .f32⟩
  | .hbm, ⟨48, _⟩ => ⟨S1x128, .f32⟩
  | .hbm, ⟨49, _⟩ => ⟨S_, .f32⟩
  | .hbm, ⟨50, _⟩ => ⟨S1x128, .f32⟩
  | .hbm, ⟨51, _⟩ => ⟨S1x128, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S128, .f32⟩
  | .hbm, ⟨60, _⟩ => ⟨S128, .f32⟩
  | .hbm, ⟨61, _⟩ => ⟨S128, .f32⟩
  | .hbm, ⟨62, _⟩ => ⟨S_, .f32⟩
  | .hbm, ⟨63, _⟩ => ⟨S_, .i1⟩
  | .hbm, ⟨64, _⟩ => ⟨S_, .f32⟩
  | .hbm, ⟨65, _⟩ => ⟨S_, .f32⟩
  | .hbm, ⟨66, _⟩ => ⟨S128, .f32⟩
  | .hbm, ⟨67, _⟩ => ⟨S128, .f32⟩
  | .hbm, ⟨68, _⟩ => ⟨S1x128, .f32⟩
  | .hbm, ⟨69, _⟩ => ⟨S10000x128, .f32⟩
  | .hbm, ⟨70, _⟩ => ⟨S10000x128, .f32⟩
  | .hbm, ⟨71, _⟩ => ⟨S_, .f32⟩
  | .hbm, ⟨72, _⟩ => ⟨S128, .f32⟩
  | .hbm, ⟨73, _⟩ => ⟨S128, .f32⟩
  | .hbm, ⟨74, _⟩ => ⟨S128, .f32⟩
  | .hbm, ⟨75, _⟩ => ⟨S1x128, .f32⟩
  | .hbm, ⟨76, _⟩ => ⟨S10000x128, .f32⟩
  | .hbm, ⟨77, _⟩ => ⟨S10000x128, .f32⟩
  | .hbm, ⟨78, _⟩ => ⟨S1x128, .f32⟩
  | .hbm, ⟨79, _⟩ => ⟨S10000x128, .f32⟩
  | .hbm, ⟨80, _⟩ => ⟨S10000x128, .f32⟩
  | .hbm, ⟨81, _⟩ => ⟨S1x128, .f32⟩
  | .hbm, ⟨82, _⟩ => ⟨S10000x128, .f32⟩
  | .hbm, ⟨83, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_cst : Ref sig .tc := ⟨.hbm, 40, rfl⟩
abbrev main_v34 : Ref sig .tc := ⟨.hbm, 41, rfl⟩
abbrev main_cst_0 : Ref sig .tc := ⟨.hbm, 42, rfl⟩
abbrev main_v35 : Ref sig .tc := ⟨.hbm, 43, rfl⟩
abbrev main_v36 : Ref sig .tc := ⟨.hbm, 44, rfl⟩
abbrev main_c : Ref sig .tc := ⟨.hbm, 45, rfl⟩
abbrev main_call0_cst : Ref sig .tc := ⟨.hbm, 46, rfl⟩
abbrev main_call0_v0 : Ref sig .tc := ⟨.hbm, 47, rfl⟩
abbrev main_call0_v1 : Ref sig .tc := ⟨.hbm, 48, rfl⟩
abbrev main_call0_cst_0 : Ref sig .tc := ⟨.hbm, 49, rfl⟩
abbrev main_call0_v2 : Ref sig .tc := ⟨.hbm, 50, rfl⟩
abbrev main_call0_v3 : Ref sig .tc := ⟨.hbm, 51, rfl⟩
abbrev main_call0_v4 : Ref sig .tc := ⟨.hbm, 52, rfl⟩
abbrev main_call0_v5 : Ref sig .tc := ⟨.hbm, 53, rfl⟩
abbrev main_call0_v6 : Ref sig .tc := ⟨.hbm, 54, rfl⟩
abbrev main_call0_v7 : Ref sig .tc := ⟨.hbm, 55, rfl⟩
abbrev main_call0_cst_1 : Ref sig .tc := ⟨.hbm, 56, rfl⟩
abbrev main_call0_v8 : Ref sig .tc := ⟨.hbm, 57, rfl⟩
abbrev main_call0_cst_2 : Ref sig .tc := ⟨.hbm, 58, rfl⟩
abbrev main_call0_v9 : Ref sig .tc := ⟨.hbm, 59, rfl⟩
abbrev main_call0_v10 : Ref sig .tc := ⟨.hbm, 60, rfl⟩
abbrev main_call0_v11 : Ref sig .tc := ⟨.hbm, 61, rfl⟩
abbrev main_call0_cst_3 : Ref sig .tc := ⟨.hbm, 62, rfl⟩
abbrev main_call0_v12 : Ref sig .tc := ⟨.hbm, 63, rfl⟩
abbrev main_call0_cst_4 : Ref sig .tc := ⟨.hbm, 64, rfl⟩
abbrev main_call0_call0_v0 : Ref sig .tc := ⟨.hbm, 65, rfl⟩
abbrev main_call0_call0_v1 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_cst_1 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩

abbrev nD : Nat := 1
abbrev τ : Topo := Topo.v7x

variable {F : FTy → Type} [FloatOps F]

class Facts₀ : Prop where
  slices_S32x128_S32x32_0_0 : S32x128.Slices ![0, 0] S32x32
  slices_S32x128_S32x32_0_32 : S32x128.Slices ![0, 32] S32x32
  slices_S32x128_S32x32_0_64 : S32x128.Slices ![0, 64] S32x32
  slices_S32x128_S32x32_0_96 : S32x128.Slices ![0, 96] S32x32
  concatenates_S32x32_S32x32_S32x32_S32x32_S128x32_d0 : Shape.Concatenates [S32x32, S32x32, S32x32, S32x32] S128x32 0
  concatenates_S128x32_S128x32_S128x32_S128x32_S128x128_d1 : Shape.Concatenates [S128x32, S128x32, S128x32, S128x32] S128x128 1
  reducesTo_S10000x128_S128_d0 : S10000x128.ReducesTo [0] S128
  h_S_ : 0 < S_.numel
  bcast_S_S128 : S_.BroadcastsInDim S128 (![] : Fin 0 → Fin S128.rank)
  bcast_S128_S1x128_1 : S128.BroadcastsInDim S1x128 (![1] : Fin 1 → Fin S1x128.rank)
  bcast_S_S1x128 : S_.BroadcastsInDim S1x128 (![] : Fin 0 → Fin S1x128.rank)
  bcast_S1x128_S10000x128_0_1 : S1x128.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.KB.Cases.lean ====
/-
  The three branches of the layer's kernel, decided over its grid of 2 × 50 points (phase, row block).

  Phase 0, block 0 builds T = tanh(x·H(w1))·H(w2) into a scratch and clears the statistics; every point of phase 0
  multiplies its 200 rows of the adjacency by T, keeps the product in its rows of a second scratch and adds the
  rows' column sums and sums of squares to the statistics; every point of phase 1 normalises its 200 rows.
  Here: which points take which branch, where the result's window is written back, and the names of the
  buffers the body is run on.
-/
import proofs.«133474_g54228257079526_cont_9to1c4b_631_6_alg».proof.Proof.Gen.Kernel.Frame
import proofs.«133474_g54228257079526_cont_9to1c4b_631_6_alg».proof.Proof.Gen.Kernel.Skeleton

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first branch (build T, clear the statistics) is taken at the first point only. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (aggregate a row block) is taken in phase 0: the first 50 points. -/
abbrev cond0_1 (i : grid0.Coords) : Prop := k0_cond2 i = 1#1
theorem hcond0_1 : ∀ t : Fin cfg0.N, cond0_1 (grid0.coords t) ↔ t.val < 50 :=
  (by decide +kernel : ∀ t : Fin grid0.N, cond0_1 (grid0.coords t) ↔ t.val < 50)

/-- The third branch (normalise a row block) is taken in phase 1: the last 50 points. -/
abbrev cond0_2 (i : grid0.Coords) : Prop := k0_cond3 i = 1#1
theorem hcond0_2 : ∀ t : Fin cfg0.N, cond0_2 (grid0.coords t) ↔ 50 ≤ t.val :=
  (by decide +kernel : ∀ t : Fin grid0.N, cond0_2 (grid0.coords t) ↔ 50 ≤ t.val)

/-- The inputs' windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The result's window is idle through phase 0 and live in phase 1, -/
theorem idleAt0_6 : ∀ t : Fin cfg0.N, cfg0.idle 6 (grid0.coords t) = true ↔ t.val < 50 :=
  (by decide +kernel : ∀ t : Fin grid0.N, cfg0.idle 6 (grid0.coords t) = true ↔ t.val < 50)
/-- and written back after every point of phase 1 and no other. -/
theorem flush0_6 : ∀ t : Fin cfg0.N, (cfg0.win 6).flush t = true ↔ 50 ≤ t.val :=
  (by decide +kernel : ∀ t : Fin grid0.N, win0_6.flush t = true ↔ 50 ≤ t.val)

/-- Each window's current staging buffer at point `t`, and that it is a whole buffer. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x10000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x128 .f32 := win0_6.stage (cfg0.slots t 6)
abbrev hs0_6 (t : Fin cfg0.N) : (ms0_6 t).IsWhole := hstage0_6 ((cfg0.slots t 6).cast nbuf0_6)
/-- The three scratch buffers: T, the aggregated rows, the statistics. -/
abbrev scM0_0 : Memref sig .tc .vmem S10000x128 .bf16 := Memref.whole cc0_scratch0
abbrev scM0_1 : Memref sig .tc .vmem S10000x128 .f32 := Memref.whole cc0_scratch1
abbrev scM0_2 : Memref sig .tc .vmem S8x128 .f32 := Memref.whole cc0_scratch2
abbrev VS0_0 : View sig .tc .vmem S10000x128 .bf16 := scM0_0.view
abbrev VS0_1 : View sig .tc .vmem S10000x128 .f32 := scM0_1.view
abbrev VS0_2 : View sig .tc .vmem S8x128 .f32 := scM0_2.view
abbrev VO0_6 (t : Fin cfg0.N) : View sig .tc .vmem S200x128 .f32 := (ms0_6 t).view

/-- What the launch hands the region, with the scratch buffers as buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Gen

end
-- ==== Proof.KB.RunFirst.lean ====
/-
  The kernel's body at the first grid point, run on whole buffers: it builds T = tanh(x·H(w1))·H(w2) into its
  scratch, clears the statistics, and then — the point being in phase 0 — stores its 200 aggregated rows and adds their
  column sums and sums of squares to the statistics. The stores each buffer ends with are found by running the body.
-/
import proofs.«133474_g54228257079526_cont_9to1c4b_631_6_alg».proof.Proof.KB.Cases

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point: on whole buffers — the inputs and the result's buffer at their contents, the aggregated rows at
    given contents, T and the statistics at anything — the body runs and leaves T's buffer, the aggregated rows' and
    the statistics' with the listed stores written, the rest as it was. -/
noncomputable def runFirst (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : cond0_0 i) (hc1 : cond0_1 i) (hc2 : ¬cond0_2 i)
    (x0 : Vec F S10000x128 .f32) (x1 : Vec F S32x128 .f32) (x2 : Vec F S32x128 .f32) (x3 : Vec F S1x128 .f32) (x4 : Vec F S1x128 .f32) (x5 : Vec F S200x10000 .f32) (xo : Vec F S200x128 .f32) (xs1 : Vec F S10000x128 .f32) :
    Σ' (LS0 : List (View.Piece (Elt F) S10000x128 .bf16)) (LS1 : List (View.Piece (Elt F) S10000x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ d, owns (c : Thread nD τ) arg9 fullShare d) ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexact HS1
    iexists _; iexact HS2

end Cert.Kernel.Gen

end
-- ==== Proof.KB.RunAcc.lean ====
/-
  The kernel's body at a later point of phase 0, run on whole buffers holding given contents: it multiplies its 200
  rows of the adjacency by T, stores the product in its rows of the aggregated-rows scratch and adds the rows' column sums
  and sums of squares to the two statistics rows. The stores are found by running the body.
-/
import proofs.«133474_g54228257079526_cont_9to1c4b_631_6_alg».proof.Proof.KB.RunFirst

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A later point of phase 0: on whole buffers at given contents the body runs and leaves the aggregated rows' buffer and
    the statistics' with the listed stores written over what they held, the rest as it was. -/
noncomputable def runAcc (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : ¬cond0_0 i) (hc1 : cond0_1 i) (hc2 : ¬cond0_2 i)
    (x0 : Vec F S10000x128 .f32) (x1 : Vec F S32x128 .f32) (x2 : Vec F S32x128 .f32) (x3 : Vec F S1x128 .f32) (x4 : Vec F S1x128 .f32) (x5 : Vec F S200x10000 .f32) (xo : Vec F S200x128 .f32) (xs0 : Vec F S10000x128 .bf16) (xs1 : Vec F S10000x128 .f32) (xs2 : Vec F S8x128 .f32) :
    Σ' (LS1 : List (View.Piece (Elt F) S10000x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs0 ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0; obtain rfl := harg10.eq_unread hfs1; obtain rfl := harg11.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexact HS1
    iexact HS2

end Cert.Kernel.Gen

end
-- ==== Proof.KB.RunNorm.lean ====
/-
  The kernel's body at a point of phase 1, run on whole buffers holding given contents: it reads the two statistics rows
  and its 200 aggregated rows and stores their normalisation into the result's buffer, changing nothing else.
-/
import proofs.«133474_g54228257079526_cont_9to1c4b_631_6_alg».proof.Proof.KB.RunAcc

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A point of phase 1: on whole buffers — the inputs at their contents, T, the aggregated rows and the statistics
    at given contents, the result's buffer at anything — the body runs and leaves everything but the result's buffer
    as it was, the result's buffer with the listed stores written. -/
noncomputable def runNorm (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : ¬cond0_0 i) (hc1 : ¬cond0_1 i) (hc2 : cond0_2 i)
    (x0 : Vec F S10000x128 .f32) (x1 : Vec F S32x128 .f32) (x2 : Vec F S32x128 .f32) (x3 : Vec F S1x128 .f32) (x4 : Vec F S1x128 .f32) (x5 : Vec F S200x10000 .f32) (xs0 : Vec F S10000x128 .bf16) (xs1 : Vec F S10000x128 .f32) (xs2 : Vec F S8x128 .f32) :
    { L6 : List (View.Piece (Elt F) S200x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.Kernel.Gen

end
-- ==== Proof.LibLoadAfterStores.lean ====
/-
  Loads after stores, through rectangles. A buffer written by a list of stores (the newest first) and then read
  through a rectangle: the rectangle of the newest store reads that store's value; a rectangle that misses the newest
  store on some axis reads what the earlier stores left. With these a buffer that is filled slice by slice, or row by
  row, is followed through the slices and rows alone, the rest of its contents never named.
-/
import Idealize.ShloMosaic.Lib.Pipeline.FrameBody
import Idealize.ShloMosaic.Lib.Pipeline.Value
import Idealize.ShloMosaic.Lib.WritesUnit

namespace Idealize.ShloMosaic

namespace View

variable {sig : RefSig} {κ : Kind} {sp : Space} {s : Shape} {e : EltTy} {Val : EltTy → Type}

/-- A load through the rectangle of the newest store reads that store's value. -/
theorem ld_read_writes_cons_self (v : View sig κ sp s e) (f : v.ty.Contents Val) (r : Rect s) (w : r.shape.Idx → Val e)
    (L : List (Piece Val s e)) : ld (v.read Val (v.writes Val f (⟨r, w⟩ :: L))) r = w :=
  funext fun x => read_writes_cons_emb v f r w L x

/-- A load through a rectangle whose every index misses, on axis `a`, the unit-stride rectangle of the newest store
    reads what the earlier stores left. -/
theorem ld_read_writes_cons_unit_of_miss (v : View sig κ sp s e) (f : v.ty.Contents Val) {off off' size : Fin s.rank → ℕ}
    (inb : ∀ a, off a + size a ≤ s.size a) (w : (Rect.unit off size inb).shape.Idx → Val e) (L : List (Piece Val s e))
    (r : Rect s) (heq : off = off') (a : Fin s.rank)
    (h : ∀ x : r.shape.Idx, ((r.idx x) a).val < off' a ∨ off' a + size a ≤ ((r.idx x) a).val) :
    ld (v.read Val (v.writes Val f ((⟨Rect.unit off size inb, w⟩ : Piece Val s e) :: L))) r
      = ld (v.read Val (v.writes Val f L)) r :=
  funext fun x => read_writes_cons_unit_of_not_mem v f inb w L (r.idx x) heq a (h x)

/-- After a newest store through the whole shape the buffer reads that store's value, whatever was stored before. -/
theorem read_writes_cons_unit_zero [∀ e, Nonempty (Val e)] (v : View sig κ sp s e) (f : v.ty.Contents Val)
    {off : Fin s.rank → ℕ} (h : off = fun _ => 0) (inb : ∀ a, off a + s.size a ≤ s.size a) (w : s.Idx → Val e)
    (L : List (Piece Val s e)) :
    v.read Val (v.writes Val f ((⟨Rect.unit off s.size inb, w⟩ : Piece Val s e) :: L)) = w := by
  funext y
  rw [read_writes_apply_eq_canon v f y _ ⟨_, List.mem_cons_self, mem_set_unit_zero h inb y⟩, canon_cons_unit_zero h inb w L]

/-- A load through a rectangle of the contents a whole memref was handed reads those contents through it. -/
theorem readAt_unread {m : Memref sig κ sp s e} (h : m.IsWhole) (X : s.Idx → Val e) (r : Rect s) :
    m.view.readAt Val r (h.unread X) = ld X r := by
  rw [readAt_eq_ld, h.read_unread]

/-- What a load reads after stores over nothing in particular, as a load of the buffer's contents after them. -/
theorem readCov_eq_ld [∀ e, Nonempty (Val e)] (v : View sig κ sp s e) (L : List (Piece Val s e)) (r : Rect s) :
    v.readCov L r = ld (v.read Val (v.writes Val v.junk L)) r := rfl

/-- Loads through two unit-stride rectangles of the same sizes at equal offsets read the same. -/
theorem ld_unit_congr {S : Shape} {e' : EltTy} (X : S.Idx → Val e') {off off' size : Fin S.rank → ℕ} (heq : off = off')
    (inb : ∀ a, off a + size a ≤ S.size a) (inb' : ∀ a, off' a + size a ≤ S.size a) :
    HEq (ld X (Rect.unit off size inb)) (ld X (Rect.unit off' size inb')) := by
  subst heq; rfl

end View

end Idealize.ShloMosaic
-- ==== Proof.KB.Pieces.lean ====
/-
  What the kernel's body leaves in each buffer, read through the rectangles that matter: after the first point T's buffer
  holds T, the point's 200 rows of the aggregated-rows buffer hold its block of the adjacency times T, the two statistics
  rows hold the cleared rows plus the block's column sums and sums of squares; after a later point of phase 0 the same
  with the running rows in place of the cleared ones, every other row block untouched; after a point of phase 1 the result's
  buffer holds the normalised rows. Each is read off the stores the body's run lists, newest first.
-/
import proofs.«133474_g54228257079526_cont_9to1c4b_631_6_alg».proof.Proof.KB.RunNorm
import proofs.«133474_g54228257079526_cont_9to1c4b_631_6_alg».proof.Proof.LibLoadAfterStores

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The two statistics rows, as rectangles of the statistics buffer. -/
abbrev row0R : Rect S8x128 := Rect.unit (s := S8x128) ![0, 0] S1x128.size inb_S8x128_S1x128_0_0
abbrev row1R : Rect S8x128 := Rect.unit (s := S8x128) ![1, 0] S1x128.size inb_S8x128_S1x128_1_0
/-- The 200 rows a point of phase 0 stores, and the 200 rows a point of phase 1 reads, as rectangles of the
    aggregated-rows buffer. -/
abbrev sliceA (i : grid0.Coords) (h : cond0_1 i) : Rect S10000x128 := Rect.unit (s := S10000x128) (k0_off1 i) S200x128.size (k0_off1_inb i h)
abbrev sliceN (i : grid0.Coords) (h : cond0_2 i) : Rect S10000x128 := Rect.unit (s := S10000x128) (k0_off2 i) S200x128.size (k0_off2_inb i h)

private theorem hz2 : (![0, 0] : Fin 2 → Nat) = fun _ => 0 := funext fun a => by fin_cases a <;> rfl

/-- T as the first point computes it from the inputs it loads. -/
abbrev featOf (x0 : Vec F S10000x128 .f32) (x1 x2 : Vec F S32x128 .f32) : Vec F S10000x128 .bf16 := k0_pay1 (k0_pay8 x1) (k0_pay9 x2) x0

section First
variable (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : cond0_0 i) (hc1 : cond0_1 i) (hc2 : ¬cond0_2 i)
    (x0 : Vec F S10000x128 .f32) (x1 : Vec F S32x128 .f32) (x2 : Vec F S32x128 .f32) (x3 : Vec F S1x128 .f32) (x4 : Vec F S1x128 .f32) (x5 : Vec F S200x10000 .f32) (xo : Vec F S200x128 .f32) (xs1 : Vec F S10000x128 .f32)

/-- After the first point T's buffer holds T. -/
theorem first_T (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 arg11 harg11 hc0 hc1 hc2 x0 x1 x2 x3 x4 x5 xo xs1).1) = featOf x0 x1 x2 := by
  unfold runFirst; dsimp only; sl_unfold_run_names
  refine (View.read_writes_cons_unit_zero (Val := Elt F) arg9.view f hz2 _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

/-- After the first point its 200 rows of the aggregated-rows buffer hold its block of the adjacency times T. -/
theorem first_rows :
    View.ld (arg10.view.read (Elt F) (arg10.view.writes (Elt F) (harg10.unread xs1) (runFirst c i arg2 harg2 arg3 harg3 arg4 harg4 arg5 harg5 arg6 harg6 arg7 harg7 arg8 harg8 arg9 harg9 arg10 harg10 arg11 harg11 hc0 hc1 hc2 x0 x1 x2 x3 x4 x5 xo xs1).2.1)) (sliceA i hc1)
      = k0_pay4 x5 (featOf x0 x1 x2) := by
  unfold runFirst; dsimp only; sl_unfold_run_names
  refine (View.ld_read_writes_cons_self (Val := Elt F) arg10.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

/-- A rectangle of other rows keeps what the buffer held. -/
theorem first_rows_other (r : Rect S10000x128) (o : ℕ) (ho : k0_off1 i = ![o, 0])
    (h : ∀ x : r.shape.Idx, ((r.idx x) (0 : Fin 2)).val < o ∨ o + 200 ≤ ((r.idx x) (0 : Fin 2)).val) :
    View.ld (arg10.view.read (Elt F) (arg10.view.writes (Elt F) (harg10.unread xs1) (runFirst c i arg2 harg2 arg3 harg3 arg4 harg4 arg5 harg5 arg6 harg6 arg7 harg7 arg8 harg8 arg9 harg9 arg10 harg10 arg11 harg11 hc0 hc1 hc2 x0 x1 x2 x3 x4 x5 xo xs1).2.1)) r
      = View.ld xs1 r := by
  unfold runFirst; dsimp only; sl_unfold_run_names
  refine (View.ld_read_writes_cons_unit_of_miss (Val := Elt F) (size := S200x128.size) arg10.view _ _ _ _ r ho (0 : Fin 2) (fun x => h x)).trans ?_
  rw [View.writes_nil, harg10.read_unread]

/-- After the first point the first statistics row holds the cleared row plus the block's column sums, -/
theorem first_row0 (f : arg11.view.ty.Contents (Elt F)) :
    View.ld (arg11.view.read (Elt F) (arg11.view.writes (Elt F) f (runFirst c i arg2 harg2 arg3 harg3 arg4 harg4 arg5 harg5 arg6 harg6 arg7 harg7 arg8 harg8 arg9 harg9 arg10 harg10 arg11 harg11 hc0 hc1 hc2 x0 x1 x2 x3 x4 x5 xo xs1).2.2.1)) row0R
      = k0_pay5 x5 (featOf x0 x1 x2) (View.ld (k0_pay2 (F := F)) row0R) := by
  unfold runFirst; dsimp only; sl_unfold_run_names
  refine (View.ld_read_writes_cons_unit_of_miss (Val := Elt F) arg11.view _ _ _ _ row0R rfl (0 : Fin 2) (fun x => Or.inl (by show 0 + 1 * (x (0 : Fin 2)).val < 1; have := (x (0 : Fin 2)).isLt; simp only [Nat.one_mul, Nat.zero_add]; exact this))).trans ?_
  refine (View.ld_read_writes_cons_self (Val := Elt F) arg11.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]
  rw [View.readCov_eq_ld, View.read_writes_cons_unit_zero (Val := Elt F) arg11.view _ hz2 inb_S8x128_S8x128_0_0]

/-- and the second the cleared row plus the block's column sums of squares. -/
theorem first_row1 (f : arg11.view.ty.Contents (Elt F)) :
    View.ld (arg11.view.read (Elt F) (arg11.view.writes (Elt F) f (runFirst c i arg2 harg2 arg3 harg3 arg4 harg4 arg5 harg5 arg6 harg6 arg7 harg7 arg8 harg8 arg9 harg9 arg10 harg10 arg11 harg11 hc0 hc1 hc2 x0 x1 x2 x3 x4 x5 xo xs1).2.2.1)) row1R
      = k0_pay6 x5 (featOf x0 x1 x2) (View.ld (k0_pay2 (F := F)) row1R) := by
  unfold runFirst; dsimp only; sl_unfold_run_names
  refine (View.ld_read_writes_cons_self (Val := Elt F) arg11.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]
  rw [View.readCov_eq_ld]
  rw [View.ld_read_writes_cons_unit_of_miss (Val := Elt F) arg11.view _ _ _ _ row1R rfl (0 : Fin 2) (fun x => Or.inr (by show 0 + 1 ≤ 1 + 1 * (x (0 : Fin 2)).val; omega))]
  rw [View.read_writes_cons_unit_zero (Val := Elt F) arg11.view _ hz2 inb_S8x128_S8x128_0_0]

end First

section Acc
variable (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : ¬cond0_0 i) (hc1 : cond0_1 i) (hc2 : ¬cond0_2 i)
    (x0 : Vec F S10000x128 .f32) (x1 : Vec F S32x128 .f32) (x2 : Vec F S32x128 .f32) (x3 : Vec F S1x128 .f32) (x4 : Vec F S1x128 .f32) (x5 : Vec F S200x10000 .f32) (xo : Vec F S200x128 .f32) (xs0 : Vec F S10000x128 .bf16) (xs1 : Vec F S10000x128 .f32) (xs2 : Vec F S8x128 .f32)

/-- After a later point of phase 0 its 200 rows hold its block of the adjacency times what T's buffer held, -/
theorem acc_rows :
    View.ld (arg10.view.read (Elt F) (arg10.view.writes (Elt F) (harg10.unread xs1) (runAcc c i arg2 harg2 arg3 harg3 arg4 harg4 arg5 harg5 arg6 harg6 arg7 harg7 arg8 harg8 arg9 harg9 arg10 harg10 arg11 harg11 hc0 hc1 hc2 x0 x1 x2 x3 x4 x5 xo xs0 xs1 xs2).1)) (sliceA i hc1)
      = k0_pay4 x5 xs0 := by
  unfold runAcc; dsimp only; sl_unfold_run_names
  refine (View.ld_read_writes_cons_self (Val := Elt F) arg10.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

/-- a rectangle of other rows keeps what the buffer held, -/
theorem acc_rows_other (r : Rect S10000x128) (o : ℕ) (ho : k0_off1 i = ![o, 0])
    (h : ∀ x : r.shape.Idx, ((r.idx x) (0 : Fin 2)).val < o ∨ o + 200 ≤ ((r.idx x) (0 : Fin 2)).val) :
    View.ld (arg10.view.read (Elt F) (arg10.view.writes (Elt F) (harg10.unread xs1) (runAcc c i arg2 harg2 arg3 harg3 arg4 harg4 arg5 harg5 arg6 harg6 arg7 harg7 arg8 harg8 arg9 harg9 arg10 harg10 arg11 harg11 hc0 hc1 hc2 x0 x1 x2 x3 x4 x5 xo xs0 xs1 xs2).1)) r
      = View.ld xs1 r := by
  unfold runAcc; dsimp only; sl_unfold_run_names
  refine (View.ld_read_writes_cons_unit_of_miss (Val := Elt F) (size := S200x128.size) arg10.view _ _ _ _ r ho (0 : Fin 2) (fun x => h x)).trans ?_
  rw [View.writes_nil, harg10.read_unread]

/-- the first statistics row holds what it held plus the block's column sums, -/
theorem acc_row0 :
    View.ld (arg11.view.read (Elt F) (arg11.view.writes (Elt F) (harg11.unread xs2) (runAcc c i arg2 harg2 arg3 harg3 arg4 harg4 arg5 harg5 arg6 harg6 arg7 harg7 arg8 harg8 arg9 harg9 arg10 harg10 arg11 harg11 hc0 hc1 hc2 x0 x1 x2 x3 x4 x5 xo xs0 xs1 xs2).2.1)) row0R
      = k0_pay5 x5 xs0 (View.ld xs2 row0R) := by
  unfold runAcc; dsimp only; sl_unfold_run_names
  refine (View.ld_read_writes_cons_unit_of_miss (Val := Elt F) arg11.view _ _ _ _ row0R rfl (0 : Fin 2) (fun x => Or.inl (by show 0 + 1 * (x (0 : Fin 2)).val < 1; have := (x (0 : Fin 2)).isLt; simp only [Nat.one_mul, Nat.zero_add]; exact this))).trans ?_
  refine (View.ld_read_writes_cons_self (Val := Elt F) arg11.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

/-- and the second what it held plus the block's column sums of squares. -/
theorem acc_row1 :
    View.ld (arg11.view.read (Elt F) (arg11.view.writes (Elt F) (harg11.unread xs2) (runAcc c i arg2 harg2 arg3 harg3 arg4 harg4 arg5 harg5 arg6 harg6 arg7 harg7 arg8 harg8 arg9 harg9 arg10 harg10 arg11 harg11 hc0 hc1 hc2 x0 x1 x2 x3 x4 x5 xo xs0 xs1 xs2).2.1)) row1R
      = k0_pay6 x5 xs0 (View.ld xs2 row1R) := by
  unfold runAcc; dsimp only; sl_unfold_run_names
  refine (View.ld_read_writes_cons_self (Val := Elt F) arg11.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

end Acc

section Norm
variable (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : ¬cond0_0 i) (hc1 : ¬cond0_1 i) (hc2 : cond0_2 i)
    (x0 : Vec F S10000x128 .f32) (x1 : Vec F S32x128 .f32) (x2 : Vec F S32x128 .f32) (x3 : Vec F S1x128 .f32) (x4 : Vec F S1x128 .f32) (x5 : Vec F S200x10000 .f32) (xs0 : Vec F S10000x128 .bf16) (xs1 : Vec F S10000x128 .f32) (xs2 : Vec F S8x128 .f32)

/-- After a point of phase 1 the result's buffer holds the normalisation of the point's 200 aggregated rows by the two
    statistics rows, the scale and the shift. -/
theorem norm_out (f : arg8.view.ty.Contents (Elt F)) :
    arg8.view.read (Elt F) (arg8.view.writes (Elt F) f (runNorm c i arg2 harg2 arg3 harg3 arg4 harg4 arg5 harg5 arg6 harg6 arg7 harg7 arg8 harg8 arg9 harg9 arg10 harg10 arg11 harg11 hc0 hc1 hc2 x0 x1 x2 x3 x4 x5 xs0 xs1 xs2).1)
      = k0_pay7 (View.ld xs2 row0R) (View.ld xs2 row1R) x3 (View.ld xs1 (sliceN i hc2)) x4 := by
  unfold runNorm; dsimp only; sl_unfold_run_names
  refine (View.read_writes_cons_unit_zero (Val := Elt F) arg8.view f hz2 _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

end Norm

end Cert.Kernel.Gen

end
-- ==== Proof.KB.State.lean ====
/-
  What the layer's kernel keeps in its three scratch buffers from grid point to grid point, in closed form over the
  blocks the points find: T after the first point; the aggregated rows of every row block phase 0 has passed; the running
  column sums and sums of squares in the two statistics rows. From these, the block of the result each point of phase 1
  stores, and the proof data of the pipeline.
-/
import proofs.«133474_g54228257079526_cont_9to1c4b_631_6_alg».proof.Proof.KB.Pieces

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Grid point number `j`. -/
abbrev pt (j : ℕ) (h : j < 100) : Fin cfg0.N := ⟨j, lt_of_lt_of_eq h (show cfg0.N = 100 from N_0).symm⟩

/-- The 200 rows of row block `j`, as a rectangle of the aggregated-rows buffer. -/
def sliceR (j : ℕ) (h : j < 50) : Rect S10000x128 :=
  Rect.unit (s := S10000x128) ![200 * j, 0] S200x128.size (fun a => by
    match a with
    | ⟨0, _⟩ => show 200 * j + 200 ≤ 10000; omega
    | ⟨1, _⟩ => show 0 + 128 ≤ 128; omega)

/-- In phase 0 point `t` stores rows 200·t …, in phase 1 point `t` reads rows 200·(t − 50) …: decided over the grid. -/
theorem off1_eq : ∀ t : Fin cfg0.N, t.val < 50 → k0_off1 (grid0.coords t) = ![200 * t.val, 0] :=
  (by decide +kernel : ∀ t : Fin grid0.N, t.val < 50 → k0_off1 (grid0.coords t) = ![200 * t.val, 0])
theorem off2_eq : ∀ t : Fin cfg0.N, 50 ≤ t.val → k0_off2 (grid0.coords t) = ![200 * (t.val - 50), 0] :=
  (by decide +kernel : ∀ t : Fin grid0.N, 50 ≤ t.val → k0_off2 (grid0.coords t) = ![200 * (t.val - 50), 0])

/-! ## What the scratch buffers hold, in closed form -/

/-- T, as the first point computes it from the blocks it finds. -/
def Tk (c : Dev nD) : Vec F S10000x128 .bf16 := featOf (iblk m c 0 (pt 0 (by omega))) (iblk m c 1 (pt 0 (by omega))) (iblk m c 2 (pt 0 (by omega)))

/-- The aggregated rows of row block `j`: the block of the adjacency point `j` finds, times T. -/
def acc (c : Dev nD) (j : ℕ) (h : j < 50) : Vec F S200x128 .f32 := k0_pay4 (iblk m c 5 (pt j (by omega))) (Tk m c)

/-- The running column sums after row block `j`: from the cleared statistics, one block's sums added per point. -/
def s0 (c : Dev nD) : (j : ℕ) → j < 50 → Vec F S1x128 .f32
  | 0, _ => k0_pay5 (iblk m c 5 (pt 0 (by omega))) (Tk m c) (View.ld (k0_pay2 (F := F)) row0R)
  | j + 1, h => k0_pay5 (iblk m c 5 (pt (j + 1) (by omega))) (Tk m c) (s0 c j (by omega))

/-- The running column sums of squares after row block `j`. -/
def s1 (c : Dev nD) : (j : ℕ) → j < 50 → Vec F S1x128 .f32
  | 0, _ => k0_pay6 (iblk m c 5 (pt 0 (by omega))) (Tk m c) (View.ld (k0_pay2 (F := F)) row1R)
  | j + 1, h => k0_pay6 (iblk m c 5 (pt (j + 1) (by omega))) (Tk m c) (s1 c j (by omega))

/-- The block of the result point `t` of phase 1 stores: its aggregated rows normalised by the completed statistics. -/
def outBlk (c : Dev nD) (t : Fin cfg0.N) (h : 50 ≤ t.val) : Vec F S200x128 .f32 :=
  k0_pay7 (s0 m c 49 (by omega)) (s1 m c 49 (by omega)) (iblk m c 3 t)
    (acc m c (t.val - 50) (by have := lt_of_lt_of_eq t.isLt (show cfg0.N = 100 from N_0); omega)) (iblk m c 4 t)

/-- What the three scratch buffers hold after point `n`: T; the rows of every block up to `n` (of phase 0) aggregated;
    the two statistics rows at the running sums. Nothing is said of the other rows. -/
def Good (c : Dev nD) (n : ℕ) (T : Vec F S10000x128 .bf16) (R : Vec F S10000x128 .f32) (S : Vec F S8x128 .f32) : Prop :=
  T = Tk m c ∧ (∀ (j : ℕ) (h : j < 50), j ≤ n → View.ld R (sliceR j h) = acc m c j h)
    ∧ View.ld S row0R = s0 m c (min n 49) (by omega) ∧ View.ld S row1R = s1 m c (min n 49) (by omega)

/-- The region invariant before point `n`: what the launch hands over before the first point; afterwards the scratch
    buffers at contents that are `Good` for the point before, and the generator register at some state. -/
def PhiS (c : Dev nD) : (n : ℕ) → n ≤ cfg0.N → sProp 𝕄
  | 0, _ => Pipeline.ΦA spec0 c
  | n + 1, _ => iprop(iprop(∃ T R S, ⌜Good m c n T R S⌝ ∗ owns (c : Thread nD τ) scM0_0 fullShare T ∗ owns (c : Thread nD τ) scM0_1 fullShare R ∗ owns (c : Thread nD τ) scM0_2 fullShare S) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ T R S, ⌜Good m c n T R S⌝ ∗ owns (c : Thread nD τ) scM0_0 fullShare T ∗ owns (c : Thread nD τ) scM0_1 fullShare R ∗ owns (c : Thread nD τ) scM0_2 fullShare S) ∗ (∃ r, prngReg c r)) := rfl

theorem PhiS_pos (c : Dev nD) (n : ℕ) (h : n ≤ cfg0.N) (hz : n ≠ 0) :
    PhiS m c n h = iprop(iprop(∃ T R S, ⌜Good m c (n - 1) T R S⌝ ∗ owns (c : Thread nD τ) scM0_0 fullShare T ∗ owns (c : Thread nD τ) scM0_1 fullShare R ∗ owns (c : Thread nD τ) scM0_2 fullShare S) ∗ (∃ r, prngReg c r)) := by
  cases n with
  | zero => exact absurd rfl hz
  | succ n => rfl

/-! ## The pipeline's proof data -/

/-- The proof data on core `c`: the arrays as the region finds them; after the body at point `t` each input's buffer
    at its block, the result's buffer at the block the point stores (phase 1; in phase 0 the body leaves it alone);
    the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => if h50 : 50 ≤ t.val then outBlk m c t h50 else Pipeline.Dat.unnamed (cfg := cfg0) ⟨6, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) (h : 50 ≤ t.val) : (dats m 0 c).after 6 t = outBlk m c t h := by
  dsimp only [dats]; rw [dif_pos h]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.Kernel.Gen

end
-- ==== Proof.KB.Body.lean ====
/-
  The frame of the layer's kernel: at every grid point the body, run from the region's invariant and the windows'
  buffers, re-establishes the invariant for the next point and leaves every window's buffer as the pipeline expects;
  hence the whole program runs, terminates, and leaves its argument arrays unchanged, with the result array at the
  blocks the points of phase 1 wrote back.
-/
import proofs.«133474_g54228257079526_cont_9to1c4b_631_6_alg».proof.Proof.KB.State

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## Loads through a point's rows are loads through its row block's -/

theorem ld_sliceA (X : Vec F S10000x128 .f32) (t : Fin cfg0.N) (ht : t.val < 50) (hc1 : cond0_1 (grid0.coords t)) :
    View.ld X (sliceA (grid0.coords t) hc1) = View.ld X (sliceR t.val ht) := by
  funext x
  show X ((sliceA (grid0.coords t) hc1).idx x) = X ((sliceR t.val ht).idx x)
  congr 1; funext a; apply Fin.ext
  show k0_off1 (grid0.coords t) a + 1 * (x a).val = (![200 * t.val, 0] : Fin 2 → ℕ) a + 1 * (x a).val
  rw [off1_eq t ht]

theorem ld_sliceN (X : Vec F S10000x128 .f32) (t : Fin cfg0.N) (ht : 50 ≤ t.val) (hc2 : cond0_2 (grid0.coords t)) :
    View.ld X (sliceN (grid0.coords t) hc2)
      = View.ld X (sliceR (t.val - 50) (by have := lt_of_lt_of_eq t.isLt (show cfg0.N = 100 from N_0); omega)) := by
  funext x
  show X ((sliceN (grid0.coords t) hc2).idx x) = X ((sliceR (t.val - 50) _).idx x)
  congr 1; funext a; apply Fin.ext
  show k0_off2 (grid0.coords t) a + 1 * (x a).val = (![200 * (t.val - 50), 0] : Fin 2 → ℕ) a + 1 * (x a).val
  rw [off2_eq t ht]

theorem s0_congr (c : Dev nD) {j j' : ℕ} (e : j = j') (h : j < 50) (h' : j' < 50) : s0 m c j h = s0 m c j' h' := by subst e; rfl
theorem s1_congr (c : Dev nD) {j j' : ℕ} (e : j = j') (h : j < 50) (h' : j' < 50) : s1 m c j h = s1 m c j' h' := by subst e; rfl
theorem acc_congr (c : Dev nD) {j j' : ℕ} (e : j = j') (h : j < 50) (h' : j' < 50) : acc m c j h = acc m c j' h' := by subst e; rfl

/-- The rows of block `j` lie apart from the rows of a later block `n`. -/
theorem sliceR_rows_lt (j n : ℕ) (h : j < 50) (hjn : j < n) (x : (sliceR j h).shape.Idx) :
    (((sliceR j h).idx x) (0 : Fin 2)).val < 200 * n ∨ 200 * n + 200 ≤ (((sliceR j h).idx x) (0 : Fin 2)).val := by
  left
  show 200 * j + 1 * (x (0 : Fin 2)).val < 200 * n
  have hx : (x (0 : Fin 2)).val < 200 := (x (0 : Fin 2)).isLt
  omega

/-! ## The scratch contents stay good -/

theorem good_first (c : Dev nD) (t : Fin cfg0.N) (hz : t.val = 0) (hc0 : cond0_0 (grid0.coords t)) (hc1 : cond0_1 (grid0.coords t)) (hc2 : ¬cond0_2 (grid0.coords t))
    (xo : Vec F S200x128 .f32) (d1 : Vec F S10000x128 .f32) (es0 : VS0_0.ty.Contents (Elt F)) (es2 : VS0_2.ty.Contents (Elt F)) :
    Good m c t.val
      (VS0_0.read (Elt F) (VS0_0.writes (Elt F) es0 (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) xo d1).1))
      (VS0_1.read (Elt F) (VS0_1.writes (Elt F) ((Memref.isWhole_whole cc0_scratch1).unread d1) (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) xo d1).2.1))
      (VS0_2.read (Elt F) (VS0_2.writes (Elt F) es2 (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) xo d1).2.2.1)) := by
  have e : t = pt 0 (by decide) := Fin.ext hz
  subst e
  refine ⟨first_T _ _ _ _ _ _ _ _ _ _ _ _ _ _ _ _ _ _ _ _ _ _ hc0 hc1 hc2 _ _ _ _ _ _ _ _ es0, fun j h hj => ?_, ?_, ?_⟩
  · obtain rfl : j = 0 := Nat.le_zero.mp hj
    rw [← ld_sliceA _ (pt 0 (by decide)) (by show 0 < 50; decide) hc1]
    exact first_rows _ _ _ _ _ _ _ _ _ _ _ _ _ _ _ _ _ _ _ _ _ _ hc0 hc1 hc2 _ _ _ _ _ _ _ _
  · exact first_row0 _ _ _ _ _ _ _ _ _ _ _ _ _ _ _ _ _ _ _ _ _ _ hc0 hc1 hc2 _ _ _ _ _ _ _ _ es2
  · exact first_row1 _ _ _ _ _ _ _ _ _ _ _ _ _ _ _ _ _ _ _ _ _ _ hc0 hc1 hc2 _ _ _ _ _ _ _ _ es2

theorem good_acc (c : Dev nD) (t : Fin cfg0.N) (h0 : t.val ≠ 0) (h50 : t.val < 50) (hc0 : ¬cond0_0 (grid0.coords t)) (hc1 : cond0_1 (grid0.coords t)) (hc2 : ¬cond0_2 (grid0.coords t))
    (xo : Vec F S200x128 .f32) (T : Vec F S10000x128 .bf16) (R : Vec F S10000x128 .f32) (S : Vec F S8x128 .f32)
    (hG : Good m c (t.val - 1) T R S) :
    Good m c t.val T
      (VS0_1.read (Elt F) (VS0_1.writes (Elt F) ((Memref.isWhole_whole cc0_scratch1).unread R) (runAcc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) xo T R S).1))
      (VS0_2.read (Elt F) (VS0_2.writes (Elt F) ((Memref.isWhole_whole cc0_scratch2).unread S) (runAcc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) xo T R S).2.1)) := by
  obtain ⟨n, hn⟩ := t
  cases n with
  | zero => exact absurd rfl h0
  | succ k =>
    have hk : k + 1 < 50 := h50
    have hG' : Good m c k T R S := hG
    obtain ⟨hT, hR, hS0, hS1⟩ := hG'
    subst hT
    refine ⟨rfl, fun j h hj => ?_, ?_, ?_⟩
    · by_cases hjt : j = k + 1
      · subst hjt
        rw [← ld_sliceA _ ⟨k + 1, hn⟩ h50 hc1]
        exact acc_rows _ _ _ _ _ _ _ _ _ _ _ _ _ _ _ _ _ _ _ _ _ _ hc0 hc1 hc2 _ _ _ _ _ _ _ _ _ _
      · rw [acc_rows_other _ _ _ _ _ _ _ _ _ _ _ _ _ _ _ _ _ _ _ _ _ _ hc0 hc1 hc2 _ _ _ _ _ _ _ _ _ _ (sliceR j h) (200 * (k + 1)) (off1_eq ⟨k + 1, hn⟩ h50)
          (sliceR_rows_lt j (k + 1) h (by have : j ≤ k + 1 := hj; omega))]
        exact hR j h (by have : j ≤ k + 1 := hj; omega)
    · rw [acc_row0 _ _ _ _ _ _ _ _ _ _ _ _ _ _ _ _ _ _ _ _ _ _ hc0 hc1 hc2 _ _ _ _ _ _ _ _ _ _, hS0, s0_congr m c (show min k 49 = k by omega) (by omega) (by omega)]
      exact (s0_congr m c (show min (k + 1) 49 = k + 1 by omega) (by omega) hk).symm ▸ rfl
    · rw [acc_row1 _ _ _ _ _ _ _ _ _ _ _ _ _ _ _ _ _ _ _ _ _ _ hc0 hc1 hc2 _ _ _ _ _ _ _ _ _ _, hS1, s1_congr m c (show min k 49 = k by omega) (by omega) (by omega)]
      exact (s1_congr m c (show min (k + 1) 49 = k + 1 by omega) (by omega) hk).symm ▸ rfl

theorem good_norm (c : Dev nD) (t : Fin cfg0.N) (h50 : 50 ≤ t.val)
    (T : Vec F S10000x128 .bf16) (R : Vec F S10000x128 .f32) (S : Vec F S8x128 .f32) (hG : Good m c (t.val - 1) T R S) :
    Good m c t.val T R S := by
  obtain ⟨hT, hR, hS0, hS1⟩ := hG
  exact ⟨hT, fun j h _ => hR j h (by omega), hS0.trans (s0_congr m c (by omega) _ _), hS1.trans (s1_congr m c (by omega) _ _)⟩

/-- What a point of phase 1 stores is its block of the result. -/
theorem out_norm (c : Dev nD) (t : Fin cfg0.N) (h50 : 50 ≤ t.val) (hc0 : ¬cond0_0 (grid0.coords t)) (hc1 : ¬cond0_1 (grid0.coords t)) (hc2 : cond0_2 (grid0.coords t))
    (T : Vec F S10000x128 .bf16) (R : Vec F S10000x128 .f32) (S : Vec F S8x128 .f32) (hG : Good m c (t.val - 1) T R S)
    (f : (VO0_6 t).ty.Contents (Elt F)) :
    (VO0_6 t).read (Elt F) ((VO0_6 t).writes (Elt F) f (runNorm c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) T R S).1)
      = (dats m 0 c).after 6 t := by
  obtain ⟨hT, hR, hS0, hS1⟩ := hG
  have hN : t.val < 100 := lt_of_lt_of_eq t.isLt (show cfg0.N = 100 from N_0)
  rw [after0_6 m c t h50, norm_out _ _ _ _ _ _ _ _ _ _ _ _ _ _ _ _ _ _ _ _ _ _ hc0 hc1 hc2 _ _ _ _ _ _ _ _ _ f, ld_sliceN _ t h50 hc2,
    hR (t.val - 50) (by omega) (by omega), hS0, hS1, s0_congr m c (show min (t.val - 1) 49 = 49 by omega) (by omega) (by omega),
    s1_congr m c (show min (t.val - 1) 49 = 49 by omega) (by omega) (by omega)]
  rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the inputs' buffers hold their blocks; the point's number says which branches it takes; the
    invariant hands the body the scratch buffers at good contents (at anything before the first point) and takes them back
    at what the run leaves, which is good again; in phase 0 the result's buffer is handed back as found, in phase 1 it is left
    at the point's block of the result; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 100 := lt_of_lt_of_eq t.isLt (show cfg0.N = 100 from N_0)
  by_cases h50 : t.val < 50
  · have hidle : cfg0.idle 6 (grid0.coords t) = true := (idleAt0_6 t).mpr h50
    have hfl : (cfg0.win 6).flush t = false := Bool.eq_false_iff.mpr fun h => by have := (flush0_6 t).mp h; omega
    rw [(dats m 0 c).leavesExact_idle 6 t hidle hfl]
    have hc1 : cond0_1 (grid0.coords t) := (hcond0_1 t).mpr h50
    have hc2 : ¬cond0_2 (grid0.coords t) := fun h => by have := (hcond0_2 t).mp h; omega
    by_cases hz : t.val = 0
    · have hc0 : cond0_0 (grid0.coords t) := (hcond0_0 t).mpr hz
      rw [PhiS_castSucc m c t, PhiS_zero m c _ _ hz, PhiA0_eq]
      iintro ⟨⟨⟨HS0, ⟨%d1, HS1⟩, HS2⟩, Hg⟩, Ho, ⟨%d0, H0⟩, ⟨%d1', H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) ((dats m 0 c).before 6 t d6) d1).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, HS1, ⟨%es2, HS2⟩⟩
      isplitl [HS0 HS1 HS2 Hg]
      · isplitl [HS0 HS1 HS2]
        · iexists _, _, _
          isplitr; swap
          · isplitl [HS0]
            · unfold owns; iexists _; isplitr; swap; · iexact HS0
              ipureintro; rfl
            isplitl [HS1]
            · unfold owns; iexists _; isplitr; swap; · iexact HS1
              ipureintro; rfl
            unfold owns; iexists _; isplitr; swap; · iexact HS2
            ipureintro; rfl
          ipureintro; exact good_first m c t hz hc0 hc1 hc2 _ d1 es0 es2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬cond0_0 (grid0.coords t) := fun h => hz ((hcond0_0 t).mp h)
      rw [PhiS_castSucc m c t, PhiS_pos m c _ _ hz]
      iintro ⟨⟨⟨%T, %R, %S, %hG, HS0, HS1, HS2⟩, Hg⟩, Ho, ⟨%d0, H0⟩, ⟨%d1', H1⟩, ⟨%d2, H2⟩, ⟨%d3, H3⟩, ⟨%d4, H4⟩, ⟨%d5, H5⟩, ⟨%d6, H6⟩⟩
      iapply ((runAcc c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) ((dats m 0 c).before 6 t d6) T R S).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · iexists _, _, _
          isplitr; swap
          · isplitl [HS0]; · iexact HS0
            isplitl [HS1]
            · unfold owns; iexists _; isplitr; swap; · iexact HS1
              ipureintro; rfl
            unfold owns; iexists _; isplitr; swap; · iexact HS2
            ipureintro; rfl
          ipureintro; exact good_acc m c t hz h50 hc0 hc1 hc2 _ T R S hG
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h50' : 50 ≤ t.val := by omega
    have hz : t.val ≠ 0 := by omega
    have hlive : cfg0.idle 6 (grid0.coords t) = false := Bool.eq_false_iff.mpr fun h => by have := (idleAt0_6 t).mp h; omega
    rw [show (dats m 0 c).leavesExact 6 t = owns (c : Thread nD τ) (ms0_6 t) fullShare ((dats m 0 c).after 6 t) from by
      unfold Dat.leavesExact; rw [hlive]]
    have hc0 : ¬cond0_0 (grid0.coords t) := fun h => hz ((hcond0_0 t).mp h)
    have hc1 : ¬cond0_1 (grid0.coords t) := fun h => h50 ((hcond0_1 t).mp h)
    have hc2 : cond0_2 (grid0.coords t) := (hcond0_2 t).mpr h50'
    rw [PhiS_castSucc m c t, PhiS_pos m c _ _ hz]
    iintro ⟨⟨⟨%T, %R, %S, %hG, HS0, HS1, HS2⟩, Hg⟩, Ho, ⟨%d0, H0⟩, ⟨%d1', H1⟩, ⟨%d2, H2⟩, ⟨%d3, H3⟩, ⟨%d4, H4⟩, ⟨%d5, H5⟩, ⟨%d6, H6⟩⟩
    iapply ((runNorm c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) T R S).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, HS0, HS1, HS2⟩
    isplitl [HS0 HS1 HS2 Hg]
    · isplitl [HS0 HS1 HS2]
      · iexists T, R, S
        isplitr; · ipureintro; exact good_norm m c t h50' T R S hG
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H6
    ipureintro; exact out_norm m c t h50' hc0 hc1 hc2 T R S hG e6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 100 := N_0; omega), PhiA0_eq]
  iintro ⟨⟨%T, %R, %S, -, HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, and every final state has every array of the pipeline at what the
    library computes from the proof data — the result at its blocks written back one by one — and every other unscoped
    buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen

end
-- ==== Proof.KI.Cases.lean ====
/-
  The three branches of the layer's kernel, decided over its grid of 2 × 50 points (phase, row block).

  Phase 0, block 0 builds T = tanh(x·H(w1))·H(w2) into a scratch and clears the statistics; every point of phase 0
  multiplies its 200 rows of the adjacency by T, keeps the product in its rows of a second scratch and adds the
  rows' column sums and sums of squares to the statistics; every point of phase 1 normalises its 200 rows.
  Here: which points take which branch, where the result's window is written back, and the names of the
  buffers the body is run on.
-/
import proofs.«133474_g54228257079526_cont_9to1c4b_631_6_alg».proof.Proof.Gen.KernelIdeal.Frame
import proofs.«133474_g54228257079526_cont_9to1c4b_631_6_alg».proof.Proof.Gen.KernelIdeal.Skeleton

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The first branch (build T, clear the statistics) is taken at the first point only. -/
abbrev cond0_0 (i : grid0.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
theorem hcond0_0 : ∀ t : Fin cfg0.N, cond0_0 (grid0.coords t) ↔ t.val = 0 :=
  (by decide +kernel : ∀ t : Fin grid0.N, cond0_0 (grid0.coords t) ↔ t.val = 0)

/-- The second branch (aggregate a row block) is taken in phase 0: the first 50 points. -/
abbrev cond0_1 (i : grid0.Coords) : Prop := k0_cond2 i = 1#1
theorem hcond0_1 : ∀ t : Fin cfg0.N, cond0_1 (grid0.coords t) ↔ t.val < 50 :=
  (by decide +kernel : ∀ t : Fin grid0.N, cond0_1 (grid0.coords t) ↔ t.val < 50)

/-- The third branch (normalise a row block) is taken in phase 1: the last 50 points. -/
abbrev cond0_2 (i : grid0.Coords) : Prop := k0_cond3 i = 1#1
theorem hcond0_2 : ∀ t : Fin cfg0.N, cond0_2 (grid0.coords t) ↔ 50 ≤ t.val :=
  (by decide +kernel : ∀ t : Fin grid0.N, cond0_2 (grid0.coords t) ↔ 50 ≤ t.val)

/-- The inputs' windows are never idle. -/
theorem liveAt0_0 : ∀ t : Fin cfg0.N, cfg0.idle 0 (grid0.coords t) = false := by decide +kernel
theorem liveAt0_1 : ∀ t : Fin cfg0.N, cfg0.idle 1 (grid0.coords t) = false := by decide +kernel
theorem liveAt0_2 : ∀ t : Fin cfg0.N, cfg0.idle 2 (grid0.coords t) = false := by decide +kernel
theorem liveAt0_3 : ∀ t : Fin cfg0.N, cfg0.idle 3 (grid0.coords t) = false := by decide +kernel
theorem liveAt0_4 : ∀ t : Fin cfg0.N, cfg0.idle 4 (grid0.coords t) = false := by decide +kernel
theorem liveAt0_5 : ∀ t : Fin cfg0.N, cfg0.idle 5 (grid0.coords t) = false := by decide +kernel
/-- The result's window is idle through phase 0 and live in phase 1, -/
theorem idleAt0_6 : ∀ t : Fin cfg0.N, cfg0.idle 6 (grid0.coords t) = true ↔ t.val < 50 :=
  (by decide +kernel : ∀ t : Fin grid0.N, cfg0.idle 6 (grid0.coords t) = true ↔ t.val < 50)
/-- and written back after every point of phase 1 and no other. -/
theorem flush0_6 : ∀ t : Fin cfg0.N, (cfg0.win 6).flush t = true ↔ 50 ≤ t.val :=
  (by decide +kernel : ∀ t : Fin grid0.N, win0_6.flush t = true ↔ 50 ≤ t.val)

/-- Each window's current staging buffer at point `t`, and that it is a whole buffer. -/
abbrev ms0_0 (t : Fin cfg0.N) : Memref sig .tc .vmem S10000x128 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S32x128 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S32x128 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x128 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S200x10000 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S200x128 .f32 := win0_6.stage (cfg0.slots t 6)
abbrev hs0_6 (t : Fin cfg0.N) : (ms0_6 t).IsWhole := hstage0_6 ((cfg0.slots t 6).cast nbuf0_6)
/-- The three scratch buffers: T, the aggregated rows, the statistics. -/
abbrev scM0_0 : Memref sig .tc .vmem S10000x128 .bf16 := Memref.whole cc0_scratch0
abbrev scM0_1 : Memref sig .tc .vmem S10000x128 .f32 := Memref.whole cc0_scratch1
abbrev scM0_2 : Memref sig .tc .vmem S8x128 .f32 := Memref.whole cc0_scratch2
abbrev VS0_0 : View sig .tc .vmem S10000x128 .bf16 := scM0_0.view
abbrev VS0_1 : View sig .tc .vmem S10000x128 .f32 := scM0_1.view
abbrev VS0_2 : View sig .tc .vmem S8x128 .f32 := scM0_2.view
abbrev VO0_6 (t : Fin cfg0.N) : View sig .tc .vmem S200x128 .f32 := (ms0_6 t).view

/-- What the launch hands the region, with the scratch buffers as buffers owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Gen

end
-- ==== Proof.KI.RunFirst.lean ====
/-
  The kernel's body at the first grid point, run on whole buffers: it builds T = tanh(x·H(w1))·H(w2) into its
  scratch, clears the statistics, and then — the point being in phase 0 — stores its 200 aggregated rows and adds their
  column sums and sums of squares to the statistics. The stores each buffer ends with are found by running the body.
-/
import proofs.«133474_g54228257079526_cont_9to1c4b_631_6_alg».proof.Proof.KI.Cases

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The first point: on whole buffers — the inputs and the result's buffer at their contents, the aggregated rows at
    given contents, T and the statistics at anything — the body runs and leaves T's buffer, the aggregated rows' and
    the statistics' with the listed stores written, the rest as it was. -/
noncomputable def runFirst (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : cond0_0 i) (hc1 : cond0_1 i) (hc2 : ¬cond0_2 i)
    (x0 : Vec F S10000x128 .f32) (x1 : Vec F S32x128 .f32) (x2 : Vec F S32x128 .f32) (x3 : Vec F S1x128 .f32) (x4 : Vec F S1x128 .f32) (x5 : Vec F S200x10000 .f32) (xo : Vec F S200x128 .f32) (xs1 : Vec F S10000x128 .f32) :
    Σ' (LS0 : List (View.Piece (Elt F) S10000x128 .bf16)) (LS1 : List (View.Piece (Elt F) S10000x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ d, owns (c : Thread nD τ) arg9 fullShare d) ∗ owns (c : Thread nD τ) arg10 fullShare xs1 ∗ (∃ d, owns (c : Thread nD τ) arg11 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ (∃ f, arg9.view.loc (c : Thread nD τ) ↦[arg9.view.set]{fullShare} arg9.view.writes (Elt F) f LS0) ∗ (arg10.view.loc (c : Thread nD τ) ↦[arg10.view.set]{fullShare} arg10.view.writes (Elt F) (harg10.unread xs1) LS1) ∗ (∃ f, arg11.view.loc (c : Thread nD τ) ↦[arg11.view.set]{fullShare} arg11.view.writes (Elt F) f LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, ?_, fun E K => ?run⟩
  case run =>
    simp only [cc0__body_eq_skeleton]; unfold cc0__body_skel
    simp only [k0_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%ds0, %fs0, -, HS0⟩, ⟨%fs1, %hfs1, HS1⟩, ⟨%ds2, %fs2, -, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg10.eq_unread hfs1
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]; · iexists _; iexact HS0
    isplitl [HS1]; · iexact HS1
    iexists _; iexact HS2

end Cert.KernelIdeal.Gen

end
-- ==== Proof.KI.RunAcc.lean ====
/-
  The kernel's body at a later point of phase 0, run on whole buffers holding given contents: it multiplies its 200
  rows of the adjacency by T, stores the product in its rows of the aggregated-rows scratch and adds the rows' column sums
  and sums of squares to the two statistics rows. The stores are found by running the body.
-/
import proofs.«133474_g54228257079526_cont_9to1c4b_631_6_alg».proof.Proof.KI.RunFirst

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A later point of phase 0: on whole buffers at given contents the body runs and leaves the aggregated rows' buffer and
    the statistics' with the listed stores written over what they held, the rest as it was. -/
noncomputable def runAcc (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : ¬cond0_0 i) (hc1 : cond0_1 i) (hc2 : ¬cond0_2 i)
    (x0 : Vec F S10000x128 .f32) (x1 : Vec F S32x128 .f32) (x2 : Vec F S32x128 .f32) (x3 : Vec F S1x128 .f32) (x4 : Vec F S1x128 .f32) (x5 : Vec F S200x10000 .f32) (xo : Vec F S200x128 .f32) (xs0 : Vec F S10000x128 .bf16) (xs1 : Vec F S10000x128 .f32) (xs2 : Vec F S8x128 .f32) :
    Σ' (LS1 : List (View.Piece (Elt F) S10000x128 .f32)), { LS2 : List (View.Piece (Elt F) S8x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare xo ∗ owns (c : Thread nD τ) arg9 fullShare xs0 ∗ (arg10.view.loc (c : Thread nD τ) ↦[arg10.view.set]{fullShare} arg10.view.writes (Elt F) (harg10.unread xs1) LS1) ∗ (arg11.view.loc (c : Thread nD τ) ↦[arg11.view.set]{fullShare} arg11.view.writes (Elt F) (harg11.unread xs2) LS2)) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, ?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg8.eq_unread hf6; obtain rfl := harg9.eq_unread hfs0; obtain rfl := harg10.eq_unread hfs1; obtain rfl := harg11.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [HS0]
    · iexists _; isplitr; · ipureintro; exact harg9.read_unread _
      iexact HS0
    isplitl [HS1]; · iexact HS1
    iexact HS2

end Cert.KernelIdeal.Gen

end
-- ==== Proof.KI.RunNorm.lean ====
/-
  The kernel's body at a point of phase 1, run on whole buffers holding given contents: it reads the two statistics rows
  and its 200 aggregated rows and stores their normalisation into the result's buffer, changing nothing else.
-/
import proofs.«133474_g54228257079526_cont_9to1c4b_631_6_alg».proof.Proof.KI.RunAcc

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option maxHeartbeats 1000000 in
/-- A point of phase 1: on whole buffers — the inputs at their contents, T, the aggregated rows and the statistics
    at given contents, the result's buffer at anything — the body runs and leaves everything but the result's buffer
    as it was, the result's buffer with the listed stores written. -/
noncomputable def runNorm (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : ¬cond0_0 i) (hc1 : ¬cond0_1 i) (hc2 : cond0_2 i)
    (x0 : Vec F S10000x128 .f32) (x1 : Vec F S32x128 .f32) (x2 : Vec F S32x128 .f32) (x3 : Vec F S1x128 .f32) (x4 : Vec F S1x128 .f32) (x5 : Vec F S200x10000 .f32) (xs0 : Vec F S10000x128 .bf16) (xs1 : Vec F S10000x128 .f32) (xs2 : Vec F S8x128 .f32) :
    { L6 : List (View.Piece (Elt F) S200x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ owns (c : Thread nD τ) arg9 fullShare xs0 ∗ owns (c : Thread nD τ) arg10 fullShare xs1 ∗ owns (c : Thread nD τ) arg11 fullShare xs2
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6) ∗ owns (c : Thread nD τ) arg9 fullShare xs0 ∗ owns (c : Thread nD τ) arg10 fullShare xs1 ∗ owns (c : Thread nD τ) arg11 fullShare xs2) -∗ K ⟨⟩))
          ⊢ wp frame (wpE (defs₀ (F := F)) Variants.none c none) E (cc0__body i arg2 harg2 arg3 harg3 arg4 harg4 arg5 harg5 arg6 harg6 arg7 harg7 arg8 harg8 arg9 harg9 arg10 harg10 arg11 harg11) K } := by
  refine ⟨?_, fun E K => ?run⟩
  case run =>
    simp only [cc0__body_eq_skeleton]; unfold cc0__body_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    obtain rfl := harg9.eq_unread hfs0; obtain rfl := harg10.eq_unread hfs1; obtain rfl := harg11.eq_unread hfs2
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Gen

end
-- ==== Proof.KI.Pieces.lean ====
/-
  What the kernel's body leaves in each buffer, read through the rectangles that matter: after the first point T's buffer
  holds T, the point's 200 rows of the aggregated-rows buffer hold its block of the adjacency times T, the two statistics
  rows hold the cleared rows plus the block's column sums and sums of squares; after a later point of phase 0 the same
  with the running rows in place of the cleared ones, every other row block untouched; after a point of phase 1 the result's
  buffer holds the normalised rows. Each is read off the stores the body's run lists, newest first.
-/
import proofs.«133474_g54228257079526_cont_9to1c4b_631_6_alg».proof.Proof.KI.RunNorm
import proofs.«133474_g54228257079526_cont_9to1c4b_631_6_alg».proof.Proof.LibLoadAfterStores

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The two statistics rows, as rectangles of the statistics buffer. -/
abbrev row0R : Rect S8x128 := Rect.unit (s := S8x128) ![0, 0] S1x128.size inb_S8x128_S1x128_0_0
abbrev row1R : Rect S8x128 := Rect.unit (s := S8x128) ![1, 0] S1x128.size inb_S8x128_S1x128_1_0
/-- The 200 rows a point of phase 0 stores, and the 200 rows a point of phase 1 reads, as rectangles of the
    aggregated-rows buffer. -/
abbrev sliceA (i : grid0.Coords) (h : cond0_1 i) : Rect S10000x128 := Rect.unit (s := S10000x128) (k0_off1 i) S200x128.size (k0_off1_inb i h)
abbrev sliceN (i : grid0.Coords) (h : cond0_2 i) : Rect S10000x128 := Rect.unit (s := S10000x128) (k0_off2 i) S200x128.size (k0_off2_inb i h)

private theorem hz2 : (![0, 0] : Fin 2 → Nat) = fun _ => 0 := funext fun a => by fin_cases a <;> rfl

/-- T as the first point computes it from the inputs it loads. -/
abbrev featOf (x0 : Vec F S10000x128 .f32) (x1 x2 : Vec F S32x128 .f32) : Vec F S10000x128 .bf16 := k0_pay1 (k0_pay8 x1) (k0_pay9 x2) x0

section First
variable (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : cond0_0 i) (hc1 : cond0_1 i) (hc2 : ¬cond0_2 i)
    (x0 : Vec F S10000x128 .f32) (x1 : Vec F S32x128 .f32) (x2 : Vec F S32x128 .f32) (x3 : Vec F S1x128 .f32) (x4 : Vec F S1x128 .f32) (x5 : Vec F S200x10000 .f32) (xo : Vec F S200x128 .f32) (xs1 : Vec F S10000x128 .f32)

/-- After the first point T's buffer holds T. -/
theorem first_T (f : arg9.view.ty.Contents (Elt F)) :
    arg9.view.read (Elt F) (arg9.view.writes (Elt F) f (runFirst c i arg2 harg2 arg3 harg3 arg4 harg4 arg5 harg5 arg6 harg6 arg7 harg7 arg8 harg8 arg9 harg9 arg10 harg10 arg11 harg11 hc0 hc1 hc2 x0 x1 x2 x3 x4 x5 xo xs1).1) = featOf x0 x1 x2 := by
  unfold runFirst; dsimp only; sl_unfold_run_names
  refine (View.read_writes_cons_unit_zero (Val := Elt F) arg9.view f hz2 _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

/-- After the first point its 200 rows of the aggregated-rows buffer hold its block of the adjacency times T. -/
theorem first_rows :
    View.ld (arg10.view.read (Elt F) (arg10.view.writes (Elt F) (harg10.unread xs1) (runFirst c i arg2 harg2 arg3 harg3 arg4 harg4 arg5 harg5 arg6 harg6 arg7 harg7 arg8 harg8 arg9 harg9 arg10 harg10 arg11 harg11 hc0 hc1 hc2 x0 x1 x2 x3 x4 x5 xo xs1).2.1)) (sliceA i hc1)
      = k0_pay4 x5 (featOf x0 x1 x2) := by
  unfold runFirst; dsimp only; sl_unfold_run_names
  refine (View.ld_read_writes_cons_self (Val := Elt F) arg10.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

/-- A rectangle of other rows keeps what the buffer held. -/
theorem first_rows_other (r : Rect S10000x128) (o : ℕ) (ho : k0_off1 i = ![o, 0])
    (h : ∀ x : r.shape.Idx, ((r.idx x) (0 : Fin 2)).val < o ∨ o + 200 ≤ ((r.idx x) (0 : Fin 2)).val) :
    View.ld (arg10.view.read (Elt F) (arg10.view.writes (Elt F) (harg10.unread xs1) (runFirst c i arg2 harg2 arg3 harg3 arg4 harg4 arg5 harg5 arg6 harg6 arg7 harg7 arg8 harg8 arg9 harg9 arg10 harg10 arg11 harg11 hc0 hc1 hc2 x0 x1 x2 x3 x4 x5 xo xs1).2.1)) r
      = View.ld xs1 r := by
  unfold runFirst; dsimp only; sl_unfold_run_names
  refine (View.ld_read_writes_cons_unit_of_miss (Val := Elt F) (size := S200x128.size) arg10.view _ _ _ _ r ho (0 : Fin 2) (fun x => h x)).trans ?_
  rw [View.writes_nil, harg10.read_unread]

/-- After the first point the first statistics row holds the cleared row plus the block's column sums, -/
theorem first_row0 (f : arg11.view.ty.Contents (Elt F)) :
    View.ld (arg11.view.read (Elt F) (arg11.view.writes (Elt F) f (runFirst c i arg2 harg2 arg3 harg3 arg4 harg4 arg5 harg5 arg6 harg6 arg7 harg7 arg8 harg8 arg9 harg9 arg10 harg10 arg11 harg11 hc0 hc1 hc2 x0 x1 x2 x3 x4 x5 xo xs1).2.2.1)) row0R
      = k0_pay5 x5 (featOf x0 x1 x2) (View.ld (k0_pay2 (F := F)) row0R) := by
  unfold runFirst; dsimp only; sl_unfold_run_names
  refine (View.ld_read_writes_cons_unit_of_miss (Val := Elt F) arg11.view _ _ _ _ row0R rfl (0 : Fin 2) (fun x => Or.inl (by show 0 + 1 * (x (0 : Fin 2)).val < 1; have := (x (0 : Fin 2)).isLt; simp only [Nat.one_mul, Nat.zero_add]; exact this))).trans ?_
  refine (View.ld_read_writes_cons_self (Val := Elt F) arg11.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]
  rw [View.readCov_eq_ld, View.read_writes_cons_unit_zero (Val := Elt F) arg11.view _ hz2 inb_S8x128_S8x128_0_0]

/-- and the second the cleared row plus the block's column sums of squares. -/
theorem first_row1 (f : arg11.view.ty.Contents (Elt F)) :
    View.ld (arg11.view.read (Elt F) (arg11.view.writes (Elt F) f (runFirst c i arg2 harg2 arg3 harg3 arg4 harg4 arg5 harg5 arg6 harg6 arg7 harg7 arg8 harg8 arg9 harg9 arg10 harg10 arg11 harg11 hc0 hc1 hc2 x0 x1 x2 x3 x4 x5 xo xs1).2.2.1)) row1R
      = k0_pay6 x5 (featOf x0 x1 x2) (View.ld (k0_pay2 (F := F)) row1R) := by
  unfold runFirst; dsimp only; sl_unfold_run_names
  refine (View.ld_read_writes_cons_self (Val := Elt F) arg11.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]
  rw [View.readCov_eq_ld]
  rw [View.ld_read_writes_cons_unit_of_miss (Val := Elt F) arg11.view _ _ _ _ row1R rfl (0 : Fin 2) (fun x => Or.inr (by show 0 + 1 ≤ 1 + 1 * (x (0 : Fin 2)).val; omega))]
  rw [View.read_writes_cons_unit_zero (Val := Elt F) arg11.view _ hz2 inb_S8x128_S8x128_0_0]

end First

section Acc
variable (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : ¬cond0_0 i) (hc1 : cond0_1 i) (hc2 : ¬cond0_2 i)
    (x0 : Vec F S10000x128 .f32) (x1 : Vec F S32x128 .f32) (x2 : Vec F S32x128 .f32) (x3 : Vec F S1x128 .f32) (x4 : Vec F S1x128 .f32) (x5 : Vec F S200x10000 .f32) (xo : Vec F S200x128 .f32) (xs0 : Vec F S10000x128 .bf16) (xs1 : Vec F S10000x128 .f32) (xs2 : Vec F S8x128 .f32)

/-- After a later point of phase 0 its 200 rows hold its block of the adjacency times what T's buffer held, -/
theorem acc_rows :
    View.ld (arg10.view.read (Elt F) (arg10.view.writes (Elt F) (harg10.unread xs1) (runAcc c i arg2 harg2 arg3 harg3 arg4 harg4 arg5 harg5 arg6 harg6 arg7 harg7 arg8 harg8 arg9 harg9 arg10 harg10 arg11 harg11 hc0 hc1 hc2 x0 x1 x2 x3 x4 x5 xo xs0 xs1 xs2).1)) (sliceA i hc1)
      = k0_pay4 x5 xs0 := by
  unfold runAcc; dsimp only; sl_unfold_run_names
  refine (View.ld_read_writes_cons_self (Val := Elt F) arg10.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

/-- a rectangle of other rows keeps what the buffer held, -/
theorem acc_rows_other (r : Rect S10000x128) (o : ℕ) (ho : k0_off1 i = ![o, 0])
    (h : ∀ x : r.shape.Idx, ((r.idx x) (0 : Fin 2)).val < o ∨ o + 200 ≤ ((r.idx x) (0 : Fin 2)).val) :
    View.ld (arg10.view.read (Elt F) (arg10.view.writes (Elt F) (harg10.unread xs1) (runAcc c i arg2 harg2 arg3 harg3 arg4 harg4 arg5 harg5 arg6 harg6 arg7 harg7 arg8 harg8 arg9 harg9 arg10 harg10 arg11 harg11 hc0 hc1 hc2 x0 x1 x2 x3 x4 x5 xo xs0 xs1 xs2).1)) r
      = View.ld xs1 r := by
  unfold runAcc; dsimp only; sl_unfold_run_names
  refine (View.ld_read_writes_cons_unit_of_miss (Val := Elt F) (size := S200x128.size) arg10.view _ _ _ _ r ho (0 : Fin 2) (fun x => h x)).trans ?_
  rw [View.writes_nil, harg10.read_unread]

/-- the first statistics row holds what it held plus the block's column sums, -/
theorem acc_row0 :
    View.ld (arg11.view.read (Elt F) (arg11.view.writes (Elt F) (harg11.unread xs2) (runAcc c i arg2 harg2 arg3 harg3 arg4 harg4 arg5 harg5 arg6 harg6 arg7 harg7 arg8 harg8 arg9 harg9 arg10 harg10 arg11 harg11 hc0 hc1 hc2 x0 x1 x2 x3 x4 x5 xo xs0 xs1 xs2).2.1)) row0R
      = k0_pay5 x5 xs0 (View.ld xs2 row0R) := by
  unfold runAcc; dsimp only; sl_unfold_run_names
  refine (View.ld_read_writes_cons_unit_of_miss (Val := Elt F) arg11.view _ _ _ _ row0R rfl (0 : Fin 2) (fun x => Or.inl (by show 0 + 1 * (x (0 : Fin 2)).val < 1; have := (x (0 : Fin 2)).isLt; simp only [Nat.one_mul, Nat.zero_add]; exact this))).trans ?_
  refine (View.ld_read_writes_cons_self (Val := Elt F) arg11.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

/-- and the second what it held plus the block's column sums of squares. -/
theorem acc_row1 :
    View.ld (arg11.view.read (Elt F) (arg11.view.writes (Elt F) (harg11.unread xs2) (runAcc c i arg2 harg2 arg3 harg3 arg4 harg4 arg5 harg5 arg6 harg6 arg7 harg7 arg8 harg8 arg9 harg9 arg10 harg10 arg11 harg11 hc0 hc1 hc2 x0 x1 x2 x3 x4 x5 xo xs0 xs1 xs2).2.1)) row1R
      = k0_pay6 x5 xs0 (View.ld xs2 row1R) := by
  unfold runAcc; dsimp only; sl_unfold_run_names
  refine (View.ld_read_writes_cons_self (Val := Elt F) arg11.view _ _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

end Acc

section Norm
variable (c : Dev nD) (i : grid0.Coords) (arg2 : Memref sig .tc .vmem S10000x128 .f32) (harg2 : arg2.IsWhole) (arg3 : Memref sig .tc .vmem S32x128 .f32) (harg3 : arg3.IsWhole) (arg4 : Memref sig .tc .vmem S32x128 .f32) (harg4 : arg4.IsWhole) (arg5 : Memref sig .tc .vmem S1x128 .f32) (harg5 : arg5.IsWhole) (arg6 : Memref sig .tc .vmem S1x128 .f32) (harg6 : arg6.IsWhole) (arg7 : Memref sig .tc .vmem S200x10000 .f32) (harg7 : arg7.IsWhole) (arg8 : Memref sig .tc .vmem S200x128 .f32) (harg8 : arg8.IsWhole) (arg9 : Memref sig .tc .vmem S10000x128 .bf16) (harg9 : arg9.IsWhole) (arg10 : Memref sig .tc .vmem S10000x128 .f32) (harg10 : arg10.IsWhole) (arg11 : Memref sig .tc .vmem S8x128 .f32) (harg11 : arg11.IsWhole) (hc0 : ¬cond0_0 i) (hc1 : ¬cond0_1 i) (hc2 : cond0_2 i)
    (x0 : Vec F S10000x128 .f32) (x1 : Vec F S32x128 .f32) (x2 : Vec F S32x128 .f32) (x3 : Vec F S1x128 .f32) (x4 : Vec F S1x128 .f32) (x5 : Vec F S200x10000 .f32) (xs0 : Vec F S10000x128 .bf16) (xs1 : Vec F S10000x128 .f32) (xs2 : Vec F S8x128 .f32)

/-- After a point of phase 1 the result's buffer holds the normalisation of the point's 200 aggregated rows by the two
    statistics rows, the scale and the shift. -/
theorem norm_out (f : arg8.view.ty.Contents (Elt F)) :
    arg8.view.read (Elt F) (arg8.view.writes (Elt F) f (runNorm c i arg2 harg2 arg3 harg3 arg4 harg4 arg5 harg5 arg6 harg6 arg7 harg7 arg8 harg8 arg9 harg9 arg10 harg10 arg11 harg11 hc0 hc1 hc2 x0 x1 x2 x3 x4 x5 xs0 xs1 xs2).1)
      = k0_pay7 (View.ld xs2 row0R) (View.ld xs2 row1R) x3 (View.ld xs1 (sliceN i hc2)) x4 := by
  unfold runNorm; dsimp only; sl_unfold_run_names
  refine (View.read_writes_cons_unit_zero (Val := Elt F) arg8.view f hz2 _ _ _).trans ?_
  simp only [View.readAt_eq_ld, harg2.read_unread, harg3.read_unread, harg4.read_unread, harg5.read_unread, harg6.read_unread, harg7.read_unread, harg9.read_unread, harg10.read_unread, harg11.read_unread, View.ld_unit_zero (S := S10000x128) hz2, View.ld_unit_zero (S := S32x128) hz2, View.ld_unit_zero (S := S1x128) hz2, View.ld_unit_zero (S := S200x10000) hz2, View.readCov_unit_zero (S := S10000x128) _ hz2]

end Norm

end Cert.KernelIdeal.Gen

end
-- ==== Proof.KI.State.lean ====
/-
  What the layer's kernel keeps in its three scratch buffers from grid point to grid point, in closed form over the
  blocks the points find: T after the first point; the aggregated rows of every row block phase 0 has passed; the running
  column sums and sums of squares in the two statistics rows. From these, the block of the result each point of phase 1
  stores, and the proof data of the pipeline.
-/
import proofs.«133474_g54228257079526_cont_9to1c4b_631_6_alg».proof.Proof.KI.Pieces

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Grid point number `j`. -/
abbrev pt (j : ℕ) (h : j < 100) : Fin cfg0.N := ⟨j, lt_of_lt_of_eq h (show cfg0.N = 100 from N_0).symm⟩

/-- The 200 rows of row block `j`, as a rectangle of the aggregated-rows buffer. -/
def sliceR (j : ℕ) (h : j < 50) : Rect S10000x128 :=
  Rect.unit (s := S10000x128) ![200 * j, 0] S200x128.size (fun a => by
    match a with
    | ⟨0, _⟩ => show 200 * j + 200 ≤ 10000; omega
    | ⟨1, _⟩ => show 0 + 128 ≤ 128; omega)

/-- In phase 0 point `t` stores rows 200·t …, in phase 1 point `t` reads rows 200·(t − 50) …: decided over the grid. -/
theorem off1_eq : ∀ t : Fin cfg0.N, t.val < 50 → k0_off1 (grid0.coords t) = ![200 * t.val, 0] :=
  (by decide +kernel : ∀ t : Fin grid0.N, t.val < 50 → k0_off1 (grid0.coords t) = ![200 * t.val, 0])
theorem off2_eq : ∀ t : Fin cfg0.N, 50 ≤ t.val → k0_off2 (grid0.coords t) = ![200 * (t.val - 50), 0] :=
  (by decide +kernel : ∀ t : Fin grid0.N, 50 ≤ t.val → k0_off2 (grid0.coords t) = ![200 * (t.val - 50), 0])

/-! ## What the scratch buffers hold, in closed form -/

/-- T, as the first point computes it from the blocks it finds. -/
def Tk (c : Dev nD) : Vec F S10000x128 .bf16 := featOf (iblk m c 0 (pt 0 (by omega))) (iblk m c 1 (pt 0 (by omega))) (iblk m c 2 (pt 0 (by omega)))

/-- The aggregated rows of row block `j`: the block of the adjacency point `j` finds, times T. -/
def acc (c : Dev nD) (j : ℕ) (h : j < 50) : Vec F S200x128 .f32 := k0_pay4 (iblk m c 5 (pt j (by omega))) (Tk m c)

/-- The running column sums after row block `j`: from the cleared statistics, one block's sums added per point. -/
def s0 (c : Dev nD) : (j : ℕ) → j < 50 → Vec F S1x128 .f32
  | 0, _ => k0_pay5 (iblk m c 5 (pt 0 (by omega))) (Tk m c) (View.ld (k0_pay2 (F := F)) row0R)
  | j + 1, h => k0_pay5 (iblk m c 5 (pt (j + 1) (by omega))) (Tk m c) (s0 c j (by omega))

/-- The running column sums of squares after row block `j`. -/
def s1 (c : Dev nD) : (j : ℕ) → j < 50 → Vec F S1x128 .f32
  | 0, _ => k0_pay6 (iblk m c 5 (pt 0 (by omega))) (Tk m c) (View.ld (k0_pay2 (F := F)) row1R)
  | j + 1, h => k0_pay6 (iblk m c 5 (pt (j + 1) (by omega))) (Tk m c) (s1 c j (by omega))

/-- The block of the result point `t` of phase 1 stores: its aggregated rows normalised by the completed statistics. -/
def outBlk (c : Dev nD) (t : Fin cfg0.N) (h : 50 ≤ t.val) : Vec F S200x128 .f32 :=
  k0_pay7 (s0 m c 49 (by omega)) (s1 m c 49 (by omega)) (iblk m c 3 t)
    (acc m c (t.val - 50) (by have := lt_of_lt_of_eq t.isLt (show cfg0.N = 100 from N_0); omega)) (iblk m c 4 t)

/-- What the three scratch buffers hold after point `n`: T; the rows of every block up to `n` (of phase 0) aggregated;
    the two statistics rows at the running sums. Nothing is said of the other rows. -/
def Good (c : Dev nD) (n : ℕ) (T : Vec F S10000x128 .bf16) (R : Vec F S10000x128 .f32) (S : Vec F S8x128 .f32) : Prop :=
  T = Tk m c ∧ (∀ (j : ℕ) (h : j < 50), j ≤ n → View.ld R (sliceR j h) = acc m c j h)
    ∧ View.ld S row0R = s0 m c (min n 49) (by omega) ∧ View.ld S row1R = s1 m c (min n 49) (by omega)

/-- The region invariant before point `n`: what the launch hands over before the first point; afterwards the scratch
    buffers at contents that are `Good` for the point before, and the generator register at some state. -/
def PhiS (c : Dev nD) : (n : ℕ) → n ≤ cfg0.N → sProp 𝕄
  | 0, _ => Pipeline.ΦA spec0 c
  | n + 1, _ => iprop(iprop(∃ T R S, ⌜Good m c n T R S⌝ ∗ owns (c : Thread nD τ) scM0_0 fullShare T ∗ owns (c : Thread nD τ) scM0_1 fullShare R ∗ owns (c : Thread nD τ) scM0_2 fullShare S) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(∃ T R S, ⌜Good m c n T R S⌝ ∗ owns (c : Thread nD τ) scM0_0 fullShare T ∗ owns (c : Thread nD τ) scM0_1 fullShare R ∗ owns (c : Thread nD τ) scM0_2 fullShare S) ∗ (∃ r, prngReg c r)) := rfl

theorem PhiS_pos (c : Dev nD) (n : ℕ) (h : n ≤ cfg0.N) (hz : n ≠ 0) :
    PhiS m c n h = iprop(iprop(∃ T R S, ⌜Good m c (n - 1) T R S⌝ ∗ owns (c : Thread nD τ) scM0_0 fullShare T ∗ owns (c : Thread nD τ) scM0_1 fullShare R ∗ owns (c : Thread nD τ) scM0_2 fullShare S) ∗ (∃ r, prngReg c r)) := by
  cases n with
  | zero => exact absurd rfl hz
  | succ n => rfl

/-! ## The pipeline's proof data -/

/-- The proof data on core `c`: the arrays as the region finds them; after the body at point `t` each input's buffer
    at its block, the result's buffer at the block the point stores (phase 1; in phase 0 the body leaves it alone);
    the invariant above; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => if h50 : 50 ≤ t.val then outBlk m c t h50 else Pipeline.Dat.unnamed (cfg := cfg0) ⟨6, h⟩ t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) (h : 50 ≤ t.val) : (dats m 0 c).after 6 t = outBlk m c t h := by
  dsimp only [dats]; rw [dif_pos h]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

end Cert.KernelIdeal.Gen

end
-- ==== Proof.KI.Body.lean ====
/-
  The frame of the layer's kernel: at every grid point the body, run from the region's invariant and the windows'
  buffers, re-establishes the invariant for the next point and leaves every window's buffer as the pipeline expects;
  hence the whole program runs, terminates, and leaves its argument arrays unchanged, with the result array at the
  blocks the points of phase 1 wrote back.
-/
import proofs.«133474_g54228257079526_cont_9to1c4b_631_6_alg».proof.Proof.KI.State

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## Loads through a point's rows are loads through its row block's -/

theorem ld_sliceA (X : Vec F S10000x128 .f32) (t : Fin cfg0.N) (ht : t.val < 50) (hc1 : cond0_1 (grid0.coords t)) :
    View.ld X (sliceA (grid0.coords t) hc1) = View.ld X (sliceR t.val ht) := by
  funext x
  show X ((sliceA (grid0.coords t) hc1).idx x) = X ((sliceR t.val ht).idx x)
  congr 1; funext a; apply Fin.ext
  show k0_off1 (grid0.coords t) a + 1 * (x a).val = (![200 * t.val, 0] : Fin 2 → ℕ) a + 1 * (x a).val
  rw [off1_eq t ht]

theorem ld_sliceN (X : Vec F S10000x128 .f32) (t : Fin cfg0.N) (ht : 50 ≤ t.val) (hc2 : cond0_2 (grid0.coords t)) :
    View.ld X (sliceN (grid0.coords t) hc2)
      = View.ld X (sliceR (t.val - 50) (by have := lt_of_lt_of_eq t.isLt (show cfg0.N = 100 from N_0); omega)) := by
  funext x
  show X ((sliceN (grid0.coords t) hc2).idx x) = X ((sliceR (t.val - 50) _).idx x)
  congr 1; funext a; apply Fin.ext
  show k0_off2 (grid0.coords t) a + 1 * (x a).val = (![200 * (t.val - 50), 0] : Fin 2 → ℕ) a + 1 * (x a).val
  rw [off2_eq t ht]

theorem s0_congr (c : Dev nD) {j j' : ℕ} (e : j = j') (h : j < 50) (h' : j' < 50) : s0 m c j h = s0 m c j' h' := by subst e; rfl
theorem s1_congr (c : Dev nD) {j j' : ℕ} (e : j = j') (h : j < 50) (h' : j' < 50) : s1 m c j h = s1 m c j' h' := by subst e; rfl
theorem acc_congr (c : Dev nD) {j j' : ℕ} (e : j = j') (h : j < 50) (h' : j' < 50) : acc m c j h = acc m c j' h' := by subst e; rfl

/-- The rows of block `j` lie apart from the rows of a later block `n`. -/
theorem sliceR_rows_lt (j n : ℕ) (h : j < 50) (hjn : j < n) (x : (sliceR j h).shape.Idx) :
    (((sliceR j h).idx x) (0 : Fin 2)).val < 200 * n ∨ 200 * n + 200 ≤ (((sliceR j h).idx x) (0 : Fin 2)).val := by
  left
  show 200 * j + 1 * (x (0 : Fin 2)).val < 200 * n
  have hx : (x (0 : Fin 2)).val < 200 := (x (0 : Fin 2)).isLt
  omega

/-! ## The scratch contents stay good -/

theorem good_first (c : Dev nD) (t : Fin cfg0.N) (hz : t.val = 0) (hc0 : cond0_0 (grid0.coords t)) (hc1 : cond0_1 (grid0.coords t)) (hc2 : ¬cond0_2 (grid0.coords t))
    (xo : Vec F S200x128 .f32) (d1 : Vec F S10000x128 .f32) (es0 : VS0_0.ty.Contents (Elt F)) (es2 : VS0_2.ty.Contents (Elt F)) :
    Good m c t.val
      (VS0_0.read (Elt F) (VS0_0.writes (Elt F) es0 (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) xo d1).1))
      (VS0_1.read (Elt F) (VS0_1.writes (Elt F) ((Memref.isWhole_whole cc0_scratch1).unread d1) (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) xo d1).2.1))
      (VS0_2.read (Elt F) (VS0_2.writes (Elt F) es2 (runFirst c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) xo d1).2.2.1)) := by
  have e : t = pt 0 (by decide) := Fin.ext hz
  subst e
  refine ⟨first_T _ _ _ _ _ _ _ _ _ _ _ _ _ _ _ _ _ _ _ _ _ _ hc0 hc1 hc2 _ _ _ _ _ _ _ _ es0, fun j h hj => ?_, ?_, ?_⟩
  · obtain rfl : j = 0 := Nat.le_zero.mp hj
    rw [← ld_sliceA _ (pt 0 (by decide)) (by show 0 < 50; decide) hc1]
    exact first_rows _ _ _ _ _ _ _ _ _ _ _ _ _ _ _ _ _ _ _ _ _ _ hc0 hc1 hc2 _ _ _ _ _ _ _ _
  · exact first_row0 _ _ _ _ _ _ _ _ _ _ _ _ _ _ _ _ _ _ _ _ _ _ hc0 hc1 hc2 _ _ _ _ _ _ _ _ es2
  · exact first_row1 _ _ _ _ _ _ _ _ _ _ _ _ _ _ _ _ _ _ _ _ _ _ hc0 hc1 hc2 _ _ _ _ _ _ _ _ es2

theorem good_acc (c : Dev nD) (t : Fin cfg0.N) (h0 : t.val ≠ 0) (h50 : t.val < 50) (hc0 : ¬cond0_0 (grid0.coords t)) (hc1 : cond0_1 (grid0.coords t)) (hc2 : ¬cond0_2 (grid0.coords t))
    (xo : Vec F S200x128 .f32) (T : Vec F S10000x128 .bf16) (R : Vec F S10000x128 .f32) (S : Vec F S8x128 .f32)
    (hG : Good m c (t.val - 1) T R S) :
    Good m c t.val T
      (VS0_1.read (Elt F) (VS0_1.writes (Elt F) ((Memref.isWhole_whole cc0_scratch1).unread R) (runAcc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) xo T R S).1))
      (VS0_2.read (Elt F) (VS0_2.writes (Elt F) ((Memref.isWhole_whole cc0_scratch2).unread S) (runAcc c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) xo T R S).2.1)) := by
  obtain ⟨n, hn⟩ := t
  cases n with
  | zero => exact absurd rfl h0
  | succ k =>
    have hk : k + 1 < 50 := h50
    have hG' : Good m c k T R S := hG
    obtain ⟨hT, hR, hS0, hS1⟩ := hG'
    subst hT
    refine ⟨rfl, fun j h hj => ?_, ?_, ?_⟩
    · by_cases hjt : j = k + 1
      · subst hjt
        rw [← ld_sliceA _ ⟨k + 1, hn⟩ h50 hc1]
        exact acc_rows _ _ _ _ _ _ _ _ _ _ _ _ _ _ _ _ _ _ _ _ _ _ hc0 hc1 hc2 _ _ _ _ _ _ _ _ _ _
      · rw [acc_rows_other _ _ _ _ _ _ _ _ _ _ _ _ _ _ _ _ _ _ _ _ _ _ hc0 hc1 hc2 _ _ _ _ _ _ _ _ _ _ (sliceR j h) (200 * (k + 1)) (off1_eq ⟨k + 1, hn⟩ h50)
          (sliceR_rows_lt j (k + 1) h (by have : j ≤ k + 1 := hj; omega))]
        exact hR j h (by have : j ≤ k + 1 := hj; omega)
    · rw [acc_row0 _ _ _ _ _ _ _ _ _ _ _ _ _ _ _ _ _ _ _ _ _ _ hc0 hc1 hc2 _ _ _ _ _ _ _ _ _ _, hS0, s0_congr m c (show min k 49 = k by omega) (by omega) (by omega)]
      exact (s0_congr m c (show min (k + 1) 49 = k + 1 by omega) (by omega) hk).symm ▸ rfl
    · rw [acc_row1 _ _ _ _ _ _ _ _ _ _ _ _ _ _ _ _ _ _ _ _ _ _ hc0 hc1 hc2 _ _ _ _ _ _ _ _ _ _, hS1, s1_congr m c (show min k 49 = k by omega) (by omega) (by omega)]
      exact (s1_congr m c (show min (k + 1) 49 = k + 1 by omega) (by omega) hk).symm ▸ rfl

theorem good_norm (c : Dev nD) (t : Fin cfg0.N) (h50 : 50 ≤ t.val)
    (T : Vec F S10000x128 .bf16) (R : Vec F S10000x128 .f32) (S : Vec F S8x128 .f32) (hG : Good m c (t.val - 1) T R S) :
    Good m c t.val T R S := by
  obtain ⟨hT, hR, hS0, hS1⟩ := hG
  exact ⟨hT, fun j h _ => hR j h (by omega), hS0.trans (s0_congr m c (by omega) _ _), hS1.trans (s1_congr m c (by omega) _ _)⟩

/-- What a point of phase 1 stores is its block of the result. -/
theorem out_norm (c : Dev nD) (t : Fin cfg0.N) (h50 : 50 ≤ t.val) (hc0 : ¬cond0_0 (grid0.coords t)) (hc1 : ¬cond0_1 (grid0.coords t)) (hc2 : cond0_2 (grid0.coords t))
    (T : Vec F S10000x128 .bf16) (R : Vec F S10000x128 .f32) (S : Vec F S8x128 .f32) (hG : Good m c (t.val - 1) T R S)
    (f : (VO0_6 t).ty.Contents (Elt F)) :
    (VO0_6 t).read (Elt F) ((VO0_6 t).writes (Elt F) f (runNorm c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) hc0 hc1 hc2 (iblk m c 0 t) (iblk m c 1 t) (iblk m c 2 t) (iblk m c 3 t) (iblk m c 4 t) (iblk m c 5 t) T R S).1)
      = (dats m 0 c).after 6 t := by
  obtain ⟨hT, hR, hS0, hS1⟩ := hG
  have hN : t.val < 100 := lt_of_lt_of_eq t.isLt (show cfg0.N = 100 from N_0)
  rw [after0_6 m c t h50, norm_out _ _ _ _ _ _ _ _ _ _ _ _ _ _ _ _ _ _ _ _ _ _ hc0 hc1 hc2 _ _ _ _ _ _ _ _ _ f, ld_sliceN _ t h50 hc2,
    hR (t.val - 50) (by omega) (by omega), hS0, hS1, s0_congr m c (show min (t.val - 1) 49 = 49 by omega) (by omega) (by omega),
    s1_congr m c (show min (t.val - 1) 49 = 49 by omega) (by omega) (by omega)]
  rfl

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
/-- The body at any point: the inputs' buffers hold their blocks; the point's number says which branches it takes; the
    invariant hands the body the scratch buffers at good contents (at anything before the first point) and takes them back
    at what the run leaves, which is good again; in phase 0 the result's buffer is handed back as found, in phase 1 it is left
    at the point's block of the result; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl]
  rw [show (dats m 0 c).Φ t.succ = PhiS m c (t.val + 1) t.isLt from rfl, PhiS_succ]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  have hN : t.val < 100 := lt_of_lt_of_eq t.isLt (show cfg0.N = 100 from N_0)
  by_cases h50 : t.val < 50
  · have hidle : cfg0.idle 6 (grid0.coords t) = true := (idleAt0_6 t).mpr h50
    have hfl : (cfg0.win 6).flush t = false := Bool.eq_false_iff.mpr fun h => by have := (flush0_6 t).mp h; omega
    rw [(dats m 0 c).leavesExact_idle 6 t hidle hfl]
    have hc1 : cond0_1 (grid0.coords t) := (hcond0_1 t).mpr h50
    have hc2 : ¬cond0_2 (grid0.coords t) := fun h => by have := (hcond0_2 t).mp h; omega
    by_cases hz : t.val = 0
    · have hc0 : cond0_0 (grid0.coords t) := (hcond0_0 t).mpr hz
      rw [PhiS_castSucc m c t, PhiS_zero m c _ _ hz, PhiA0_eq]
      iintro ⟨⟨⟨HS0, ⟨%d1, HS1⟩, HS2⟩, Hg⟩, Ho, ⟨%d0, H0⟩, ⟨%d1', H1⟩, ⟨%d2, H2⟩, ⟨%d3, H3⟩, ⟨%d4, H4⟩, ⟨%d5, H5⟩, ⟨%d6, H6⟩⟩
      iapply ((runFirst c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) ((dats m 0 c).before 6 t d6) d1).2.2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, ⟨%es0, HS0⟩, HS1, ⟨%es2, HS2⟩⟩
      isplitl [HS0 HS1 HS2 Hg]
      · isplitl [HS0 HS1 HS2]
        · iexists _, _, _
          isplitr; swap
          · isplitl [HS0]
            · unfold owns; iexists _; isplitr; swap; · iexact HS0
              ipureintro; rfl
            isplitl [HS1]
            · unfold owns; iexists _; isplitr; swap; · iexact HS1
              ipureintro; rfl
            unfold owns; iexists _; isplitr; swap; · iexact HS2
            ipureintro; rfl
          ipureintro; exact good_first m c t hz hc0 hc1 hc2 _ d1 es0 es2
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
    · have hc0 : ¬cond0_0 (grid0.coords t) := fun h => hz ((hcond0_0 t).mp h)
      rw [PhiS_castSucc m c t, PhiS_pos m c _ _ hz]
      iintro ⟨⟨⟨%T, %R, %S, %hG, HS0, HS1, HS2⟩, Hg⟩, Ho, ⟨%d0, H0⟩, ⟨%d1', H1⟩, ⟨%d2, H2⟩, ⟨%d3, H3⟩, ⟨%d4, H4⟩, ⟨%d5, H5⟩, ⟨%d6, H6⟩⟩
      iapply ((runAcc c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) ((dats m 0 c).before 6 t d6) T R S).2.2 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      isplitl [HS2]; · iexact HS2
      iintro ⟨H0, H1, H2, H3, H4, H5, H6, HS0, HS1, HS2⟩
      isplitl [HS0 HS1 HS2 Hg]
      · isplitl [HS0 HS1 HS2]
        · iexists _, _, _
          isplitr; swap
          · isplitl [HS0]; · iexact HS0
            isplitl [HS1]
            · unfold owns; iexists _; isplitr; swap; · iexact HS1
              ipureintro; rfl
            unfold owns; iexists _; isplitr; swap; · iexact HS2
            ipureintro; rfl
          ipureintro; exact good_acc m c t hz h50 hc0 hc1 hc2 _ T R S hG
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6
  · have h50' : 50 ≤ t.val := by omega
    have hz : t.val ≠ 0 := by omega
    have hlive : cfg0.idle 6 (grid0.coords t) = false := Bool.eq_false_iff.mpr fun h => by have := (idleAt0_6 t).mp h; omega
    rw [show (dats m 0 c).leavesExact 6 t = owns (c : Thread nD τ) (ms0_6 t) fullShare ((dats m 0 c).after 6 t) from by
      unfold Dat.leavesExact; rw [hlive]]
    have hc0 : ¬cond0_0 (grid0.coords t) := fun h => hz ((hcond0_0 t).mp h)
    have hc1 : ¬cond0_1 (grid0.coords t) := fun h => h50 ((hcond0_1 t).mp h)
    have hc2 : cond0_2 (grid0.coords t) := (hcond0_2 t).mpr h50'
    rw [PhiS_castSucc m c t, PhiS_pos m c _ _ hz]
    iintro ⟨⟨⟨%T, %R, %S, %hG, HS0, HS1, HS2⟩, Hg⟩, Ho, ⟨%d0, H0⟩, ⟨%d1', H1⟩, ⟨%d2, H2⟩, ⟨%d3, H3⟩, ⟨%d4, H4⟩, ⟨%d5, H5⟩, ⟨%d6, H6⟩⟩
    iapply ((runNorm c (grid0.coords t) _ _ _ _ _ _ _ _ _ _ _ _ _ _ _ _ _ _ _ _ hc0 hc1 hc2 (iblk m c 0 t) (iblk m c 1 t) (iblk m c 2 t) (iblk m c 3 t) (iblk m c 4 t) (iblk m c 5 t) T R S).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [HS0]; · iexact HS0
    isplitl [HS1]; · iexact HS1
    isplitl [HS2]; · iexact HS2
    iintro ⟨H0, H1, H2, H3, H4, H5, ⟨%e6, H6⟩, HS0, HS1, HS2⟩
    isplitl [HS0 HS1 HS2 Hg]
    · isplitl [HS0 HS1 HS2]
      · iexists T, R, S
        isplitr; · ipureintro; exact good_norm m c t h50' T R S hG
        isplitl [HS0]; · iexact HS0
        isplitl [HS1]; · iexact HS1
        iexact HS2
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    unfold owns; iexists _; isplitr; swap; · iexact H6
    ipureintro; exact out_norm m c t h50' hc0 hc1 hc2 T R S hG e6

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: what the scratch buffers hold is forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 100 := N_0; omega), PhiA0_eq]
  iintro ⟨⟨%T, %R, %S, -, HS0, HS1, HS2⟩, Hg⟩
  isplitl [HS0 HS1 HS2]
  · isplitl [HS0]
    · iexists _; iexact HS0
    isplitl [HS1]
    · iexists _; iexact HS1
    iexists _; iexact HS2
  iexact Hg

/-! ## The run and the frame -/

set_option backward.isDefEq.respectTransparency.types false in
/-- Every weakly fair execution of @main terminates, and every final state has every array of the pipeline at what the
    library computes from the proof data — the result at its blocks written back one by one — and every other unscoped
    buffer as the region found it. -/
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The frame: the program runs and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen

end
-- ==== Proof.Spec.lean ====
/-
  The layer both programs compute, as one function of the argument arrays on the extended reals.

  A quaternion weight w : 32×128 is four 32×32 blocks r, i, j, k side by side. Its Hamilton matrix H(w) : 128×128
  is a 4×4 arrangement of those blocks with signs,

        ⎡  r   i   j   k ⎤
        ⎢ -i   r   k  -j ⎥
        ⎢ -j  -k   r   i ⎥
        ⎣ -k   j  -i   r ⎦

  (row block p, column block q). The layer is  T = tanh(x · H(w1)) · H(w2),  Y = adj · T,  and a batch
  normalisation of Y over its 10000 rows, column by column, in the one-pass form: with s = Σ_r Y(r,c),
  q = Σ_r Y(r,c)², n⁻¹ = 1/10000,

        out(r,c) = (Y(r,c) − s·n⁻¹) · ( rsqrt(q·n⁻¹ − (s·n⁻¹)² + ε) · γ(c) ) + β(c).
-/
import Idealize.ShloMosaic.PureOps.Ideal
import Idealize.ShloMosaic.Lib.ValueIdx

noncomputable section

namespace Cert.Layer

open Idealize.ShloMosaic
open scoped BigOperators

/-- An array of two axes read as a function of its two coordinates, and a vector as a function of its one. -/
def mat {a b : Nat} (x : (⟨2, ![a, b]⟩ : Shape).Idx → EReal) (p : Fin a) (q : Fin b) : EReal := x (ValueIdx.ix2 p q)
def vec {a : Nat} (x : (⟨1, ![a]⟩ : Shape).Idx → EReal) (p : Fin a) : EReal := x (ValueIdx.ix1 p)

/-- A function of two coordinates as an array of two axes. -/
def arr {a b : Nat} (f : Fin a → Fin b → EReal) : (⟨2, ![a, b]⟩ : Shape).Idx → EReal := fun j => f (j 0) (j 1)

/-- Which of the four blocks r, i, j, k (0..3) stands at row block p, column block q of the Hamilton matrix. -/
def blockOf : Fin 4 → Fin 4 → Fin 4 :=
  ![![0, 1, 2, 3], ![1, 0, 3, 2], ![2, 3, 0, 1], ![3, 2, 1, 0]]

/-- Whether that block is negated there. -/
def negAt : Fin 4 → Fin 4 → Bool :=
  ![![false, false, false, false], ![true, false, false, true], ![true, true, false, false], ![true, false, true, false]]

/-- The Hamilton matrix of a quaternion weight, entry (a, b): row block a / 32, column block b / 32, the block's own
    entry (a % 32, b % 32) read from the weight's columns 32·(block) + b % 32. -/
def ham (w : Fin 32 → Fin 128 → EReal) (a b : Fin 128) : EReal :=
  let p : Fin 4 := ⟨a.val / 32, by omega⟩
  let q : Fin 4 := ⟨b.val / 32, by omega⟩
  let e : EReal := w ⟨a.val % 32, by omega⟩ ⟨32 * (blockOf p q).val + b.val % 32, by have := (blockOf p q).isLt; omega⟩
  if negAt p q then -e else e

/-- T = tanh(x · H(w1)) · H(w2). -/
def feat (x : Fin 10000 → Fin 128 → EReal) (w1 w2 : Fin 32 → Fin 128 → EReal) (r : Fin 10000) (c : Fin 128) : EReal :=
  ∑ k : Fin 128, Ideal.tanh (∑ j : Fin 128, x r j * ham w1 j k) * ham w2 k c

/-- Y = adj · T. -/
def agg (adj : Fin 10000 → Fin 10000 → EReal) (t : Fin 10000 → Fin 128 → EReal) (r : Fin 10000) (c : Fin 128) : EReal :=
  ∑ k : Fin 10000, adj r k * t k c

/-- The reciprocal of the row count. -/
def invN : EReal := ((1 / 10000 : ℝ) : EReal)

/-- The stabiliser ε, the f32 nearest 1e-5, as both programs spell it. -/
def eps : EReal := Ideal.ofBits .f32 0x3727C5AC#32

/-- Column sums of Y and of its squares. -/
def colSum (y : Fin 10000 → Fin 128 → EReal) (c : Fin 128) : EReal := ∑ r : Fin 10000, y r c
def colSumSq (y : Fin 10000 → Fin 128 → EReal) (c : Fin 128) : EReal := ∑ r : Fin 10000, y r c * y r c

/-- Batch normalisation over the rows, one-pass variance, scale and shift per column. -/
def norm (y : Fin 10000 → Fin 128 → EReal) (g b : Fin 128 → EReal) (r : Fin 10000) (c : Fin 128) : EReal :=
  (y r c - colSum y c * invN)
      * (Ideal.rsqrt (colSumSq y c * invN - (colSum y c * invN) * (colSum y c * invN) + eps) * g c)
    + b c

/-- The whole layer. -/
def layer (x : Fin 10000 → Fin 128 → EReal) (adj : Fin 10000 → Fin 10000 → EReal)
    (w1 w2 : Fin 32 → Fin 128 → EReal) (g b : Fin 128 → EReal) : Fin 10000 → Fin 128 → EReal :=
  norm (agg adj (feat x w1 w2)) g b

end Cert.Layer

end
-- ==== Proof.LibProductIx.lean ====
/-
  A matrix product read at an entry, with the operand indices written by their coordinates.

  Two arrangements of dimension numbers, no batch axis in either:
  * [A, K] × [K, B] → [A, B], contracting the left factor's axis 1 with the right factor's axis 0:
    the sum over the contraction index at (p, q) is Σ_{k<K} l(p, k) · r(k, q);
  * [A, S, K] × [B, K] → [A, S, B], contracting the left factor's last axis with the right factor's axis 1 (the
    right factor used by rows: x · Wᵀ on every row of a stack of rows): the sum at (a, s, b) is
    Σ_{k<K} l(a, s, k) · r(b, k).
  So a product into a zero accumulator or a host dot_general is that sum, and reads one row of each factor.
  General: nothing here depends on a particular program. An instance supplies the kept coordinates (`hl0`, `hr1`, …: each is
  `unfold DotDims.lhsIdx; rw [dif_neg …, dif_pos …]; rfl` for literal dimension numbers) and `rfl` four times.
-/
import Idealize.ShloMosaic.Lib.ValueIdx
import Idealize.ShloMosaic.PureOps.Ideal.Laws

noncomputable section

namespace Cert.LibProductIx

open Idealize.ShloMosaic Idealize.ShloMosaic.ValueIdx

/-- [A, K] × [K, B]: the sum over the contraction index at (p, q) is Σ_k l(p, k) · r(k, q). -/
theorem sum_rows_cols {A B K : Nat} {φ₁ φ₂ : FTy}
    (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hl0 : ∀ (j : (⟨2, ![A, B]⟩ : Shape).Idx) (q : d.contr.Idx), (d.lhsIdx j q 0).val = (j 0).val)
    (hr1 : ∀ (j : (⟨2, ![A, B]⟩ : Shape).Idx) (q : d.contr.Idx), (d.rhsIdx j q 1).val = (j 1).val)
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k :=
    funext fun a => Fin.ext (by
      match a with
      | ⟨0, _⟩ => exact hl0 (ix2 p q) _
      | ⟨1, _⟩ => exact (d.lhsIdx_val_of_single hlc (ix2 p q) _).trans hk)
  have er : d.rhsIdx (ix2 p q) ((contrEquiv1 d K hr hs).symm k) = ix2 k q :=
    funext fun a => Fin.ext (by
      match a with
      | ⟨0, _⟩ => exact (d.rhsIdx_val_of_single hrc (ix2 p q) _).trans hk
      | ⟨1, _⟩ => exact hr1 (ix2 p q) _)
  rw [el, er]

/-- [A, S, K] × [B, K]: the sum over the contraction index at (a, s, b) is Σ_k l(a, s, k) · r(b, k). -/
theorem sum_stack_rows {A S B K : Nat} {φ₁ φ₂ : FTy}
    (d : DotDims (⟨3, ![A, S, K]⟩ : Shape) (⟨2, ![B, K]⟩ : Shape) (⟨3, ![A, S, B]⟩ : Shape))
    (hr : d.contr.rank = 1) (hs : d.contr.size ⟨0, by omega⟩ = K)
    (hlc : d.lhsContracting = [(2 : Fin 3)]) (hrc : d.rhsContracting = [(1 : Fin 2)])
    (hl0 : ∀ (j : (⟨3, ![A, S, B]⟩ : Shape).Idx) (q : d.contr.Idx), (d.lhsIdx j q 0).val = (j 0).val)
    (hl1 : ∀ (j : (⟨3, ![A, S, B]⟩ : Shape).Idx) (q : d.contr.Idx), (d.lhsIdx j q 1).val = (j 1).val)
    (hr0 : ∀ (j : (⟨3, ![A, S, B]⟩ : Shape).Idx) (q : d.contr.Idx), (d.rhsIdx j q 0).val = (j 2).val)
    (l : FVec Ideal (⟨3, ![A, S, K]⟩ : Shape) φ₁) (r : FVec Ideal (⟨2, ![B, K]⟩ : Shape) φ₂) (a : Fin A) (s : Fin S) (b : Fin B) :
    ∑ c : d.contr.Idx, l (d.lhsIdx (ix3 a s b) c) * r (d.rhsIdx (ix3 a s b) c) = ∑ k : Fin K, l (ix3 a s k) * r (ix2 b k) := by
  rw [← Equiv.sum_comp (contrEquiv1 d K hr hs).symm]
  refine Finset.sum_congr rfl fun k _ => ?_
  have hk := contrEquiv1_symm_val d K hr hs k
  have el : d.lhsIdx (ix3 a s b) ((contrEquiv1 d K hr hs).symm k) = ix3 a s k :=
    funext fun c => Fin.ext (by
      match c with
      | ⟨0, _⟩ => exact hl0 (ix3 a s b) _
      | ⟨1, _⟩ => exact hl1 (ix3 a s b) _
      | ⟨2, _⟩ => exact (d.lhsIdx_val_of_single hlc (ix3 a s b) _).trans hk)
  have er : d.rhsIdx (ix3 a s b) ((contrEquiv1 d K hr hs).symm k) = ix2 b k :=
    funext fun c => Fin.ext (by
      match c with
      | ⟨0, _⟩ => exact hr0 (ix3 a s b) _
      | ⟨1, _⟩ => exact (d.rhsIdx_val_of_single hrc (ix3 a s b) _).trans hk)
  rw [el, er]

end Cert.LibProductIx

end
-- ==== Proof.LibPlainDot.lean ====
/-
  A product of two matrices whose dimension numbers are the plain ones — no batch axis, the left factor's axis 1
  contracted with the right factor's axis 0, the kept axes the left factor's rows and the right factor's columns —
  read at an entry (p, q): into the zero accumulator it is Σ_k l(p,k) · r(k,q). The two facts a reading needs about
  the kept coordinates (the left factor is read in row p, the right factor in column q) are proved here once from the
  dimension numbers' lists, for any record with those lists.
  General: nothing here depends on a particular program.
-/
import proofs.«133474_g54228257079526_cont_9to1c4b_631_6_alg».proof.Proof.LibProductIx

noncomputable section

open scoped BigOperators

namespace Cert.LibPlainDot

open Idealize.ShloMosaic Idealize.ShloMosaic.ValueIdx

variable {A B K : Nat}

/-- The left factor is read in the row of the result's entry. -/
theorem lhs_row (d : DotDims (⟨2, ![A, K]⟩ : Shape) (⟨2, ![K, B]⟩ : Shape) (⟨2, ![A, B]⟩ : Shape))
    (hlb : d.lhsBatch = []) (hln : d.lhsNonContracting = [(0 : Fin 2)])
    (j : (⟨2, ![A, B]⟩ : Shape).Idx) (q : d.contr.Idx) : (d.lhsIdx j q 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln])

/-- The right factor is read in the column of the result's entry. -/
theorem rhs_col (d : DotDims (⟨2, ![A, K]⟩ : Shape) (⟨2, ![K, B]⟩ : Shape) (⟨2, ![A, B]⟩ : Shape))
    (hlb : d.lhsBatch = []) (hln : d.lhsNonContracting = [(0 : Fin 2)])
    (hrb : d.rhsBatch = []) (hrn : d.rhsNonContracting = [(1 : Fin 2)])
    (j : (⟨2, ![A, B]⟩ : Shape).Idx) (q : d.contr.Idx) : (d.rhsIdx j q 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b →
      (j (⟨a, ha⟩ : Fin 2)).val = (j (⟨b, hb⟩ : Fin 2)).val := fun a b ha hb h => by subst h; rfl
  exact key _ _ _ _ (by simp [hlb, hln, hrn])

/-- The contraction sum of a plain product at (p, q). -/
theorem sum_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (l : FVec Ideal (⟨2, ![A, K]⟩ : Shape) φ₁) (r : FVec Ideal (⟨2, ![K, B]⟩ : Shape) φ₂) (p : Fin A) (q : Fin B) :
    ∑ c : d.contr.Idx, l (d.lhsIdx (ix2 p q) c) * r (d.rhsIdx (ix2 p q) c) = ∑ k : Fin K, l (ix2 p k) * r (ix2 k q) :=
  Cert.LibProductIx.sum_rows_cols d hr hs hlc hrc (lhs_row d hlb hln) (rhs_col d hlb hln hrb hrn) l r p q

/-- A plain product into the zero accumulator, at (p, q). -/
theorem matmul_zero_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision)
    (l : FVec Ideal (⟨2, ![A, K]⟩ : Shape) φ₁) (r : FVec Ideal (⟨2, ![K, B]⟩ : Shape) φ₂) (p : Fin A) (q : Fin B) :
    FloatOps.matmul d prec l r (constant (⟨2, ![A, B]⟩ : Shape) .f32 0x00000000#32) (ix2 p q)
      = ∑ k : Fin K, l (ix2 p k) * r (ix2 k q) := by
  rw [Ideal.matmul_constant_zero_apply]
  exact sum_at d hr hs hlc hrc hlb hln hrb hrn l r p q

/-- A host product with the plain dimension numbers, at (p, q). -/
theorem dotGeneral_at {φ₁ φ₂ : FTy} (d : DotDims (⟨2, ![A, K]⟩ : Shape) (⟨2, ![K, B]⟩ : Shape) (⟨2, ![A, B]⟩ : Shape))
    (hr : d.contr.rank = 1) (hs : d.contr.size ⟨0, by omega⟩ = K)
    (hlc : d.lhsContracting = [(1 : Fin 2)]) (hrc : d.rhsContracting = [(0 : Fin 2)])
    (hlb : d.lhsBatch = []) (hln : d.lhsNonContracting = [(0 : Fin 2)])
    (hrb : d.rhsBatch = []) (hrn : d.rhsNonContracting = [(1 : Fin 2)])
    (prec : Option ContractPrecision) (sched : HostSchedule)
    (l : FVec Ideal (⟨2, ![A, K]⟩ : Shape) φ₁) (r : FVec Ideal (⟨2, ![K, B]⟩ : Shape) φ₂) (p : Fin A) (q : Fin B) :
    FloatOps.dotGeneral d prec sched l r (ix2 p q) = ∑ k : Fin K, l (ix2 p k) * r (ix2 k q) := by
  rw [Ideal.dotGeneral_apply]
  exact sum_at d hr hs hlc hrc hlb hln hrb hrn l r p q

end Cert.LibPlainDot

end
-- ==== Proof.KernelPay.lean ====
/-
  The kernel body's stored values read at one entry, on the extended reals.

  Each stored value is a pure term of the values loaded before it. Read at an entry (r, c):
  a matrix product into the zero accumulator is the sum over the contracted coordinate of the products; a change of
  float format and a reshape to the same shape change nothing; a sum over the rows of a 200×128 block, from the
  zero word, is the sum of its 200 entries in that column; a 1×128 row spread over 200 rows reads that row.
  So the features are Σ_k tanh(Σ_j x(r,j)·H1(j,k))·H2(k,c), a block of the aggregate is Σ_k a(p,k)·t(k,c), the running
  column sums grow by the block's column sums (of the entries, and of their squares), and the normalised block is
  (y − s·n⁻¹)·(rsqrt(q·n⁻¹ − (s·n⁻¹)² + ε)·γ) + β with n⁻¹ the named reciprocal 1/10000.
-/
import proofs.«133474_g54228257079526_cont_9to1c4b_631_6_alg».proof.Proof.Gen.KernelIdeal.Skeleton
import proofs.«133474_g54228257079526_cont_9to1c4b_631_6_alg».proof.Proof.Spec
import proofs.«133474_g54228257079526_cont_9to1c4b_631_6_alg».proof.Proof.LibPlainDot
import Idealize.ShloMosaic.Lib.ValueLayout
import Idealize.ShloMosaic.PureOps.IdealRules

noncomputable section

namespace Cert.KernelPay

open Idealize.ShloMosaic Idealize.ShloMosaic.ValueIdx Cert.KernelIdeal Cert.KernelIdeal.Gen
open scoped BigOperators

/-- The zeroed statistics block: every entry is 0. -/
theorem pay2_at (p : Fin 8) (c : Fin 128) : k0_pay2 (F := Ideal) (ix2 p c) = 0 := by
  unfold k0_pay2
  refine (congrFun (shapeCast_self _ _) _).trans ?_
  exact Ideal.ofBits_zero_f32

/-- A 200-row block of the aggregate: row p of the adjacency block times column c of the features. -/
theorem pay3_at (a : FVec Ideal S200x10000 .f32) (t : FVec Ideal S10000x128 .bf16) (p : Fin 200) (c : Fin 128) :
    k0_pay3 (F := Ideal) a t (ix2 p c) = ∑ k : Fin 10000, a (ix2 p k) * t (ix2 k c) := by
  unfold k0_pay3
  exact Cert.LibPlainDot.matmul_zero_at dot_S200x10000_S10000x128_S200x128_1_0_0_1_n_n rfl rfl rfl rfl rfl rfl rfl rfl
    none (truncf .bf16 a bitsLt_bf16_f32) t p c

/-- The block as it is stored is that block. -/
theorem pay4_at (a : FVec Ideal S200x10000 .f32) (t : FVec Ideal S10000x128 .bf16) (p : Fin 200) (c : Fin 128) :
    k0_pay4 (F := Ideal) a t (ix2 p c) = k0_pay3 (F := Ideal) a t (ix2 p c) := by
  unfold k0_pay4
  exact congrFun (shapeCast_self _ _) _

/-- The features: tanh of the input row times the first matrix, times the second matrix. -/
theorem pay1_at (H1 H2 : FVec Ideal S128x128 .f32) (x : FVec Ideal S10000x128 .f32) (r : Fin 10000) (c : Fin 128) :
    k0_pay1 (F := Ideal) H1 H2 x (ix2 r c)
      = ∑ k : Fin 128, Ideal.tanh (∑ j : Fin 128, x (ix2 r j) * H1 (ix2 j k)) * H2 (ix2 k c) := by
  unfold k0_pay1
  refine (congrFun (shapeCast_self _ _) _).trans ?_
  refine (truncf_apply (ψ := .bf16) (φ := .f32) _ bitsLt_bf16_f32 (ix2 r c)).trans ?_
  refine (Cert.LibPlainDot.matmul_zero_at dot_S10000x128_S128x128_S10000x128_1_0_0_1_n_n rfl rfl rfl rfl rfl rfl rfl rfl
    none _ H2 r c).trans ?_
  refine Finset.sum_congr rfl fun k _ => congrArg (· * H2 (ix2 k c)) ?_
  exact congrArg Ideal.tanh (Cert.LibPlainDot.matmul_zero_at dot_S10000x128_S128x128_S10000x128_1_0_0_1_n_n
    rfl rfl rfl rfl rfl rfl rfl rfl none x H1 r k)

/-- The sum over the 200 rows of a block, from the zero word, at column c. -/
theorem rowsSum_at (src : FVec Ideal S200x128 .f32) (c : Fin 128) :
    multiReduction (F := Ideal) .add [0] S128 src 0x00000000#32 reduces_S200x128_S128 (.inl rfl) rfl (ix1 c)
      = ∑ p : Fin 200, src (ix2 p c) := by
  refine (Ideal.multiReduction_add_single src 0x00000000#32 reduces_S200x128_S128 (.inl rfl) rfl (ix1 c)).trans ?_
  show ∑ p : Fin 200, src (reduces_S200x128_S128.lift (ix1 c) p) = _
  refine Finset.sum_congr rfl fun p _ => congrArg src ?_
  funext a
  match a with
  | ⟨0, _⟩ => rfl
  | ⟨1, _⟩ => rfl

/-- The running column sums grow by the block's column sums. -/
theorem pay5_at (a : FVec Ideal S200x10000 .f32) (t : FVec Ideal S10000x128 .bf16) (v : FVec Ideal S1x128 .f32)
    (c : Fin 128) :
    k0_pay5 (F := Ideal) a t v (ix2 0 c) = v (ix2 0 c) + ∑ p : Fin 200, k0_pay3 (F := Ideal) a t (ix2 p c) := by
  unfold k0_pay5
  refine (congrFun (shapeCast_self _ _) _).trans ?_
  refine congrArg (v (ix2 0 c) + ·) ?_
  refine (shapeCast_a_1a_apply _ shapeCasts_S128_S1x128 0 c).trans ?_
  exact rowsSum_at _ c

/-- The running column sums of squares grow by the block's column sums of squares. -/
theorem pay6_at (a : FVec Ideal S200x10000 .f32) (t : FVec Ideal S10000x128 .bf16) (v : FVec Ideal S1x128 .f32)
    (c : Fin 128) :
    k0_pay6 (F := Ideal) a t v (ix2 0 c)
      = v (ix2 0 c) + ∑ p : Fin 200, k0_pay3 (F := Ideal) a t (ix2 p c) * k0_pay3 (F := Ideal) a t (ix2 p c) := by
  unfold k0_pay6
  refine (congrFun (shapeCast_self _ _) _).trans ?_
  refine congrArg (v (ix2 0 c) + ·) ?_
  refine (shapeCast_a_1a_apply _ shapeCasts_S128_S1x128 0 c).trans ?_
  exact rowsSum_at _ c

/-- The named reciprocal of the row count is 1/10000. -/
theorem inv_n : Named.named (F := Ideal) κ "inv_10000" (φ := .f32) 0x38D1B717#32 = Cert.Layer.invN :=
  IdealRules.named_const.ideal_named_scalar _ _ _ _ rfl

/-- A 1×128 row spread over the 200 rows of a block reads that row. -/
theorem spread_at (x : FVec Ideal S1x128 .f32) (p : Fin 200) (c : Fin 128) :
    broadcastTo S200x128 x broadcasts_S1x128_S200x128 (ix2 p c) = x (ix2 0 c) :=
  broadcastTo_1b_ab_apply x _ p c

/-- A block of the normalised output, one pass: (y − s·n⁻¹)·(rsqrt(q·n⁻¹ − (s·n⁻¹)² + ε)·γ) + β. -/
theorem pay7_at (s q g : FVec Ideal S1x128 .f32) (y : FVec Ideal S200x128 .f32) (b : FVec Ideal S1x128 .f32)
    (p : Fin 200) (c : Fin 128) :
    k0_pay7 (F := Ideal) s q g y b (ix2 p c)
      = (y (ix2 p c) - s (ix2 0 c) * Cert.Layer.invN)
          * (Ideal.rsqrt (q (ix2 0 c) * Cert.Layer.invN
              - (s (ix2 0 c) * Cert.Layer.invN) * (s (ix2 0 c) * Cert.Layer.invN) + Cert.Layer.eps) * g (ix2 0 c))
        + b (ix2 0 c) := by
  unfold k0_pay7
  rw [addf_apply, mulf_apply, subf_apply, spread_at, spread_at, spread_at, shapeCast_self, shapeCast_self]
  rw [← inv_n]
  rfl

end Cert.KernelPay

end
-- ==== Proof.LibConcatAt.lean ====
import Idealize.ShloMosaic.Lib.ValueIdx
import Idealize.ShloMosaic.Lib.Pipeline.Value

/-!
# A concatenation of matrices read at an entry

Two corollaries of the library's reading of a concatenation at an index (`concatenate_apply_piece`), in the two
forms a row-by-row or column-by-column assembly needs, with every index written by its coordinates:

* matrices [Wₖ, N] stacked on top of each other (axis 0) into [R, N]: entry `(j, r)` of the stack is entry
  `(p, r)` of piece `k` when the pieces before `k` have `pre` rows together and `j = pre + p`;
* matrices [N, Wₖ] set side by side (axis 1) into [N, K]: entry `(n, j)` is entry `(n, p)` of piece `k` when the
  pieces before `k` have `pre` columns together and `j = pre + p`.

The piece is named by an equation `xs[k]? = some ⟨shape, x₁⟩`, which for a literal list and a literal `k` is
decided by walking the list and tells Lean what `x₁` is; the count `pre` is a sum over a literal prefix of the list. Nothing here depends
on what the entries are.
-/

namespace Cert.LibConcatAt

open Idealize.ShloMosaic Idealize.ShloMosaic.ValueIdx

variable {α : Type}

/-- The extents of the pieces along axis `a` of the result, as the library's lemma sums them. -/
abbrev extents {t : Shape} (a : Fin t.rank) (ss : List Shape) : List Nat :=
  ss.map fun s => if h : s.rank = t.rank then s.size (a.cast h.symm) else 0

/-- Matrices stacked on top of each other, read at `(j, r)`: row `p` of piece `k`, where `j = pre + p` and `pre`
    is the number of rows of the pieces before `k`. -/
theorem stacked_at {R N W : ℕ} (xs : List ((s : Shape) × (s.Idx → α)))
    (h : Shape.Concatenates (xs.map (·.1)) ⟨2, ![R, N]⟩ (0 : Fin 2)) (j : Fin R) (r : Fin N)
    (k : ℕ) (x₁ : (⟨2, ![W, N]⟩ : Shape).Idx → α) (hxk : xs[k]? = some ⟨⟨2, ![W, N]⟩, x₁⟩)
    (pre : ℕ) (hpre : (extents (t := ⟨2, ![R, N]⟩) (0 : Fin 2) ((xs.take k).map (·.1))).sum = pre)
    (p : Fin W) (hj : pre + p.val = j.val) :
    concatenate ⟨2, ![R, N]⟩ (0 : Fin 2) xs h (ix2 j r) = x₁ (ix2 p r) := by
  obtain ⟨hk, hxk'⟩ := List.getElem?_eq_some_iff.mp hxk
  exact concatenate_apply_piece (t := ⟨2, ![R, N]⟩) (0 : Fin 2) xs h (ix2 j r) k hk ⟨2, ![W, N]⟩ x₁ hxk' rfl pre hpre (ix2 p r)
    (fun b hb => by
      match b with
      | ⟨0, _⟩ => exact absurd rfl hb
      | ⟨1, _⟩ => rfl) hj

/-- Matrices set side by side, read at `(n, j)`: column `p` of piece `k`, where `j = pre + p` and `pre` is the
    number of columns of the pieces before `k`. -/
theorem sideBySide_at {N K W : ℕ} (xs : List ((s : Shape) × (s.Idx → α)))
    (h : Shape.Concatenates (xs.map (·.1)) ⟨2, ![N, K]⟩ (1 : Fin 2)) (n : Fin N) (j : Fin K)
    (k : ℕ) (x₁ : (⟨2, ![N, W]⟩ : Shape).Idx → α) (hxk : xs[k]? = some ⟨⟨2, ![N, W]⟩, x₁⟩)
    (pre : ℕ) (hpre : (extents (t := ⟨2, ![N, K]⟩) (1 : Fin 2) ((xs.take k).map (·.1))).sum = pre)
    (p : Fin W) (hj : pre + p.val = j.val) :
    concatenate ⟨2, ![N, K]⟩ (1 : Fin 2) xs h (ix2 n j) = x₁ (ix2 n p) := by
  obtain ⟨hk, hxk'⟩ := List.getElem?_eq_some_iff.mp hxk
  exact concatenate_apply_piece (t := ⟨2, ![N, K]⟩) (1 : Fin 2) xs h (ix2 n j) k hk ⟨2, ![N, W]⟩ x₁ hxk' rfl pre hpre (ix2 n p)
    (fun b hb => by
      match b with
      | ⟨0, _⟩ => rfl
      | ⟨1, _⟩ => exact absurd rfl hb) hj

/-- Rows [1, N] stacked into [R, N]: row `j` of the stack is the `j`-th piece. The piece is found by walking the
    list to position `j`; that the `j` pieces before it are one row each is a sum over the prefix. -/
theorem stackedRows_at {R N : ℕ} (xs : List ((s : Shape) × (s.Idx → α)))
    (h : Shape.Concatenates (xs.map (·.1)) ⟨2, ![R, N]⟩ (0 : Fin 2)) (j : Fin R) (r : Fin N)
    (x₁ : (⟨2, ![1, N]⟩ : Shape).Idx → α) (hxk : xs[j.val]? = some ⟨⟨2, ![1, N]⟩, x₁⟩)
    (hpre : (extents (t := ⟨2, ![R, N]⟩) (0 : Fin 2) ((xs.take j.val).map (·.1))).sum = j.val) :
    concatenate ⟨2, ![R, N]⟩ (0 : Fin 2) xs h (ix2 j r) = x₁ (ix2 0 r) :=
  stacked_at xs h j r j.val x₁ hxk j.val hpre 0 rfl

/-- Columns [N, 1] set side by side into [N, K]: column `j` of the result is the `j`-th piece. -/
theorem columns_at {N K : ℕ} (xs : List ((s : Shape) × (s.Idx → α)))
    (h : Shape.Concatenates (xs.map (·.1)) ⟨2, ![N, K]⟩ (1 : Fin 2)) (n : Fin N) (j : Fin K)
    (x₁ : (⟨2, ![N, 1]⟩ : Shape).Idx → α) (hxk : xs[j.val]? = some ⟨⟨2, ![N, 1]⟩, x₁⟩)
    (hpre : (extents (t := ⟨2, ![N, K]⟩) (1 : Fin 2) ((xs.take j.val).map (·.1))).sum = j.val) :
    concatenate ⟨2, ![N, K]⟩ (1 : Fin 2) xs h (ix2 n j) = x₁ (ix2 n 0) :=
  sideBySide_at xs h n j j.val x₁ hxk j.val hpre 0 rfl

end Cert.LibConcatAt
-- ==== Proof.KernelHam.lean ====
/-
  The Hamilton matrices the kernel assembles, read at one entry.

  From a quaternion weight w : 32×128 the kernel cuts the four 32×32 blocks r, i, j, k (columns 0–31, 32–63, 64–95,
  96–127), negates some of them (0 − x, which is −x), stacks four of them on top of each other into each of four
  128×32 column blocks and sets those side by side. Entry (a, b) with a = 32·p + a', b = 32·q + b' therefore lies in
  column block q, and there in the p-th stacked piece, at (a', b'): one entry of one block of w, with a sign. The
  sixteen (p, q) are checked one by one against the table of blocks and signs.
-/
import proofs.«133474_g54228257079526_cont_9to1c4b_631_6_alg».proof.Proof.Gen.KernelIdeal.Skeleton
import proofs.«133474_g54228257079526_cont_9to1c4b_631_6_alg».proof.Proof.Spec
import proofs.«133474_g54228257079526_cont_9to1c4b_631_6_alg».proof.Proof.LibConcatAt
import Idealize.ShloMosaic.Lib.ValueLayout
import Idealize.ShloMosaic.PureOps.Ideal.Laws

noncomputable section

namespace Cert.KernelPay

open Idealize.ShloMosaic Idealize.ShloMosaic.ValueIdx Cert.KernelIdeal Cert.KernelIdeal.Gen
open scoped BigOperators

/-- Four 128×32 pieces side by side: entry (a, 32·q + b') is entry (a, b') of piece q. -/
theorem cols4_at (c0 c1 c2 c3 : FVec Ideal S128x32 .f32)
    (h : Shape.Concatenates [S128x32, S128x32, S128x32, S128x32] S128x128 1)
    (a b : Fin 128) (q : Fin 4) (rb : Fin 32) (hb : 32 * q.val + rb.val = b.val) :
    concatenate S128x128 1 [⟨S128x32, c0⟩, ⟨S128x32, c1⟩, ⟨S128x32, c2⟩, ⟨S128x32, c3⟩] h (ix2 a b)
      = (![c0, c1, c2, c3] q) (ix2 a rb) := by
  match q with
  | ⟨0, _⟩ => exact Cert.LibConcatAt.sideBySide_at [⟨S128x32, c0⟩, ⟨S128x32, c1⟩, ⟨S128x32, c2⟩, ⟨S128x32, c3⟩] h a b 0 c0 rfl 0 rfl rb hb
  | ⟨1, _⟩ => exact Cert.LibConcatAt.sideBySide_at [⟨S128x32, c0⟩, ⟨S128x32, c1⟩, ⟨S128x32, c2⟩, ⟨S128x32, c3⟩] h a b 1 c1 rfl 32 rfl rb hb
  | ⟨2, _⟩ => exact Cert.LibConcatAt.sideBySide_at [⟨S128x32, c0⟩, ⟨S128x32, c1⟩, ⟨S128x32, c2⟩, ⟨S128x32, c3⟩] h a b 2 c2 rfl 64 rfl rb hb
  | ⟨3, _⟩ => exact Cert.LibConcatAt.sideBySide_at [⟨S128x32, c0⟩, ⟨S128x32, c1⟩, ⟨S128x32, c2⟩, ⟨S128x32, c3⟩] h a b 3 c3 rfl 96 rfl rb hb

/-- Four 32×32 pieces on top of each other: entry (32·p + a', b') is entry (a', b') of piece p. -/
theorem rows4_at (c0 c1 c2 c3 : FVec Ideal S32x32 .f32)
    (h : Shape.Concatenates [S32x32, S32x32, S32x32, S32x32] S128x32 0)
    (a : Fin 128) (rb : Fin 32) (p : Fin 4) (ra : Fin 32) (ha : 32 * p.val + ra.val = a.val) :
    concatenate S128x32 0 [⟨S32x32, c0⟩, ⟨S32x32, c1⟩, ⟨S32x32, c2⟩, ⟨S32x32, c3⟩] h (ix2 a rb)
      = (![c0, c1, c2, c3] p) (ix2 ra rb) := by
  match p with
  | ⟨0, _⟩ => exact Cert.LibConcatAt.stacked_at [⟨S32x32, c0⟩, ⟨S32x32, c1⟩, ⟨S32x32, c2⟩, ⟨S32x32, c3⟩] h a rb 0 c0 rfl 0 rfl ra ha
  | ⟨1, _⟩ => exact Cert.LibConcatAt.stacked_at [⟨S32x32, c0⟩, ⟨S32x32, c1⟩, ⟨S32x32, c2⟩, ⟨S32x32, c3⟩] h a rb 1 c1 rfl 32 rfl ra ha
  | ⟨2, _⟩ => exact Cert.LibConcatAt.stacked_at [⟨S32x32, c0⟩, ⟨S32x32, c1⟩, ⟨S32x32, c2⟩, ⟨S32x32, c3⟩] h a rb 2 c2 rfl 64 rfl ra ha
  | ⟨3, _⟩ => exact Cert.LibConcatAt.stacked_at [⟨S32x32, c0⟩, ⟨S32x32, c1⟩, ⟨S32x32, c2⟩, ⟨S32x32, c3⟩] h a rb 3 c3 rfl 96 rfl ra ha

/-- A 32×32 block of the weight cut from column o: entry (a', b') is the weight at (a', o + b'). -/
theorem blk_at (w : FVec Ideal S32x128 .f32) (o : Nat) (h : S32x128.Slices ![0, o] S32x32) (ra rb : Fin 32)
    (k : Fin 128) (hk : k.val = o + rb.val) :
    extractStridedSlice S32x32 ![0, o] w h (ix2 ra rb) = w (ix2 ra k) :=
  slice2_axis1_apply o w h ra rb k hk

/-- The same block subtracted from the zero splat: the negated entry. -/
theorem negblk_at (w : FVec Ideal S32x128 .f32) (o : Nat) (h : S32x128.Slices ![0, o] S32x32) (ra rb : Fin 32)
    (k : Fin 128) (hk : k.val = o + rb.val) :
    subf (broadcast S32x32 (Scalar.ofBits (F := Ideal) .f32 0x00000000#32)) (extractStridedSlice S32x32 ![0, o] w h)
      (ix2 ra rb) = -(w (ix2 ra k)) := by
  show Ideal.ofBits .f32 0x00000000#32 - extractStridedSlice S32x32 ![0, o] w h (ix2 ra rb) = _
  rw [Ideal.ofBits_zero_f32, blk_at w o h ra rb k hk, sub_eq_add_neg, zero_add]

/-- An entry of the Hamilton matrix with its coordinates split as a = 32·p + a', b = 32·q + b'. -/
theorem ham_split (w : Fin 32 → Fin 128 → EReal) (a b : Fin 128) (p q : Fin 4) (ra rb : Fin 32)
    (ha : 32 * p.val + ra.val = a.val) (hb : 32 * q.val + rb.val = b.val)
    (k : Fin 128) (hk : k.val = 32 * (Cert.Layer.blockOf p q).val + rb.val) :
    Cert.Layer.ham w a b = if Cert.Layer.negAt p q then -(w ra k) else w ra k := by
  have e1 : ∀ h, (⟨a.val / 32, h⟩ : Fin 4) = p := fun h => Fin.ext (by show a.val / 32 = p.val; omega)
  have e2 : ∀ h, (⟨b.val / 32, h⟩ : Fin 4) = q := fun h => Fin.ext (by show b.val / 32 = q.val; omega)
  have e3 : ∀ h, (⟨a.val % 32, h⟩ : Fin 32) = ra := fun h => Fin.ext (by show a.val % 32 = ra.val; omega)
  have e4 : ∀ h, (⟨32 * (Cert.Layer.blockOf p q).val + b.val % 32, h⟩ : Fin 128) = k :=
    fun h => Fin.ext (by show 32 * (Cert.Layer.blockOf p q).val + b.val % 32 = k.val; omega)
  unfold Cert.Layer.ham
  simp only [e1, e2, e3, e4]

/-- The kernel's first Hamilton matrix is H(w) of the specification. -/
theorem pay8_at (w : FVec Ideal S32x128 .f32) (a b : Fin 128) :
    k0_pay8 (F := Ideal) w (ix2 a b) = Cert.Layer.ham (Cert.Layer.mat w) a b := by
  obtain ⟨p, ra, ha⟩ : ∃ (p : Fin 4) (ra : Fin 32), 32 * p.val + ra.val = a.val :=
    ⟨⟨a.val / 32, by omega⟩, ⟨a.val % 32, by omega⟩, by show 32 * (a.val / 32) + a.val % 32 = a.val; omega⟩
  obtain ⟨q, rb, hb⟩ : ∃ (q : Fin 4) (rb : Fin 32), 32 * q.val + rb.val = b.val :=
    ⟨⟨b.val / 32, by omega⟩, ⟨b.val % 32, by omega⟩, by show 32 * (b.val / 32) + b.val % 32 = b.val; omega⟩
  obtain ⟨k, hk⟩ : ∃ k : Fin 128, k.val = 32 * (Cert.Layer.blockOf p q).val + rb.val :=
    ⟨⟨32 * (Cert.Layer.blockOf p q).val + rb.val, by have := (Cert.Layer.blockOf p q).isLt; omega⟩, rfl⟩
  rw [ham_split (Cert.Layer.mat w) a b p q ra rb ha hb k hk]
  unfold k0_pay8
  refine (cols4_at _ _ _ _ concatenates_S128x32_S128x32_S128x32_S128x32_S128x128_d1 a b q rb hb).trans ?_
  fin_cases q <;> fin_cases p <;>
    refine (rows4_at _ _ _ _ concatenates_S32x32_S32x32_S32x32_S32x32_S128x32_d0 a rb _ ra ha).trans ?_ <;>
    first
    | exact (blk_at w 0 slices_S32x128_o0_0_S32x32 ra rb k hk).trans rfl
    | exact (blk_at w 32 slices_S32x128_o0_32_S32x32 ra rb k hk).trans rfl
    | exact (blk_at w 64 slices_S32x128_o0_64_S32x32 ra rb k hk).trans rfl
    | exact (blk_at w 96 slices_S32x128_o0_96_S32x32 ra rb k hk).trans rfl
    | exact (negblk_at w 32 slices_S32x128_o0_32_S32x32 ra rb k hk).trans rfl
    | exact (negblk_at w 64 slices_S32x128_o0_64_S32x32 ra rb k hk).trans rfl
    | exact (negblk_at w 96 slices_S32x128_o0_96_S32x32 ra rb k hk).trans rfl

/-- The kernel's second Hamilton matrix likewise. -/
theorem pay9_at (w : FVec Ideal S32x128 .f32) (a b : Fin 128) :
    k0_pay9 (F := Ideal) w (ix2 a b) = Cert.Layer.ham (Cert.Layer.mat w) a b := by
  obtain ⟨p, ra, ha⟩ : ∃ (p : Fin 4) (ra : Fin 32), 32 * p.val + ra.val = a.val :=
    ⟨⟨a.val / 32, by omega⟩, ⟨a.val % 32, by omega⟩, by show 32 * (a.val / 32) + a.val % 32 = a.val; omega⟩
  obtain ⟨q, rb, hb⟩ : ∃ (q : Fin 4) (rb : Fin 32), 32 * q.val + rb.val = b.val :=
    ⟨⟨b.val / 32, by omega⟩, ⟨b.val % 32, by omega⟩, by show 32 * (b.val / 32) + b.val % 32 = b.val; omega⟩
  obtain ⟨k, hk⟩ : ∃ k : Fin 128, k.val = 32 * (Cert.Layer.blockOf p q).val + rb.val :=
    ⟨⟨32 * (Cert.Layer.blockOf p q).val + rb.val, by have := (Cert.Layer.blockOf p q).isLt; omega⟩, rfl⟩
  rw [ham_split (Cert.Layer.mat w) a b p q ra rb ha hb k hk]
  unfold k0_pay9
  refine (cols4_at _ _ _ _ concatenates_S128x32_S128x32_S128x32_S128x32_S128x128_d1 a b q rb hb).trans ?_
  fin_cases q <;> fin_cases p <;>
    refine (rows4_at _ _ _ _ concatenates_S32x32_S32x32_S32x32_S32x32_S128x32_d0 a rb _ ra ha).trans ?_ <;>
    first
    | exact (blk_at w 0 slices_S32x128_o0_0_S32x32 ra rb k hk).trans rfl
    | exact (blk_at w 32 slices_S32x128_o0_32_S32x32 ra rb k hk).trans rfl
    | exact (blk_at w 64 slices_S32x128_o0_64_S32x32 ra rb k hk).trans rfl
    | exact (blk_at w 96 slices_S32x128_o0_96_S32x32 ra rb k hk).trans rfl
    | exact (negblk_at w 32 slices_S32x128_o0_32_S32x32 ra rb k hk).trans rfl
    | exact (negblk_at w 64 slices_S32x128_o0_64_S32x32 ra rb k hk).trans rfl
    | exact (negblk_at w 96 slices_S32x128_o0_96_S32x32 ra rb k hk).trans rfl

end Cert.KernelPay

end
-- ==== Proof.LibPrefixSum.lean ====
/-
  Prefix sums over an initial segment of the naturals, in any additive commutative monoid.

  A sum of the terms f 0, …, f (a + b − 1) is the sum of the first a of them plus the b terms that follow; so the
  sum of the first (k + 1) · q terms is the sum of the first k · q plus block k, the q terms f (k · q + j), j < q.
  This is the step of an accumulation that walks a long sum block by block: after block k the accumulator holds the
  prefix sum up to (k + 1) · q, and after the last block the whole sum, which is also the sum over Fin n.
  General: nothing here depends on a particular program.
-/
import Mathlib.Algebra.BigOperators.Fin
import Mathlib.Algebra.BigOperators.Group.Finset.Basic

open scoped BigOperators

namespace LibPrefixSum

variable {M : Type*} [AddCommMonoid M]

/-- The first a + b terms are the first a plus the b after them. -/
theorem prefix_add (f : ℕ → M) (a b : ℕ) :
    ∑ l ∈ Finset.range (a + b), f l = ∑ l ∈ Finset.range a, f l + ∑ j : Fin b, f (a + j.val) := by
  rw [Finset.sum_range_add]
  exact congrArg _ (Finset.sum_range fun x => f (a + x))

/-- The first (k + 1) · q terms are the first k · q plus block k. -/
theorem prefix_block (f : ℕ → M) (k q : ℕ) :
    ∑ l ∈ Finset.range ((k + 1) * q), f l = ∑ l ∈ Finset.range (k * q), f l + ∑ j : Fin q, f (k * q + j.val) := by
  rw [Nat.succ_mul, prefix_add]

/-- The first block alone: the first q terms, from zero. -/
theorem prefix_first (f : ℕ → M) (q : ℕ) :
    ∑ l ∈ Finset.range ((0 + 1) * q), f l = 0 + ∑ j : Fin q, f (0 * q + j.val) := by
  rw [prefix_block, Nat.zero_mul, Finset.range_zero, Finset.sum_empty]

/-- A prefix sum of n terms is the sum over Fin n. -/
theorem prefix_all (f : ℕ → M) (n : ℕ) : ∑ l ∈ Finset.range n, f l = ∑ k : Fin n, f k.val :=
  Finset.sum_range f

end LibPrefixSum
-- ==== Proof.KI.Value.lean ====
/-
  What the kernel keeps between grid points and what it writes back, as the layer of the argument arrays.

  The inputs x, w1, w2 are staged whole, so every point finds the whole arrays; point j < 50 finds rows
  200·j … 200·j+199 of the adjacency; γ and β arrive as the 1×128 reshapes of the two vectors. Hence the features
  the first point computes are T = tanh(x·H(w1))·H(w2); row block j of the aggregate is rows 200·j … of Y = adj·T;
  the two statistics rows, which start cleared and grow by one block's column sums per point, hold after block j the
  sums of Y and of Y² over the rows below 200·(j+1), so after the fiftieth block the full column sums; and the block
  a point of the second phase stores is the one-pass normalisation of its 200 rows of Y: the layer.
-/
import proofs.«133474_g54228257079526_cont_9to1c4b_631_6_alg».proof.Proof.KI.State
import proofs.«133474_g54228257079526_cont_9to1c4b_631_6_alg».proof.Proof.KernelPay
import proofs.«133474_g54228257079526_cont_9to1c4b_631_6_alg».proof.Proof.KernelHam
import proofs.«133474_g54228257079526_cont_9to1c4b_631_6_alg».proof.Proof.LibPrefixSum

set_option maxRecDepth 16384

noncomputable section

namespace Cert.KernelValue

open Idealize.ShloMosaic Idealize.ShloMosaic.TcCoe Idealize.ShloMosaic.ValueIdx
open Idealize.SL Idealize.SL.Sem
open Cert.KernelIdeal Cert.KernelIdeal.Gen Cert.KernelPay
open scoped BigOperators

variable (m : (ℓ : Loc nD τ sig) → Buf (Elt Ideal) ℓ) (c : Dev nD)

/-- The six argument arrays on core c. -/
abbrev a0 : FVec Ideal S10000x128 .f32 := m ((c : Thread nD τ).loc main_arg0)
abbrev a1 : FVec Ideal S10000x10000 .f32 := m ((c : Thread nD τ).loc main_arg1)
abbrev a2 : FVec Ideal S32x128 .f32 := m ((c : Thread nD τ).loc main_arg2)
abbrev a3 : FVec Ideal S32x128 .f32 := m ((c : Thread nD τ).loc main_arg3)
abbrev a4 : FVec Ideal S128 .f32 := m ((c : Thread nD τ).loc main_arg4)
abbrev a5 : FVec Ideal S128 .f32 := m ((c : Thread nD τ).loc main_arg5)

/-- The features and the aggregate of the specification at these arrays. -/
abbrev Tspec : Fin 10000 → Fin 128 → EReal :=
  Cert.Layer.feat (Cert.Layer.mat (a0 m c)) (Cert.Layer.mat (a2 m c)) (Cert.Layer.mat (a3 m c))
abbrev Yspec : Fin 10000 → Fin 128 → EReal := Cert.Layer.agg (Cert.Layer.mat (a1 m c)) (Tspec m c)

/-! ## The blocks the points find -/

/-- The windows staged whole sit at block (0, 0) at every point. -/
theorem idx_whole : ∀ t : Fin cfg0.N,
    win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0 :=
  (by decide +kernel : ∀ t : Fin grid0.N, _)

/-- In the first phase point t finds row block t of the adjacency. -/
theorem idx_adj : ∀ t : Fin cfg0.N, t.val < 50 →
    win0_5.index t (0 : Fin 2) = t.val ∧ win0_5.index t (1 : Fin 2) = 0 :=
  (by decide +kernel : ∀ t : Fin grid0.N, _)

theorem blk0 (t : Fin cfg0.N) : iblk (F := Ideal) m c 0 t = a0 m c := by
  funext y
  obtain ⟨e0, e1, -⟩ := idx_whole t
  show V m c main_arg0 (((cfg0.win 0).blk t).view.emb y) = _
  rw [V_main_arg0]
  refine congrArg _ ?_
  funext a; apply Fin.ext
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem blk1 (t : Fin cfg0.N) : iblk (F := Ideal) m c 1 t = a2 m c := by
  funext y
  obtain ⟨-, -, e0, e1, -⟩ := idx_whole t
  show V m c main_arg2 (((cfg0.win 1).blk t).view.emb y) = _
  rw [V_main_arg2]
  refine congrArg _ ?_
  funext a; apply Fin.ext
  match a with
  | ⟨0, _⟩ => show win0_1.index t (0 : Fin 2) * 32 + 1 * (y 0).val = (y 0).val; omega
  | ⟨1, _⟩ => show win0_1.index t (1 : Fin 2) * 128 + 1 * (y 1).val = (y 1).val; omega

theorem blk2 (t : Fin cfg0.N) : iblk (F := Ideal) m c 2 t = a3 m c := by
  funext y
  obtain ⟨-, -, -, -, e0, e1, -⟩ := idx_whole t
  show V m c main_arg3 (((cfg0.win 2).blk t).view.emb y) = _
  rw [V_main_arg3]
  refine congrArg _ ?_
  funext a; apply Fin.ext
  match a with
  | ⟨0, _⟩ => show win0_2.index t (0 : Fin 2) * 32 + 1 * (y 0).val = (y 0).val; omega
  | ⟨1, _⟩ => show win0_2.index t (1 : Fin 2) * 128 + 1 * (y 1).val = (y 1).val; omega

/-- γ arrives as the 1×128 reshape of the vector: the block's entry (0, k) is γ(k). -/
theorem blk3 (t : Fin cfg0.N) (k : Fin 128) : iblk (F := Ideal) m c 3 t (ix2 0 k) = a4 m c (ix1 k) := by
  obtain ⟨-, -, -, -, -, -, e0, e1, -⟩ := idx_whole t
  have e : (V m c main_v0 : S1x128.Idx → EReal) = shapeCast S1x128 (a4 m c) shapeCasts_S128_S1x128 := by
    dsimp only [V, hostOps0]; after_results; rfl
  have hemb : ((cfg0.win 3).blk t).view.emb (ix2 0 k) = ix2 0 k := by
    funext a; apply Fin.ext
    match a with
    | ⟨0, _⟩ => show win0_3.index t (0 : Fin 2) * 1 + 1 * 0 = 0; omega
    | ⟨1, _⟩ => show win0_3.index t (1 : Fin 2) * 128 + 1 * k.val = k.val; omega
  show V m c main_v0 (((cfg0.win 3).blk t).view.emb (ix2 0 k)) = _
  rw [hemb, e]
  exact shapeCast_a_1a_apply _ _ 0 k

/-- β likewise. -/
theorem blk4 (t : Fin cfg0.N) (k : Fin 128) : iblk (F := Ideal) m c 4 t (ix2 0 k) = a5 m c (ix1 k) := by
  obtain ⟨-, -, -, -, -, -, -, -, e0, e1⟩ := idx_whole t
  have e : (V m c main_v1 : S1x128.Idx → EReal) = shapeCast S1x128 (a5 m c) shapeCasts_S128_S1x128 := by
    dsimp only [V, hostOps0]; after_results; rfl
  have hemb : ((cfg0.win 4).blk t).view.emb (ix2 0 k) = ix2 0 k := by
    funext a; apply Fin.ext
    match a with
    | ⟨0, _⟩ => show win0_4.index t (0 : Fin 2) * 1 + 1 * 0 = 0; omega
    | ⟨1, _⟩ => show win0_4.index t (1 : Fin 2) * 128 + 1 * k.val = k.val; omega
  show V m c main_v1 (((cfg0.win 4).blk t).view.emb (ix2 0 k)) = _
  rw [hemb, e]
  exact shapeCast_a_1a_apply _ _ 0 k

/-- Point j < 50 finds rows 200·j … 200·j + 199 of the adjacency. -/
theorem blk5 (j : ℕ) (h : j < 50) (p : Fin 200) (k : Fin 10000) :
    iblk (F := Ideal) m c 5 (pt j (by omega)) (ix2 p k) = a1 m c (ix2 ⟨200 * j + p.val, by omega⟩ k) := by
  have hj : j < 100 := by omega
  obtain ⟨e0, e1⟩ := idx_adj (pt j hj) h
  have e0' : win0_5.index (pt j hj) (0 : Fin 2) = j := e0
  show V m c main_arg1 (((cfg0.win 5).blk (pt j hj)).view.emb (ix2 p k)) = _
  rw [V_main_arg1]
  refine congrArg _ ?_
  funext a; apply Fin.ext
  match a with
  | ⟨0, _⟩ => show win0_5.index (pt j hj) (0 : Fin 2) * 200 + 1 * p.val = 200 * j + p.val; omega
  | ⟨1, _⟩ => show win0_5.index (pt j hj) (1 : Fin 2) * 10000 + 1 * k.val = k.val; omega

/-! ## The features and the aggregated rows -/

/-- What the first point leaves in the features buffer is T of the specification. -/
theorem Tk_at (r : Fin 10000) (k : Fin 128) : Tk (F := Ideal) m c (ix2 r k) = Tspec m c r k := by
  unfold Tk
  rw [blk0 m c, blk1 m c, blk2 m c]
  refine (pay1_at _ _ _ r k).trans ?_
  refine Finset.sum_congr rfl fun k' _ => ?_
  rw [pay9_at]
  refine congrArg (· * _) (congrArg Ideal.tanh (Finset.sum_congr rfl fun j _ => ?_))
  rw [pay8_at]
  rfl

/-- Row p of the product point j < 50 forms is row 200·j + p of Y. -/
theorem rows_at (j : ℕ) (h : j < 50) (p : Fin 200) (k : Fin 128) :
    k0_pay3 (F := Ideal) (iblk m c 5 (pt j (by omega))) (Tk m c) (ix2 p k) = Yspec m c ⟨200 * j + p.val, by omega⟩ k := by
  refine (pay3_at _ _ p k).trans ?_
  refine Finset.sum_congr rfl fun kk _ => ?_
  rw [blk5 m c j h p kk, Tk_at m c kk k]
  rfl

/-- So is row p of the block it stores. -/
theorem acc_at (j : ℕ) (h : j < 50) (p : Fin 200) (k : Fin 128) :
    acc (F := Ideal) m c j h (ix2 p k) = Yspec m c ⟨200 * j + p.val, by omega⟩ k := by
  unfold acc
  exact (pay4_at _ _ p k).trans (rows_at m c j h p k)

/-! ## The statistics rows -/

/-- The cleared statistics block is 0 everywhere. -/
theorem pay2_zero (i : S8x128.Idx) : k0_pay2 (F := Ideal) i = 0 := by
  rw [eq_ix2 i]; exact pay2_at _ _

/-- Column k of Y as a sequence (0 past the last row), and of its squares. -/
def Yn (k : Fin 128) (l : ℕ) : EReal := if h : l < 10000 then Yspec m c ⟨l, h⟩ k else 0
def Yn2 (k : Fin 128) (l : ℕ) : EReal := Yn m c k l * Yn m c k l

theorem Yn_at (k : Fin 128) (j : ℕ) (h : j < 50) (p : Fin 200) :
    Yspec m c ⟨200 * j + p.val, by omega⟩ k = Yn m c k (j * 200 + p.val) := by
  have hl : j * 200 + p.val < 10000 := by omega
  unfold Yn
  rw [dif_pos hl]
  exact congrArg (fun r => Yspec m c r k) (Fin.ext (by show 200 * j + p.val = j * 200 + p.val; omega))

/-- After row block j the first statistics row holds the column sums of Y over the rows below 200·(j+1). -/
theorem s0_at (k : Fin 128) : ∀ (j : ℕ) (h : j < 50),
    s0 (F := Ideal) m c j h (ix2 0 k) = ∑ l ∈ Finset.range ((j + 1) * 200), Yn m c k l
  | 0, h => by
    show k0_pay5 (F := Ideal) (iblk m c 5 (pt 0 (by omega))) (Tk m c) (View.ld (k0_pay2 (F := Ideal)) row0R) (ix2 0 k) = _
    refine (pay5_at _ _ _ k).trans ?_
    rw [LibPrefixSum.prefix_first]
    refine congr (congrArg _ (pay2_zero _)) (Finset.sum_congr rfl fun p _ => ?_)
    exact (rows_at m c 0 h p k).trans (Yn_at m c k 0 h p)
  | j + 1, h => by
    show k0_pay5 (F := Ideal) (iblk m c 5 (pt (j + 1) (by omega))) (Tk m c) (s0 m c j (by omega)) (ix2 0 k) = _
    refine (pay5_at _ _ _ k).trans ?_
    rw [LibPrefixSum.prefix_block, s0_at k j (by omega)]
    refine congrArg _ (Finset.sum_congr rfl fun p _ => ?_)
    exact (rows_at m c (j + 1) h p k).trans (Yn_at m c k (j + 1) h p)

/-- And the second the column sums of Y². -/
theorem s1_at (k : Fin 128) : ∀ (j : ℕ) (h : j < 50),
    s1 (F := Ideal) m c j h (ix2 0 k) = ∑ l ∈ Finset.range ((j + 1) * 200), Yn2 m c k l
  | 0, h => by
    show k0_pay6 (F := Ideal) (iblk m c 5 (pt 0 (by omega))) (Tk m c) (View.ld (k0_pay2 (F := Ideal)) row1R) (ix2 0 k) = _
    refine (pay6_at _ _ _ k).trans ?_
    rw [LibPrefixSum.prefix_first]
    refine congr (congrArg _ (pay2_zero _)) (Finset.sum_congr rfl fun p _ => ?_)
    unfold Yn2
    rw [rows_at m c 0 h p k, Yn_at m c k 0 h p]
  | j + 1, h => by
    show k0_pay6 (F := Ideal) (iblk m c 5 (pt (j + 1) (by omega))) (Tk m c) (s1 m c j (by omega)) (ix2 0 k) = _
    refine (pay6_at _ _ _ k).trans ?_
    rw [LibPrefixSum.prefix_block, s1_at k j (by omega)]
    refine congrArg _ (Finset.sum_congr rfl fun p _ => ?_)
    unfold Yn2
    rw [rows_at m c (j + 1) h p k, Yn_at m c k (j + 1) h p]

/-- After the fiftieth block: the full column sums. -/
theorem s0_final (k : Fin 128) : s0 (F := Ideal) m c 49 (by omega) (ix2 0 k) = Cert.Layer.colSum (Yspec m c) k := by
  rw [s0_at m c k 49 (by omega), LibPrefixSum.prefix_all]
  unfold Cert.Layer.colSum
  refine Finset.sum_congr rfl fun r _ => ?_
  unfold Yn
  rw [dif_pos r.isLt]

theorem s1_final (k : Fin 128) : s1 (F := Ideal) m c 49 (by omega) (ix2 0 k) = Cert.Layer.colSumSq (Yspec m c) k := by
  rw [s1_at m c k 49 (by omega), LibPrefixSum.prefix_all]
  unfold Cert.Layer.colSumSq
  refine Finset.sum_congr rfl fun r _ => ?_
  unfold Yn2 Yn
  rw [dif_pos r.isLt]

/-! ## The block a point of the second phase stores -/

/-- Point t ≥ 50 stores rows 200·(t − 50) … of the layer. -/
theorem outBlk_at (t : Fin cfg0.N) (h : 50 ≤ t.val) (p : Fin 200) (k : Fin 128) :
    outBlk (F := Ideal) m c t h (ix2 p k)
      = Cert.Layer.layer (Cert.Layer.mat (a0 m c)) (Cert.Layer.mat (a1 m c)) (Cert.Layer.mat (a2 m c))
          (Cert.Layer.mat (a3 m c)) (Cert.Layer.vec (a4 m c)) (Cert.Layer.vec (a5 m c))
          ⟨200 * (t.val - 50) + p.val, by
            have := lt_of_lt_of_eq t.isLt (show cfg0.N = 100 from N_0); omega⟩ k := by
  unfold outBlk
  refine (pay7_at _ _ _ _ _ p k).trans ?_
  rw [s0_final m c k, s1_final m c k, blk3 m c t k, blk4 m c t k, acc_at m c (t.val - 50) _ p k]
  rfl

end Cert.KernelValue

end
-- ==== Proof.KI.Final.lean ====
/-
  The kernel's result array. Each point of phase 1 writes its block of 200 rows of the result back; the fifty blocks tile
  the array, and block t − 50 holds rows 200·(t − 50) … of the layer of the launch contents. So after the run the result
  array is the layer, and the argument arrays are as launched.
-/
import proofs.«133474_g54228257079526_cont_9to1c4b_631_6_alg».proof.Proof.KI.Body
import proofs.«133474_g54228257079526_cont_9to1c4b_631_6_alg».proof.Proof.KI.Value
import Idealize.ShloMosaic.Lib.Pipeline.Value

set_option maxRecDepth 16384

noncomputable section

namespace Cert.KernelValue

open Idealize.ShloMosaic Idealize.ShloMosaic.TcCoe Idealize.ShloMosaic.ValueIdx
open Idealize.SL Idealize.SL.Sem
open Idealize.ShloMosaic.Pipeline (Dat Cfg Window)
open Cert.KernelIdeal Cert.KernelIdeal.Gen

variable (m : (ℓ : Loc nD τ sig) → Buf (Elt Ideal) ℓ) (ρ : Dev nD → PrngReg)

/-- The layer of the launch contents, as the result array. -/
def result (c : Dev nD) : Buf (Elt Ideal) ((c.tc : Thread nD τ).loc main_v2) :=
  Cert.Layer.arr (Cert.Layer.layer (Cert.Layer.mat (m ((c.tc : Thread nD τ).loc main_arg0))) (Cert.Layer.mat (m ((c.tc : Thread nD τ).loc main_arg1)))
    (Cert.Layer.mat (m ((c.tc : Thread nD τ).loc main_arg2))) (Cert.Layer.mat (m ((c.tc : Thread nD τ).loc main_arg3)))
    (Cert.Layer.vec (m ((c.tc : Thread nD τ).loc main_arg4))) (Cert.Layer.vec (m ((c.tc : Thread nD τ).loc main_arg5))))

/-- In phase 1 point t's block of the result is block t − 50: decided over the grid. -/
theorem idx6 : ∀ t : Fin cfg0.N, 50 ≤ t.val → win0_6.index t = ![t.val - 50, 0] :=
  (by decide +kernel : ∀ t : Fin grid0.N, 50 ≤ t.val → win0_6.index t = ![t.val - 50, 0])

/-- What a point of phase 1 writes back is its block of the layer. -/
theorem flushed6_eq (c : Dev nD) (t : Fin cfg0.N) (hf : (cfg0.win 6).flush t = true) :
    (dats m 0 c).flushed 6 t = ((cfg0.win 6).blk t).view.read (Elt Ideal) (result m c) := by
  have h50 : 50 ≤ t.val := (flush0_6 t).mp hf
  have hN : t.val < 100 := lt_of_lt_of_eq t.isLt (show cfg0.N = 100 from N_0)
  show (cfg0.win 6).cut (grid0.coords t) ((dats m 0 c).after 6 t) = _
  rw [after0_6 m c t h50]
  funext j
  obtain ⟨p, k, rfl⟩ : ∃ (p : Fin 200) (k : Fin 128), j = ix2 p k := ⟨j 0, j 1, eq_ix2 j⟩
  show outBlk m c t h50 (ix2 p k) = result m c (((cfg0.win 6).blk t).view.emb (ix2 p k))
  rw [outBlk_at m c t h50 p k]
  unfold result Cert.Layer.arr
  have e0 : (((cfg0.win 6).blk t).view.emb (ix2 p k)) (0 : Fin 2) = (⟨200 * (t.val - 50) + p.val, by omega⟩ : Fin 10000) := by
    apply Fin.ext
    show win0_6.index t (0 : Fin 2) * 200 + 1 * p.val = 200 * (t.val - 50) + p.val
    rw [idx6 t h50]; show (t.val - 50) * 200 + 1 * p.val = _; omega
  have e1 : (((cfg0.win 6).blk t).view.emb (ix2 p k)) (1 : Fin 2) = k := by
    apply Fin.ext
    show win0_6.index t (1 : Fin 2) * 128 + 1 * k.val = k.val
    rw [idx6 t h50]; show 0 * 128 + 1 * k.val = _; omega
  rw [e0, e1]

/-- An index of the result array is in point t's block iff its coordinates are in the block's ranges. -/
theorem mem_blk6 (t : Fin cfg0.N) (i : S10000x128.Idx) :
    i ∈ ((cfg0.win 6).blk t).view.set ↔ ∀ a : Fin 2, win0_6.index t a * S200x128.size a ≤ (i a).val ∧ (i a).val < win0_6.index t a * S200x128.size a + S200x128.size a := by
  show i ∈ ((View.whole main_v2).slice (win0_6.rect t)).set ↔ _
  rw [View.set_slice_whole, Rect.mem_set_unit]
  exact Iff.rfl

/-- Every row of the result lies in the block of the point of phase 1 that normalises its row block. -/
theorem cover6 (i : S10000x128.Idx) : ∃ t : Fin cfg0.N, (cfg0.win 6).flush t = true ∧ i ∈ ((cfg0.win 6).blk t).view.set := by
  have hi0 : (i 0).val < 10000 := (i 0).isLt
  have hi1 : (i 1).val < 128 := (i 1).isLt
  refine ⟨pt (50 + (i 0).val / 200) (by omega), (flush0_6 _).mpr (by show 50 ≤ 50 + (i 0).val / 200; omega), ?_⟩
  rw [mem_blk6]
  have hx := idx6 (pt (50 + (i 0).val / 200) (by omega)) (by show 50 ≤ 50 + (i 0).val / 200; omega)
  intro a
  match a with
  | ⟨0, _⟩ =>
    show win0_6.index _ (0 : Fin 2) * 200 ≤ (i 0).val ∧ (i 0).val < win0_6.index _ (0 : Fin 2) * 200 + 200
    rw [hx]; show (50 + (i 0).val / 200 - 50) * 200 ≤ (i 0).val ∧ (i 0).val < (50 + (i 0).val / 200 - 50) * 200 + 200
    omega
  | ⟨1, _⟩ =>
    show win0_6.index _ (1 : Fin 2) * 128 ≤ (i 1).val ∧ (i 1).val < win0_6.index _ (1 : Fin 2) * 128 + 128
    rw [hx]; show 0 * 128 ≤ (i 1).val ∧ (i 1).val < 0 * 128 + 128
    omega

/-- The result array after the run is the layer of the launch contents. -/
theorem final6 (c : Dev nD) : (dats m 0 c).arrAt 6 cfg0.N = result m c :=
  (dats m 0 c).arrAt_eq_of_cover 6 (result m c) (fun t hf => flushed6_eq m c t hf) (cover6)

/-- The kernel runs, ends with the result array at the layer of its launch contents, and leaves its arguments unchanged. -/
theorem run : θ_run defs (onTc (τ := τ) (main (F := Ideal))) ⟨m, fun _ => 0, ρ⟩ (fun r => ∀ c : Dev nD,
      r.2.mem ((c.tc : Thread nD τ).loc main_v2) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final6 m c),
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).2 main_arg4 (Pipeline.mem_restRefs_of main_arg4 (by decide) (by decide))).trans (V_main_arg4 m c),
      ((h c).2 main_arg5 (Pipeline.mem_restRefs_of main_arg5 (by decide) (by decide))).trans (V_main_arg5 m c)⟩)
    (run_main m ρ)

end Cert.KernelValue

end
-- ==== Proof.LibStraightLine.lean ====
/-
  A straight line of operations in single-assignment form, read one operation at a time.

  A line of operations rewrites a valuation of the buffers, operation by operation. When every buffer is written by at most
  one operation of the line, and an operation's operands are written before it, the valuation after the WHOLE line already
  satisfies each operation's equation: the buffer the k-th operation writes holds that operation's function of what its
  operand buffers hold — all read after the whole line, because nothing later touches either. So the value of the last
  buffer follows from the operations' equations one by one, sharing every intermediate buffer, and the composed term of the
  whole line is never formed.

  The buffers the operations write are listed once, in order (`WritesAre`); "no operation from position k on writes r" is
  then the absence of r from the list's tail, a question about references alone.
  General: nothing here depends on a particular program.
-/
import Idealize.ShloMosaic.Lib.StableHlo.Run

namespace Cert.LibStraightLine

open Idealize.ShloMosaic Idealize.ShloMosaic.StableHlo

variable {τ : Topo} {sig : RefSig} {Val : EltTy → Type}

/-- Two lines one after the other. -/
theorem after_append (l₁ l₂ : List (HloOp τ sig Val)) (V : Valuation τ sig Val) :
    after (l₁ ++ l₂) V = after l₂ (after l₁ V) := by
  induction l₁ generalizing V with
  | nil => rfl
  | cons op l ih => rw [List.cons_append, after_cons, after_cons, ih]

/-- A buffer that no operation from position k on writes holds, after the line, what it held after the first k operations. -/
theorem after_eq_take (ops : List (HloOp τ sig Val)) (V : Valuation τ sig Val) (k : Nat) (b : DevRef τ sig)
    (h : ∀ op ∈ ops.drop k, b ∉ op.writes) : after ops V b = after (ops.take k) V b := by
  conv_lhs => rw [← List.take_append_drop k ops]
  rw [after_append, after_of_forall_not_mem _ _ h]

/-- A buffer that no operation past position k writes holds, after the line, what operation k left in it. -/
theorem after_eq_result (ops : List (HloOp τ sig Val)) (V : Valuation τ sig Val) (k : Nat) (hk : k < ops.length)
    (b : DevRef τ sig) (h : ∀ op ∈ ops.drop (k + 1), b ∉ op.writes) :
    after ops V b = (ops[k]).result (after (ops.take k) V) b := by
  rw [after_eq_take ops V (k + 1) b h, List.take_succ_eq_append_getElem hk, after_append, after_cons, after_nil]

/-- The buffers the operations write are, in order, the references W: each operation writes exactly one. -/
def WritesAre (ops : List (HloOp τ sig Val)) (W : List (Ref sig .tc)) : Prop :=
  ops.map (fun op => op.writes) = W.map fun r => ({(Proc.devRef .tc r : DevRef τ sig)} : Finset (DevRef τ sig))

/-- A reference absent from the list's tail is written by no operation from that position on. -/
theorem not_written {ops : List (HloOp τ sig Val)} {W : List (Ref sig .tc)} (hW : WritesAre ops W) (k : Nat)
    {y : Ref sig .tc} (hy : y ∉ W.drop k) : ∀ op ∈ ops.drop k, (Proc.devRef .tc y : DevRef τ sig) ∉ op.writes := by
  intro op hop hmem
  have h1 : op.writes ∈ (ops.drop k).map (fun op => op.writes) := List.mem_map.mpr ⟨op, hop, rfl⟩
  unfold WritesAre at hW
  rw [List.map_drop, hW, ← List.map_drop] at h1
  obtain ⟨r, hr, he⟩ := List.mem_map.mp h1
  rw [← he, Finset.mem_singleton] at hmem
  exact hy (Proc.devRef_injective _ hmem ▸ hr)

variable {ops : List (HloOp τ sig Val)} {V : Valuation τ sig Val}

/-- Operation k defines its result buffer. -/
theorem nullary_at (k : Nat) (hk : k < ops.length) {y : Ref sig .tc} {v : y.ty.Contents Val} {hy}
    (hop : ops[k] = nullary y v hy)
    (hy' : ∀ op ∈ ops.drop (k + 1), (Proc.devRef .tc y : DevRef τ sig) ∉ op.writes) :
    after ops V (Proc.devRef .tc y) = v := by
  rw [after_eq_result ops V k hk _ hy', hop, nullary_result]

/-- Operation k applies its function to its operand buffer as the whole line leaves it. -/
theorem unary_at (k : Nat) (hk : k < ops.length) {x y : Ref sig .tc} {f : x.ty.Contents Val → y.ty.Contents Val} {hx hy}
    (hop : ops[k] = unary x y f hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  rw [after_eq_result ops V k hk _ hy', hop, unary_result, ← after_eq_take ops V k _ hx']

theorem binary_at (k : Nat) (hk : k < ops.length) {a b y : Ref sig .tc}
    {f : a.ty.Contents Val → b.ty.Contents Val → y.ty.Contents Val} {ha hb hy}
    (hop : ops[k] = binary a b y f ha hb hy)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  rw [after_eq_result ops V k hk _ hy', hop, binary_result, ← after_eq_take ops V k _ ha', ← after_eq_take ops V k _ hb']

theorem ternary_at (k : Nat) (hk : k < ops.length) {c a b y : Ref sig .tc}
    {f : c.ty.Contents Val → a.ty.Contents Val → b.ty.Contents Val → y.ty.Contents Val} {hc ha hb hy}
    (hop : ops[k] = ternary c a b y f hc ha hb hy)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  rw [after_eq_result ops V k hk _ hy', hop, ternary_result, ← after_eq_take ops V k _ hc', ← after_eq_take ops V k _ ha',
    ← after_eq_take ops V k _ hb']

theorem reshape_at (k : Nat) (hk : k < ops.length) {x y : Ref sig .tc} {he : x.ty.elt = y.ty.elt}
    {hn : x.ty.shape.ShapeCasts y.ty.shape} {hx hy}
    (hop : ops[k] = reshape x y he hn hx hy)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = fun i => he ▸ shapeCast y.ty.shape (after ops V (Proc.devRef .tc x)) hn i := by
  rw [after_eq_result ops V k hk _ hy', hop, reshape_result, ← after_eq_take ops V k _ hx']

/-- A buffer no operation writes holds its launch contents. -/
theorem untouched_at {W : List (Ref sig .tc)} (hW : WritesAre ops W) {r : Ref sig .tc} (hr : r ∉ W) :
    after ops V (Proc.devRef .tc r) = V (Proc.devRef .tc r) :=
  after_of_forall_not_mem ops V (by simpa using not_written hW 0 (by simpa using hr))

end Cert.LibStraightLine
-- ==== Proof.RefOps.lean ====
/-
  The reference program's run, read back.

  The reference is a straight line of array operations: the two Hamilton matrices assembled from slices of the
  weights (negated where the quaternion product asks) by concatenation, three matrix products with a tanh between
  the first two, the column mean, the column variance (computed by a helper that subtracts the mean, squares,
  sums and divides by 10000 − 0, and that would answer NaN only if that count were not positive), and the
  normalisation ((y − mean) / sqrt(var + ε)) · γ + β. Each operation writes a buffer of its own, so after the
  whole line every buffer holds its operation's function of its operand buffers, and the result buffer holds the
  composition of all of them applied to the six argument arrays, which are left as they were.
-/
import proofs.«133474_g54228257079526_cont_9to1c4b_631_6_alg».proof.Proof.Gen.ReferenceIdeal
import Idealize.ShloMosaic.Lib.StableHlo.Run
import proofs.«133474_g54228257079526_cont_9to1c4b_631_6_alg».proof.Proof.LibStraightLine

noncomputable section

namespace Cert.RefHand

open Cert.ReferenceIdeal Cert.ReferenceIdeal.Gen Idealize.ShloMosaic Idealize.ShloMosaic.TcCoe Idealize.SL.Sem Idealize.ShloMosaic.StableHlo Cert.LibStraightLine

variable {F : FTy → Type} [FloatOps F]

/-- The reference's operations in order, the two helper functions' bodies written out where they are called. -/
abbrev ops : List (HloOp τ sig (Elt F)) :=
  [ unary main_arg2 main_v0 ((extractStridedSlice S32x32 ![0, 0] · slices_S32x128_S32x32_0_0) : (⟨S32x128, .f32⟩ : BufTy).Contents (Elt F) → (⟨S32x32, .f32⟩ : BufTy).Contents (Elt F)),
    unary main_arg2 main_v1 ((extractStridedSlice S32x32 ![0, 32] · slices_S32x128_S32x32_0_32) : (⟨S32x128, .f32⟩ : BufTy).Contents (Elt F) → (⟨S32x32, .f32⟩ : BufTy).Contents (Elt F)),
    unary main_arg2 main_v2 ((extractStridedSlice S32x32 ![0, 64] · slices_S32x128_S32x32_0_64) : (⟨S32x128, .f32⟩ : BufTy).Contents (Elt F) → (⟨S32x32, .f32⟩ : BufTy).Contents (Elt F)),
    unary main_arg2 main_v3 ((extractStridedSlice S32x32 ![0, 96] · slices_S32x128_S32x32_0_96) : (⟨S32x128, .f32⟩ : BufTy).Contents (Elt F) → (⟨S32x32, .f32⟩ : BufTy).Contents (Elt F)),
    unary main_v1 main_v4 (Host.negf : (⟨S32x32, .f32⟩ : BufTy).Contents (Elt F) → (⟨S32x32, .f32⟩ : BufTy).Contents (Elt F)),
    unary main_v2 main_v5 (Host.negf : (⟨S32x32, .f32⟩ : BufTy).Contents (Elt F) → (⟨S32x32, .f32⟩ : BufTy).Contents (Elt F)),
    unary main_v3 main_v6 (Host.negf : (⟨S32x32, .f32⟩ : BufTy).Contents (Elt F) → (⟨S32x32, .f32⟩ : BufTy).Contents (Elt F)),
    nary ![main_v0, main_v4, main_v5, main_v6] main_v7 (fun u => concatenate S128x32 0 [⟨S32x32, u 0⟩, ⟨S32x32, u 1⟩, ⟨S32x32, u 2⟩, ⟨S32x32, u 3⟩] concatenates_S32x32_S32x32_S32x32_S32x32_S128x32_d0),
    unary main_v3 main_v8 (Host.negf : (⟨S32x32, .f32⟩ : BufTy).Contents (Elt F) → (⟨S32x32, .f32⟩ : BufTy).Contents (Elt F)),
    nary ![main_v1, main_v0, main_v8, main_v2] main_v9 (fun u => concatenate S128x32 0 [⟨S32x32, u 0⟩, ⟨S32x32, u 1⟩, ⟨S32x32, u 2⟩, ⟨S32x32, u 3⟩] concatenates_S32x32_S32x32_S32x32_S32x32_S128x32_d0),
    unary main_v1 main_v10 (Host.negf : (⟨S32x32, .f32⟩ : BufTy).Contents (Elt F) → (⟨S32x32, .f32⟩ : BufTy).Contents (Elt F)),
    nary ![main_v2, main_v3, main_v0, main_v10] main_v11 (fun u => concatenate S128x32 0 [⟨S32x32, u 0⟩, ⟨S32x32, u 1⟩, ⟨S32x32, u 2⟩, ⟨S32x32, u 3⟩] concatenates_S32x32_S32x32_S32x32_S32x32_S128x32_d0),
    unary main_v2 main_v12 (Host.negf : (⟨S32x32, .f32⟩ : BufTy).Contents (Elt F) → (⟨S32x32, .f32⟩ : BufTy).Contents (Elt F)),
    nary ![main_v3, main_v12, main_v1, main_v0] main_v13 (fun u => concatenate S128x32 0 [⟨S32x32, u 0⟩, ⟨S32x32, u 1⟩, ⟨S32x32, u 2⟩, ⟨S32x32, u 3⟩] concatenates_S32x32_S32x32_S32x32_S32x32_S128x32_d0),
    nary ![main_v7, main_v9, main_v11, main_v13] main_v14 (fun u => concatenate S128x128 1 [⟨S128x32, u 0⟩, ⟨S128x32, u 1⟩, ⟨S128x32, u 2⟩, ⟨S128x32, u 3⟩] concatenates_S128x32_S128x32_S128x32_S128x32_S128x128_d1),
    unary main_arg3 main_v15 ((extractStridedSlice S32x32 ![0, 0] · slices_S32x128_S32x32_0_0) : (⟨S32x128, .f32⟩ : BufTy).Contents (Elt F) → (⟨S32x32, .f32⟩ : BufTy).Contents (Elt F)),
    unary main_arg3 main_v16 ((extractStridedSlice S32x32 ![0, 32] · slices_S32x128_S32x32_0_32) : (⟨S32x128, .f32⟩ : BufTy).Contents (Elt F) → (⟨S32x32, .f32⟩ : BufTy).Contents (Elt F)),
    unary main_arg3 main_v17 ((extractStridedSlice S32x32 ![0, 64] · slices_S32x128_S32x32_0_64) : (⟨S32x128, .f32⟩ : BufTy).Contents (Elt F) → (⟨S32x32, .f32⟩ : BufTy).Contents (Elt F)),
    unary main_arg3 main_v18 ((extractStridedSlice S32x32 ![0, 96] · slices_S32x128_S32x32_0_96) : (⟨S32x128, .f32⟩ : BufTy).Contents (Elt F) → (⟨S32x32, .f32⟩ : BufTy).Contents (Elt F)),
    unary main_v16 main_v19 (Host.negf : (⟨S32x32, .f32⟩ : BufTy).Contents (Elt F) → (⟨S32x32, .f32⟩ : BufTy).Contents (Elt F)),
    unary main_v17 main_v20 (Host.negf : (⟨S32x32, .f32⟩ : BufTy).Contents (Elt F) → (⟨S32x32, .f32⟩ : BufTy).Contents (Elt F)),
    unary main_v18 main_v21 (Host.negf : (⟨S32x32, .f32⟩ : BufTy).Contents (Elt F) → (⟨S32x32, .f32⟩ : BufTy).Contents (Elt F)),
    nary ![main_v15, main_v19, main_v20, main_v21] main_v22 (fun u => concatenate S128x32 0 [⟨S32x32, u 0⟩, ⟨S32x32, u 1⟩, ⟨S32x32, u 2⟩, ⟨S32x32, u 3⟩] concatenates_S32x32_S32x32_S32x32_S32x32_S128x32_d0),
    unary main_v18 main_v23 (Host.negf : (⟨S32x32, .f32⟩ : BufTy).Contents (Elt F) → (⟨S32x32, .f32⟩ : BufTy).Contents (Elt F)),
    nary ![main_v16, main_v15, main_v23, main_v17] main_v24 (fun u => concatenate S128x32 0 [⟨S32x32, u 0⟩, ⟨S32x32, u 1⟩, ⟨S32x32, u 2⟩, ⟨S32x32, u 3⟩] concatenates_S32x32_S32x32_S32x32_S32x32_S128x32_d0),
    unary main_v16 main_v25 (Host.negf : (⟨S32x32, .f32⟩ : BufTy).Contents (Elt F) → (⟨S32x32, .f32⟩ : BufTy).Contents (Elt F)),
    nary ![main_v17, main_v18, main_v15, main_v25] main_v26 (fun u => concatenate S128x32 0 [⟨S32x32, u 0⟩, ⟨S32x32, u 1⟩, ⟨S32x32, u 2⟩, ⟨S32x32, u 3⟩] concatenates_S32x32_S32x32_S32x32_S32x32_S128x32_d0),
    unary main_v17 main_v27 (Host.negf : (⟨S32x32, .f32⟩ : BufTy).Contents (Elt F) → (⟨S32x32, .f32⟩ : BufTy).Contents (Elt F)),
    nary ![main_v18, main_v27, main_v16, main_v15] main_v28 (fun u => concatenate S128x32 0 [⟨S32x32, u 0⟩, ⟨S32x32, u 1⟩, ⟨S32x32, u 2⟩, ⟨S32x32, u 3⟩] concatenates_S32x32_S32x32_S32x32_S32x32_S128x32_d0),
    nary ![main_v22, main_v24, main_v26, main_v28] main_v29 (fun u => concatenate S128x128 1 [⟨S128x32, u 0⟩, ⟨S128x32, u 1⟩, ⟨S128x32, u 2⟩, ⟨S128x32, u 3⟩] concatenates_S128x32_S128x32_S128x32_S128x32_S128x128_d1),
    binary main_arg0 main_v14 main_v30 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_v30 main_v31 (Host.tanh : (⟨S10000x128, .f32⟩ : BufTy).Contents (Elt F) → (⟨S10000x128, .f32⟩ : BufTy).Contents (Elt F)),
    binary main_v31 main_v29 main_v32 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    binary main_arg1 main_v32 main_v33 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    nullary main_cst (constant S_ .f32 0x00000000#32),
    binary main_v33 main_cst main_v34 ((fun x v => Host.reduceAdd x v reducesTo_S10000x128_S128_d0 h_S_) : (⟨S10000x128, .f32⟩ : BufTy).Contents (Elt F) → (⟨S_, .f32⟩ : BufTy).Contents (Elt F) → (⟨S128, .f32⟩ : BufTy).Contents (Elt F)),
    nullary main_cst_0 (constant S_ .f32 0x461C4000#32),
    unary main_cst_0 main_v35 (broadcastInDim S128 ![] bcast_S_S128 : (⟨S_, .f32⟩ : BufTy).Contents (Elt F) → (⟨S128, .f32⟩ : BufTy).Contents (Elt F)),
    binary main_v34 main_v35 main_v36 (Host.divf : (⟨S128, .f32⟩ : BufTy).Contents (Elt F) → (⟨S128, .f32⟩ : BufTy).Contents (Elt F) → (⟨S128, .f32⟩ : BufTy).Contents (Elt F)),
    nullary main_c (constantI S_ 32 0#32),
    TRef.nullary main_call0.cst (constant S_ .f32 0x00000000#32),
    TRef.binary (.of main_v33) main_call0.cst main_call0.v0 (fun x v => Host.reduceAdd x v reducesTo_S10000x128_S128_d0 h_S_),
    TRef.unary main_call0.v0 main_call0.v1 (broadcastInDim S1x128 ![1] bcast_S128_S1x128_1),
    TRef.nullary main_call0.cst_0 (constant S_ .f32 0x461C4000#32),
    TRef.unary main_call0.cst_0 main_call0.v2 (broadcastInDim S1x128 ![] bcast_S_S1x128),
    TRef.binary main_call0.v1 main_call0.v2 main_call0.v3 Host.divf,
    TRef.unary main_call0.v3 main_call0.v4 (broadcastInDim S10000x128 ![0, 1] bcast_S1x128_S10000x128_0_1),
    TRef.binary (.of main_v33) main_call0.v4 main_call0.v5 subf,
    TRef.binary main_call0.v5 main_call0.v5 main_call0.v6 mulf,
    TRef.unary (.of main_c) main_call0.v7 (sitofp .f32),
    TRef.nullary main_call0.cst_1 (constant S_ .f32 0x461C4000#32),
    TRef.binary main_call0.cst_1 main_call0.v7 main_call0.v8 subf,
    TRef.nullary main_call0.cst_2 (constant S_ .f32 0x00000000#32),
    TRef.binary main_call0.v6 main_call0.cst_2 main_call0.v9 (fun x v => Host.reduceAdd x v reducesTo_S10000x128_S128_d0 h_S_),
    TRef.unary main_call0.v8 main_call0.v10 (broadcastInDim S128 ![] bcast_S_S128),
    TRef.binary main_call0.v9 main_call0.v10 main_call0.v11 Host.divf,
    TRef.nullary main_call0.cst_3 (constant S_ .f32 0x00000000#32),
    TRef.binary main_call0.v8 main_call0.cst_3 main_call0.v12 (cmpf .ogt),
    TRef.nullary main_call0.cst_4 (constant S_ .f32 0x7FC00000#32),
    TRef.unary main_call0.cst_4 main_call0.call0.v0 id,
    TRef.unary main_call0.call0.v0 main_call0.call0.v1 (broadcastInDim S128 ![] bcast_S_S128),
    TRef.ternary main_call0.v12 main_call0.v11 main_call0.call0.v1 main_call0.call0.v2 (fun p a b => select (broadcastInDim S128 ![] bcast_S_S128 p) a b),
    unary main_v36 main_v38 (broadcastInDim S1x128 ![1] bcast_S128_S1x128_1 : (⟨S128, .f32⟩ : BufTy).Contents (Elt F) → (⟨S1x128, .f32⟩ : BufTy).Contents (Elt F)),
    unary main_v38 main_v39 (broadcastInDim S10000x128 ![0, 1] bcast_S1x128_S10000x128_0_1 : (⟨S1x128, .f32⟩ : BufTy).Contents (Elt F) → (⟨S10000x128, .f32⟩ : BufTy).Contents (Elt F)),
    binary main_v33 main_v39 main_v40 (subf : (⟨S10000x128, .f32⟩ : BufTy).Contents (Elt F) → (⟨S10000x128, .f32⟩ : BufTy).Contents (Elt F) → (⟨S10000x128, .f32⟩ : BufTy).Contents (Elt F)),
    nullary main_cst_1 (constant S_ .f32 0x3727C5AC#32),
    unary main_cst_1 main_v41 (broadcastInDim S128 ![] bcast_S_S128 : (⟨S_, .f32⟩ : BufTy).Contents (Elt F) → (⟨S128, .f32⟩ : BufTy).Contents (Elt F)),
    binary main_v37 main_v41 main_v42 (addf : (⟨S128, .f32⟩ : BufTy).Contents (Elt F) → (⟨S128, .f32⟩ : BufTy).Contents (Elt F) → (⟨S128, .f32⟩ : BufTy).Contents (Elt F)),
    unary main_v42 main_v43 (Host.sqrt : (⟨S128, .f32⟩ : BufTy).Contents (Elt F) → (⟨S128, .f32⟩ : BufTy).Contents (Elt F)),
    unary main_v43 main_v44 (broadcastInDim S1x128 ![1] bcast_S128_S1x128_1 : (⟨S128, .f32⟩ : BufTy).Contents (Elt F) → (⟨S1x128, .f32⟩ : BufTy).Contents (Elt F)),
    unary main_v44 main_v45 (broadcastInDim S10000x128 ![0, 1] bcast_S1x128_S10000x128_0_1 : (⟨S1x128, .f32⟩ : BufTy).Contents (Elt F) → (⟨S10000x128, .f32⟩ : BufTy).Contents (Elt F)),
    binary main_v40 main_v45 main_v46 (Host.divf : (⟨S10000x128, .f32⟩ : BufTy).Contents (Elt F) → (⟨S10000x128, .f32⟩ : BufTy).Contents (Elt F) → (⟨S10000x128, .f32⟩ : BufTy).Contents (Elt F)),
    unary main_arg4 main_v47 (broadcastInDim S1x128 ![1] bcast_S128_S1x128_1 : (⟨S128, .f32⟩ : BufTy).Contents (Elt F) → (⟨S1x128, .f32⟩ : BufTy).Contents (Elt F)),
    unary main_v47 main_v48 (broadcastInDim S10000x128 ![0, 1] bcast_S1x128_S10000x128_0_1 : (⟨S1x128, .f32⟩ : BufTy).Contents (Elt F) → (⟨S10000x128, .f32⟩ : BufTy).Contents (Elt F)),
    binary main_v46 main_v48 main_v49 (mulf : (⟨S10000x128, .f32⟩ : BufTy).Contents (Elt F) → (⟨S10000x128, .f32⟩ : BufTy).Contents (Elt F) → (⟨S10000x128, .f32⟩ : BufTy).Contents (Elt F)),
    unary main_arg5 main_v50 (broadcastInDim S1x128 ![1] bcast_S128_S1x128_1 : (⟨S128, .f32⟩ : BufTy).Contents (Elt F) → (⟨S1x128, .f32⟩ : BufTy).Contents (Elt F)),
    unary main_v50 main_v51 (broadcastInDim S10000x128 ![0, 1] bcast_S1x128_S10000x128_0_1 : (⟨S1x128, .f32⟩ : BufTy).Contents (Elt F) → (⟨S10000x128, .f32⟩ : BufTy).Contents (Elt F)),
    binary main_v49 main_v51 main_v52 (addf : (⟨S10000x128, .f32⟩ : BufTy).Contents (Elt F) → (⟨S10000x128, .f32⟩ : BufTy).Contents (Elt F) → (⟨S10000x128, .f32⟩ : BufTy).Contents (Elt F)) ]

set_option maxRecDepth 2048 in
/-- The program is that straight line: the helpers' bodies unfold at their calls, and sequencing re-associates. -/
theorem main_eq (c : Dev nD) : main (F := F) c = seq ops := by
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., nary_bufs_sub .., unary_bufs_sub .., nary_bufs_sub .., unary_bufs_sub .., nary_bufs_sub .., unary_bufs_sub .., nary_bufs_sub .., nary_bufs_sub .., unary_bufs_sub .., unary_bufs_sub .., unary_bufs_sub .., unary_bufs_sub .., unary_bufs_sub .., unary_bufs_sub .., unary_bufs_sub .., nary_bufs_sub .., unary_bufs_sub .., nary_bufs_sub .., unary_bufs_sub .., nary_bufs_sub .., unary_bufs_sub .., nary_bufs_sub .., nary_bufs_sub .., binary_bufs_sub .., unary_bufs_sub .., binary_bufs_sub .., binary_bufs_sub .., nullary_bufs_sub .., binary_bufs_sub .., nullary_bufs_sub .., unary_bufs_sub .., binary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., unary_bufs_sub .., binary_bufs_sub .., nullary_bufs_sub .., binary_bufs_sub .., nullary_bufs_sub .., unary_bufs_sub .., unary_bufs_sub .., ternary_bufs_sub .., unary_bufs_sub .., unary_bufs_sub .., binary_bufs_sub .., nullary_bufs_sub .., unary_bufs_sub .., binary_bufs_sub .., unary_bufs_sub .., unary_bufs_sub .., unary_bufs_sub .., binary_bufs_sub .., unary_bufs_sub .., unary_bufs_sub .., binary_bufs_sub .., unary_bufs_sub .., unary_bufs_sub .., binary_bufs_sub ..⟩

/-- An array of 32-bit floats of a given shape. -/
abbrev Arr (F : FTy → Type) (S : Shape) : Type := (⟨S, .f32⟩ : BufTy).Contents (Elt F)

/-- Four 32×32 blocks stacked into a 128×32 column of blocks. -/
def stack4 (p q r s : Arr F S32x32) : Arr F S128x32 :=
  concatenate S128x32 0 [⟨S32x32, p⟩, ⟨S32x32, q⟩, ⟨S32x32, r⟩, ⟨S32x32, s⟩] concatenates_S32x32_S32x32_S32x32_S32x32_S128x32_d0

/-- Four 128×32 columns of blocks side by side. -/
def beside4 (p q r s : Arr F S128x32) : Arr F S128x128 :=
  concatenate S128x128 1 [⟨S128x32, p⟩, ⟨S128x32, q⟩, ⟨S128x32, r⟩, ⟨S128x32, s⟩] concatenates_S128x32_S128x32_S128x32_S128x32_S128x128_d1

/-- The four 32×32 blocks r, i, j, k of a quaternion weight. -/
def blkR (w : Arr F S32x128) : Arr F S32x32 := extractStridedSlice S32x32 ![0, 0] w slices_S32x128_S32x32_0_0
def blkI (w : Arr F S32x128) : Arr F S32x32 := extractStridedSlice S32x32 ![0, 32] w slices_S32x128_S32x32_0_32
def blkJ (w : Arr F S32x128) : Arr F S32x32 := extractStridedSlice S32x32 ![0, 64] w slices_S32x128_S32x32_0_64
def blkK (w : Arr F S32x128) : Arr F S32x32 := extractStridedSlice S32x32 ![0, 96] w slices_S32x128_S32x32_0_96

/-- The Hamilton matrix as the reference assembles it: the columns of blocks (r, −i, −j, −k), (i, r, −k, j),
    (j, k, r, −i), (k, −j, i, r), side by side. -/
def hamHost (w : Arr F S32x128) : Arr F S128x128 :=
  beside4 (stack4 (blkR w) (Host.negf (blkI w)) (Host.negf (blkJ w)) (Host.negf (blkK w)))
    (stack4 (blkI w) (blkR w) (Host.negf (blkK w)) (blkJ w))
    (stack4 (blkJ w) (blkK w) (blkR w) (Host.negf (blkI w)))
    (stack4 (blkK w) (Host.negf (blkJ w)) (blkI w) (blkR w))

/-- x · H: a product of a 10000×128 array with a 128×128 matrix. -/
def mulH (x : Arr F S10000x128) (h : Arr F S128x128) : Arr F S10000x128 :=
  Host.dotGeneral dot_S10000x128_S128x128_S10000x128_1_0_0_1_n_n none x h

/-- adj · t. -/
def mulAdj (adj : Arr F S10000x10000) (t : Arr F S10000x128) : Arr F S10000x128 :=
  Host.dotGeneral dot_S10000x10000_S10000x128_S10000x128_1_0_0_1_n_n none adj t

/-- The array that is normalised: adj · (tanh(x · H(w1)) · H(w2)). -/
def yOf (x : Arr F S10000x128) (adj : Arr F S10000x10000) (w1 w2 : Arr F S32x128) : Arr F S10000x128 :=
  mulAdj adj (mulH (Host.tanh (mulH x (hamHost w1))) (hamHost w2))

/-- The sum over the rows, from the initial value 0. -/
def sumRows (y : Arr F S10000x128) : Arr F S128 :=
  Host.reduceAdd y (constant S_ .f32 0x00000000#32) reducesTo_S10000x128_S128_d0 h_S_

/-- A scalar repeated along a vector, and along a one-row array. -/
def fill128 (v : Arr F S_) : Arr F S128 := broadcastInDim S128 ![] bcast_S_S128 v
def fill1x128 (v : Arr F S_) : Arr F S1x128 := broadcastInDim S1x128 ![] bcast_S_S1x128 v

/-- A vector laid out as one row, and one row repeated down the 10000 rows. -/
def asRow (v : Arr F S128) : Arr F S1x128 := broadcastInDim S1x128 ![1] bcast_S128_S1x128_1 v
def downRows (v : Arr F S1x128) : Arr F S10000x128 := broadcastInDim S10000x128 ![0, 1] bcast_S1x128_S10000x128_0_1 v

/-- The column mean: the sum over the rows divided by 10000. -/
def meanOf (y : Arr F S10000x128) : Arr F S128 :=
  Host.divf (sumRows y) (fill128 (constant S_ .f32 0x461C4000#32))

/-- The count the variance divides by: 10000 minus the correction 0 (an integer, converted). -/
def countOf : Arr F S_ := subf (constant S_ .f32 0x461C4000#32) (sitofp .f32 (constantI S_ 32 0#32))

/-- The deviations from the mean, the mean computed once more inside the variance helper as a one-row array. -/
def devOf (y : Arr F S10000x128) : Arr F S10000x128 :=
  subf y (downRows (Host.divf (asRow (sumRows y)) (fill1x128 (constant S_ .f32 0x461C4000#32))))

/-- The column variance: the sum of squared deviations over the count, chosen over NaN where the count is positive. -/
def varOf (y : Arr F S10000x128) : Arr F S128 :=
  select (broadcastInDim S128 ![] bcast_S_S128 (cmpf .ogt (countOf (F := F)) (constant S_ .f32 0x00000000#32)))
    (Host.divf (Host.reduceAdd (mulf (devOf y) (devOf y)) (constant S_ .f32 0x00000000#32) reducesTo_S10000x128_S128_d0 h_S_)
      (fill128 countOf))
    (fill128 (id (constant S_ .f32 0x7FC00000#32)))

/-- The reference's result as one function of its six argument arrays:
    ((y − mean) / sqrt(var + ε)) · γ + β, the vectors repeated down the rows. -/
def refTerm (x : Arr F S10000x128) (adj : Arr F S10000x10000) (w1 w2 : Arr F S32x128) (g b : Arr F S128) : Arr F S10000x128 :=
  addf (mulf (Host.divf (subf (yOf x adj w1 w2) (downRows (asRow (meanOf (yOf x adj w1 w2)))))
        (downRows (asRow (Host.sqrt (addf (varOf (yOf x adj w1 w2)) (fill128 (constant S_ .f32 0x3727C5AC#32)))))))
      (downRows (asRow g)))
    (downRows (asRow b))

/-- The buffers the operations write, one each, in order. -/
abbrev written : List (Ref sig .tc) :=
  [main_v0, main_v1, main_v2, main_v3, main_v4, main_v5, main_v6, main_v7, main_v8, main_v9, main_v10, main_v11, main_v12, main_v13, main_v14, main_v15, main_v16, main_v17, main_v18, main_v19, main_v20, main_v21, main_v22, main_v23, main_v24, main_v25, main_v26, main_v27, main_v28, main_v29, main_v30, main_v31, main_v32, main_v33, main_cst, main_v34, main_cst_0, main_v35, main_v36, main_c, main_call0_cst, main_call0_v0, main_call0_v1, main_call0_cst_0, main_call0_v2, main_call0_v3, main_call0_v4, main_call0_v5, main_call0_v6, main_call0_v7, main_call0_cst_1, main_call0_v8, main_call0_cst_2, main_call0_v9, main_call0_v10, main_call0_v11, main_call0_cst_3, main_call0_v12, main_call0_cst_4, main_call0_call0_v0, main_call0_call0_v1, main_v37, main_v38, main_v39, main_v40, main_cst_1, main_v41, main_v42, main_v43, main_v44, main_v45, main_v46, main_v47, main_v48, main_v49, main_v50, main_v51, main_v52]

theorem writesAre : WritesAre (ops (F := F)) written := rfl

/-- No operation from position k on writes a buffer absent from the tail of that list. -/
theorem nw (k : Nat) {y : Ref sig .tc} (hy : y ∉ written.drop k) :
    ∀ op ∈ (ops (F := F)).drop k, (Proc.devRef .tc y : DevRef τ sig) ∉ op.writes := not_written writesAre k hy

/-- A concatenation of four buffers defines its result buffer from what the whole line leaves in the four. -/
theorem nary4_at {ops : List (HloOp τ sig (Elt F))} {V : Valuation τ sig (Elt F)} (k : Nat) (hk : k < ops.length)
    {x a b c y : Ref sig .tc}
    {f : ((k : Fin 4) → ((![x, a, b, c] : Fin 4 → Ref sig .tc) k).ty.Contents (Elt F)) → y.ty.Contents (Elt F)} {hxs hy}
    (hop : ops[k] = nary ![x, a, b, c] y f hxs hy)
    (hy' : ∀ op ∈ ops.drop (k + 1), (Proc.devRef .tc y : DevRef τ sig) ∉ op.writes)
    (hx' : ∀ op ∈ ops.drop k, (Proc.devRef .tc x : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes)
    (hc' : ∀ op ∈ ops.drop k, (Proc.devRef .tc c : DevRef τ sig) ∉ op.writes) :
    after ops V (Proc.devRef .tc y)
      = f (Fin.cons (after ops V (Proc.devRef .tc x)) (Fin.cons (after ops V (Proc.devRef .tc a))
          (Fin.cons (after ops V (Proc.devRef .tc b)) (Fin.cons (after ops V (Proc.devRef .tc c)) (fun i => i.elim0))))) := by
  rw [after_eq_result ops V k hk _ hy', hop, nary4_result, ← after_eq_take ops V k _ hx', ← after_eq_take ops V k _ ha',
    ← after_eq_take ops V k _ hb', ← after_eq_take ops V k _ hc']

/-- Every weakly fair execution ends, with every buffer at the fold of the operations over the launch contents. -/
theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.RefHand

end
-- ==== Proof.RefRun.lean ====
/-
  The reference's result as one term of its arguments.

  After the whole line of operations every buffer holds its operation's function of what the operand buffers hold
  (each buffer is written once, and operands are written before they are read). Reading these equations group by
  group — a Hamilton matrix, the three products, the mean, the variance, the normalisation — gives the result
  buffer as the composed term of the six argument arrays, without ever forming the fold of all the operations.
-/
import proofs.«133474_g54228257079526_cont_9to1c4b_631_6_alg».proof.Proof.RefOps

noncomputable section

namespace Cert.RefHand

open Cert.ReferenceIdeal Cert.ReferenceIdeal.Gen Idealize.ShloMosaic Idealize.ShloMosaic.TcCoe Idealize.SL.Sem Idealize.ShloMosaic.StableHlo Cert.LibStraightLine

variable {F : FTy → Type} [FloatOps F]

/-- The element a list's tail starts with, as the list's element at that position. -/
theorem getElem_of_drop {α : Type _} {l : List α} {k : Nat} {a : α} {t : List α} (h : l.drop k = a :: t) :
    ∃ hk : k < l.length, l[k] = a := by
  have hk : k < l.length := by
    by_contra hn
    rw [List.drop_eq_nil_of_le (Nat.le_of_not_lt hn)] at h
    exact absurd h.symm (List.cons_ne_nil a t)
  rw [List.drop_eq_getElem_cons hk] at h
  exact ⟨hk, (List.cons.inj h).1⟩

section AtDrop

variable {ops : List (HloOp τ sig (Elt F))} {V : Valuation τ sig (Elt F)}

theorem nullary_at' (k : Nat) {y : Ref sig .tc} {v : y.ty.Contents (Elt F)} {hy} {t : List (HloOp τ sig (Elt F))}
    (hop : ops.drop k = nullary y v hy :: t)
    (hy' : ∀ op ∈ ops.drop (k + 1), (Proc.devRef .tc y : DevRef τ sig) ∉ op.writes) :
    after ops V (Proc.devRef .tc y) = v := by
  obtain ⟨hk, he⟩ := getElem_of_drop hop
  exact nullary_at k hk he hy'

theorem unary_at' (k : Nat) {x y : Ref sig .tc} {f : x.ty.Contents (Elt F) → y.ty.Contents (Elt F)} {hx hy}
    {t : List (HloOp τ sig (Elt F))} (hop : ops.drop k = unary x y f hx hy :: t)
    (hy' : ∀ op ∈ ops.drop (k + 1), (Proc.devRef .tc y : DevRef τ sig) ∉ op.writes)
    (hx' : ∀ op ∈ ops.drop k, (Proc.devRef .tc x : DevRef τ sig) ∉ op.writes) :
    after ops V (Proc.devRef .tc y) = f (after ops V (Proc.devRef .tc x)) := by
  obtain ⟨hk, he⟩ := getElem_of_drop hop
  exact unary_at k hk he hy' hx'

theorem binary_at' (k : Nat) {a b y : Ref sig .tc}
    {f : a.ty.Contents (Elt F) → b.ty.Contents (Elt F) → y.ty.Contents (Elt F)} {ha hb hy}
    {t : List (HloOp τ sig (Elt F))} (hop : ops.drop k = binary a b y f ha hb hy :: t)
    (hy' : ∀ op ∈ ops.drop (k + 1), (Proc.devRef .tc y : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y) = f (after ops V (Proc.devRef .tc a)) (after ops V (Proc.devRef .tc b)) := by
  obtain ⟨hk, he⟩ := getElem_of_drop hop
  exact binary_at k hk he hy' ha' hb'

theorem ternary_at' (k : Nat) {c a b y : Ref sig .tc}
    {f : c.ty.Contents (Elt F) → a.ty.Contents (Elt F) → b.ty.Contents (Elt F) → y.ty.Contents (Elt F)} {hc ha hb hy}
    {t : List (HloOp τ sig (Elt F))} (hop : ops.drop k = ternary c a b y f hc ha hb hy :: t)
    (hy' : ∀ op ∈ ops.drop (k + 1), (Proc.devRef .tc y : DevRef τ sig) ∉ op.writes)
    (hc' : ∀ op ∈ ops.drop k, (Proc.devRef .tc c : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes) :
    after ops V (Proc.devRef .tc y)
      = f (after ops V (Proc.devRef .tc c)) (after ops V (Proc.devRef .tc a)) (after ops V (Proc.devRef .tc b)) := by
  obtain ⟨hk, he⟩ := getElem_of_drop hop
  exact ternary_at k hk he hy' hc' ha' hb'

/-- The same with the concatenation named as a function of its four pieces. -/
theorem nary4_at' (k : Nat) {x a b c y : Ref sig .tc}
    {f : ((k : Fin 4) → ((![x, a, b, c] : Fin 4 → Ref sig .tc) k).ty.Contents (Elt F)) → y.ty.Contents (Elt F)} {hxs hy}
    {t : List (HloOp τ sig (Elt F))} (hop : ops.drop k = nary ![x, a, b, c] y f hxs hy :: t)
    {g : x.ty.Contents (Elt F) → a.ty.Contents (Elt F) → b.ty.Contents (Elt F) → c.ty.Contents (Elt F) → y.ty.Contents (Elt F)}
    (hg : ∀ u, f u = g (u 0) (u 1) (u 2) (u 3))
    (hy' : ∀ op ∈ ops.drop (k + 1), (Proc.devRef .tc y : DevRef τ sig) ∉ op.writes)
    (hx' : ∀ op ∈ ops.drop k, (Proc.devRef .tc x : DevRef τ sig) ∉ op.writes)
    (ha' : ∀ op ∈ ops.drop k, (Proc.devRef .tc a : DevRef τ sig) ∉ op.writes)
    (hb' : ∀ op ∈ ops.drop k, (Proc.devRef .tc b : DevRef τ sig) ∉ op.writes)
    (hc' : ∀ op ∈ ops.drop k, (Proc.devRef .tc c : DevRef τ sig) ∉ op.writes) :
    after ops V (Proc.devRef .tc y)
      = g (after ops V (Proc.devRef .tc x)) (after ops V (Proc.devRef .tc a)) (after ops V (Proc.devRef .tc b))
          (after ops V (Proc.devRef .tc c)) := by
  obtain ⟨hk, he⟩ := getElem_of_drop hop
  rw [nary4_at k hk he hy' hx' ha' hb' hc', hg]
  rfl

end AtDrop

section Stages

variable (V : Valuation τ sig (Elt F))

/-- After the line, the buffer of the first Hamilton matrix holds it. -/
theorem ham1_eq : after ops V (main_v14 : DevRef τ sig) = hamHost (V (main_arg2 : DevRef τ sig)) := by
  have e0 := unary_at' (ops := ops (F := F)) (V := V) (x := main_arg2) (y := main_v0) 0 rfl (nw 1 (by decide)) (nw 0 (by decide))
  have e1 := unary_at' (ops := ops (F := F)) (V := V) (x := main_arg2) (y := main_v1) 1 rfl (nw 2 (by decide)) (nw 1 (by decide))
  have e2 := unary_at' (ops := ops (F := F)) (V := V) (x := main_arg2) (y := main_v2) 2 rfl (nw 3 (by decide)) (nw 2 (by decide))
  have e3 := unary_at' (ops := ops (F := F)) (V := V) (x := main_arg2) (y := main_v3) 3 rfl (nw 4 (by decide)) (nw 3 (by decide))
  have e4 := unary_at' (ops := ops (F := F)) (V := V) (x := main_v1) (y := main_v4) 4 rfl (nw 5 (by decide)) (nw 4 (by decide))
  have e5 := unary_at' (ops := ops (F := F)) (V := V) (x := main_v2) (y := main_v5) 5 rfl (nw 6 (by decide)) (nw 5 (by decide))
  have e6 := unary_at' (ops := ops (F := F)) (V := V) (x := main_v3) (y := main_v6) 6 rfl (nw 7 (by decide)) (nw 6 (by decide))
  have e7 := nary4_at' (ops := ops (F := F)) (V := V) (x := main_v0) (a := main_v4) (b := main_v5) (c := main_v6) (y := main_v7) 7 rfl (g := stack4) (fun _ => rfl) (nw 8 (by decide)) (nw 7 (by decide)) (nw 7 (by decide)) (nw 7 (by decide)) (nw 7 (by decide))
  have e8 := unary_at' (ops := ops (F := F)) (V := V) (x := main_v3) (y := main_v8) 8 rfl (nw 9 (by decide)) (nw 8 (by decide))
  have e9 := nary4_at' (ops := ops (F := F)) (V := V) (x := main_v1) (a := main_v0) (b := main_v8) (c := main_v2) (y := main_v9) 9 rfl (g := stack4) (fun _ => rfl) (nw 10 (by decide)) (nw 9 (by decide)) (nw 9 (by decide)) (nw 9 (by decide)) (nw 9 (by decide))
  have e10 := unary_at' (ops := ops (F := F)) (V := V) (x := main_v1) (y := main_v10) 10 rfl (nw 11 (by decide)) (nw 10 (by decide))
  have e11 := nary4_at' (ops := ops (F := F)) (V := V) (x := main_v2) (a := main_v3) (b := main_v0) (c := main_v10) (y := main_v11) 11 rfl (g := stack4) (fun _ => rfl) (nw 12 (by decide)) (nw 11 (by decide)) (nw 11 (by decide)) (nw 11 (by decide)) (nw 11 (by decide))
  have e12 := unary_at' (ops := ops (F := F)) (V := V) (x := main_v2) (y := main_v12) 12 rfl (nw 13 (by decide)) (nw 12 (by decide))
  have e13 := nary4_at' (ops := ops (F := F)) (V := V) (x := main_v3) (a := main_v12) (b := main_v1) (c := main_v0) (y := main_v13) 13 rfl (g := stack4) (fun _ => rfl) (nw 14 (by decide)) (nw 13 (by decide)) (nw 13 (by decide)) (nw 13 (by decide)) (nw 13 (by decide))
  have e14 := nary4_at' (ops := ops (F := F)) (V := V) (x := main_v7) (a := main_v9) (b := main_v11) (c := main_v13) (y := main_v14) 14 rfl (g := beside4) (fun _ => rfl) (nw 15 (by decide)) (nw 14 (by decide)) (nw 14 (by decide)) (nw 14 (by decide)) (nw 14 (by decide))
  have u_main_arg2 := untouched_at (ops := ops (F := F)) (V := V) writesAre (r := main_arg2) (by decide)
  rw [e14, e13, e12, e11, e10, e9, e8, e7, e6, e5, e4, e3, e2, e1, e0, u_main_arg2]
  rfl

/-- The second Hamilton matrix. -/
theorem ham2_eq : after ops V (main_v29 : DevRef τ sig) = hamHost (V (main_arg3 : DevRef τ sig)) := by
  have e15 := unary_at' (ops := ops (F := F)) (V := V) (x := main_arg3) (y := main_v15) 15 rfl (nw 16 (by decide)) (nw 15 (by decide))
  have e16 := unary_at' (ops := ops (F := F)) (V := V) (x := main_arg3) (y := main_v16) 16 rfl (nw 17 (by decide)) (nw 16 (by decide))
  have e17 := unary_at' (ops := ops (F := F)) (V := V) (x := main_arg3) (y := main_v17) 17 rfl (nw 18 (by decide)) (nw 17 (by decide))
  have e18 := unary_at' (ops := ops (F := F)) (V := V) (x := main_arg3) (y := main_v18) 18 rfl (nw 19 (by decide)) (nw 18 (by decide))
  have e19 := unary_at' (ops := ops (F := F)) (V := V) (x := main_v16) (y := main_v19) 19 rfl (nw 20 (by decide)) (nw 19 (by decide))
  have e20 := unary_at' (ops := ops (F := F)) (V := V) (x := main_v17) (y := main_v20) 20 rfl (nw 21 (by decide)) (nw 20 (by decide))
  have e21 := unary_at' (ops := ops (F := F)) (V := V) (x := main_v18) (y := main_v21) 21 rfl (nw 22 (by decide)) (nw 21 (by decide))
  have e22 := nary4_at' (ops := ops (F := F)) (V := V) (x := main_v15) (a := main_v19) (b := main_v20) (c := main_v21) (y := main_v22) 22 rfl (g := stack4) (fun _ => rfl) (nw 23 (by decide)) (nw 22 (by decide)) (nw 22 (by decide)) (nw 22 (by decide)) (nw 22 (by decide))
  have e23 := unary_at' (ops := ops (F := F)) (V := V) (x := main_v18) (y := main_v23) 23 rfl (nw 24 (by decide)) (nw 23 (by decide))
  have e24 := nary4_at' (ops := ops (F := F)) (V := V) (x := main_v16) (a := main_v15) (b := main_v23) (c := main_v17) (y := main_v24) 24 rfl (g := stack4) (fun _ => rfl) (nw 25 (by decide)) (nw 24 (by decide)) (nw 24 (by decide)) (nw 24 (by decide)) (nw 24 (by decide))
  have e25 := unary_at' (ops := ops (F := F)) (V := V) (x := main_v16) (y := main_v25) 25 rfl (nw 26 (by decide)) (nw 25 (by decide))
  have e26 := nary4_at' (ops := ops (F := F)) (V := V) (x := main_v17) (a := main_v18) (b := main_v15) (c := main_v25) (y := main_v26) 26 rfl (g := stack4) (fun _ => rfl) (nw 27 (by decide)) (nw 26 (by decide)) (nw 26 (by decide)) (nw 26 (by decide)) (nw 26 (by decide))
  have e27 := unary_at' (ops := ops (F := F)) (V := V) (x := main_v17) (y := main_v27) 27 rfl (nw 28 (by decide)) (nw 27 (by decide))
  have e28 := nary4_at' (ops := ops (F := F)) (V := V) (x := main_v18) (a := main_v27) (b := main_v16) (c := main_v15) (y := main_v28) 28 rfl (g := stack4) (fun _ => rfl) (nw 29 (by decide)) (nw 28 (by decide)) (nw 28 (by decide)) (nw 28 (by decide)) (nw 28 (by decide))
  have e29 := nary4_at' (ops := ops (F := F)) (V := V) (x := main_v22) (a := main_v24) (b := main_v26) (c := main_v28) (y := main_v29) 29 rfl (g := beside4) (fun _ => rfl) (nw 30 (by decide)) (nw 29 (by decide)) (nw 29 (by decide)) (nw 29 (by decide)) (nw 29 (by decide))
  have u_main_arg3 := untouched_at (ops := ops (F := F)) (V := V) writesAre (r := main_arg3) (by decide)
  rw [e29, e28, e27, e26, e25, e24, e23, e22, e21, e20, e19, e18, e17, e16, e15, u_main_arg3]
  rfl

/-- The array that is normalised. -/
theorem y_eq : after ops V (main_v33 : DevRef τ sig) = yOf (V (main_arg0 : DevRef τ sig)) (V (main_arg1 : DevRef τ sig)) (V (main_arg2 : DevRef τ sig)) (V (main_arg3 : DevRef τ sig)) := by
  have e30 := binary_at' (ops := ops (F := F)) (V := V) (a := main_arg0) (b := main_v14) (y := main_v30) 30 rfl (nw 31 (by decide)) (nw 30 (by decide)) (nw 30 (by decide))
  have e31 := unary_at' (ops := ops (F := F)) (V := V) (x := main_v30) (y := main_v31) 31 rfl (nw 32 (by decide)) (nw 31 (by decide))
  have e32 := binary_at' (ops := ops (F := F)) (V := V) (a := main_v31) (b := main_v29) (y := main_v32) 32 rfl (nw 33 (by decide)) (nw 32 (by decide)) (nw 32 (by decide))
  have e33 := binary_at' (ops := ops (F := F)) (V := V) (a := main_arg1) (b := main_v32) (y := main_v33) 33 rfl (nw 34 (by decide)) (nw 33 (by decide)) (nw 33 (by decide))
  have u_main_arg0 := untouched_at (ops := ops (F := F)) (V := V) writesAre (r := main_arg0) (by decide)
  have u_main_arg1 := untouched_at (ops := ops (F := F)) (V := V) writesAre (r := main_arg1) (by decide)
  rw [e33, e32, e31, e30, ham1_eq, ham2_eq, u_main_arg0, u_main_arg1]
  rfl

/-- The column mean, of what the buffer of that array holds. -/
theorem mean_eq : after ops V (main_v36 : DevRef τ sig) = meanOf (after ops V (main_v33 : DevRef τ sig)) := by
  have e34 := nullary_at' (ops := ops (F := F)) (V := V) (y := main_cst) 34 rfl (nw 35 (by decide))
  have e35 := binary_at' (ops := ops (F := F)) (V := V) (a := main_v33) (b := main_cst) (y := main_v34) 35 rfl (nw 36 (by decide)) (nw 35 (by decide)) (nw 35 (by decide))
  have e36 := nullary_at' (ops := ops (F := F)) (V := V) (y := main_cst_0) 36 rfl (nw 37 (by decide))
  have e37 := unary_at' (ops := ops (F := F)) (V := V) (x := main_cst_0) (y := main_v35) 37 rfl (nw 38 (by decide)) (nw 37 (by decide))
  have e38 := binary_at' (ops := ops (F := F)) (V := V) (a := main_v34) (b := main_v35) (y := main_v36) 38 rfl (nw 39 (by decide)) (nw 38 (by decide)) (nw 38 (by decide))
  rw [e38, e37, e36, e35, e34]
  rfl

/-- The column variance, of the same. -/
theorem var_eq : after ops V (main_v37 : DevRef τ sig) = varOf (after ops V (main_v33 : DevRef τ sig)) := by
  have e40 := nullary_at' (ops := ops (F := F)) (V := V) (y := main_call0_cst) 40 rfl (nw 41 (by decide))
  have e41 := binary_at' (ops := ops (F := F)) (V := V) (a := main_v33) (b := main_call0_cst) (y := main_call0_v0) 41 rfl (nw 42 (by decide)) (nw 41 (by decide)) (nw 41 (by decide))
  have e42 := unary_at' (ops := ops (F := F)) (V := V) (x := main_call0_v0) (y := main_call0_v1) 42 rfl (nw 43 (by decide)) (nw 42 (by decide))
  have e43 := nullary_at' (ops := ops (F := F)) (V := V) (y := main_call0_cst_0) 43 rfl (nw 44 (by decide))
  have e44 := unary_at' (ops := ops (F := F)) (V := V) (x := main_call0_cst_0) (y := main_call0_v2) 44 rfl (nw 45 (by decide)) (nw 44 (by decide))
  have e45 := binary_at' (ops := ops (F := F)) (V := V) (a := main_call0_v1) (b := main_call0_v2) (y := main_call0_v3) 45 rfl (nw 46 (by decide)) (nw 45 (by decide)) (nw 45 (by decide))
  have e46 := unary_at' (ops := ops (F := F)) (V := V) (x := main_call0_v3) (y := main_call0_v4) 46 rfl (nw 47 (by decide)) (nw 46 (by decide))
  have e47 := binary_at' (ops := ops (F := F)) (V := V) (a := main_v33) (b := main_call0_v4) (y := main_call0_v5) 47 rfl (nw 48 (by decide)) (nw 47 (by decide)) (nw 47 (by decide))
  have e48 := binary_at' (ops := ops (F := F)) (V := V) (a := main_call0_v5) (b := main_call0_v5) (y := main_call0_v6) 48 rfl (nw 49 (by decide)) (nw 48 (by decide)) (nw 48 (by decide))
  have e49 := unary_at' (ops := ops (F := F)) (V := V) (x := main_c) (y := main_call0_v7) 49 rfl (nw 50 (by decide)) (nw 49 (by decide))
  have e50 := nullary_at' (ops := ops (F := F)) (V := V) (y := main_call0_cst_1) 50 rfl (nw 51 (by decide))
  have e51 := binary_at' (ops := ops (F := F)) (V := V) (a := main_call0_cst_1) (b := main_call0_v7) (y := main_call0_v8) 51 rfl (nw 52 (by decide)) (nw 51 (by decide)) (nw 51 (by decide))
  have e52 := nullary_at' (ops := ops (F := F)) (V := V) (y := main_call0_cst_2) 52 rfl (nw 53 (by decide))
  have e53 := binary_at' (ops := ops (F := F)) (V := V) (a := main_call0_v6) (b := main_call0_cst_2) (y := main_call0_v9) 53 rfl (nw 54 (by decide)) (nw 53 (by decide)) (nw 53 (by decide))
  have e54 := unary_at' (ops := ops (F := F)) (V := V) (x := main_call0_v8) (y := main_call0_v10) 54 rfl (nw 55 (by decide)) (nw 54 (by decide))
  have e55 := binary_at' (ops := ops (F := F)) (V := V) (a := main_call0_v9) (b := main_call0_v10) (y := main_call0_v11) 55 rfl (nw 56 (by decide)) (nw 55 (by decide)) (nw 55 (by decide))
  have e56 := nullary_at' (ops := ops (F := F)) (V := V) (y := main_call0_cst_3) 56 rfl (nw 57 (by decide))
  have e57 := binary_at' (ops := ops (F := F)) (V := V) (a := main_call0_v8) (b := main_call0_cst_3) (y := main_call0_v12) 57 rfl (nw 58 (by decide)) (nw 57 (by decide)) (nw 57 (by decide))
  have e58 := nullary_at' (ops := ops (F := F)) (V := V) (y := main_call0_cst_4) 58 rfl (nw 59 (by decide))
  have e59 := unary_at' (ops := ops (F := F)) (V := V) (x := main_call0_cst_4) (y := main_call0_call0_v0) 59 rfl (nw 60 (by decide)) (nw 59 (by decide))
  have e60 := unary_at' (ops := ops (F := F)) (V := V) (x := main_call0_call0_v0) (y := main_call0_call0_v1) 60 rfl (nw 61 (by decide)) (nw 60 (by decide))
  have e61 := ternary_at' (ops := ops (F := F)) (V := V) (c := main_call0_v12) (a := main_call0_v11) (b := main_call0_call0_v1) (y := main_v37) 61 rfl (nw 62 (by decide)) (nw 61 (by decide)) (nw 61 (by decide)) (nw 61 (by decide))
  have e39 := nullary_at' (ops := ops (F := F)) (V := V) (y := main_c) 39 rfl (nw 40 (by decide))
  rw [e61, e60, e59, e58, e57, e56, e55, e54, e53, e52, e51, e50, e49, e48, e47, e46, e45, e44, e43, e42, e41, e40, e39]
  rfl

/-- The result buffer holds the composed term of the six argument arrays. -/
theorem out_eq : after ops V (main_v52 : DevRef τ sig) = refTerm (V (main_arg0 : DevRef τ sig)) (V (main_arg1 : DevRef τ sig)) (V (main_arg2 : DevRef τ sig)) (V (main_arg3 : DevRef τ sig)) (V (main_arg4 : DevRef τ sig)) (V (main_arg5 : DevRef τ sig)) := by
  have e62 := unary_at' (ops := ops (F := F)) (V := V) (x := main_v36) (y := main_v38) 62 rfl (nw 63 (by decide)) (nw 62 (by decide))
  have e63 := unary_at' (ops := ops (F := F)) (V := V) (x := main_v38) (y := main_v39) 63 rfl (nw 64 (by decide)) (nw 63 (by decide))
  have e64 := binary_at' (ops := ops (F := F)) (V := V) (a := main_v33) (b := main_v39) (y := main_v40) 64 rfl (nw 65 (by decide)) (nw 64 (by decide)) (nw 64 (by decide))
  have e65 := nullary_at' (ops := ops (F := F)) (V := V) (y := main_cst_1) 65 rfl (nw 66 (by decide))
  have e66 := unary_at' (ops := ops (F := F)) (V := V) (x := main_cst_1) (y := main_v41) 66 rfl (nw 67 (by decide)) (nw 66 (by decide))
  have e67 := binary_at' (ops := ops (F := F)) (V := V) (a := main_v37) (b := main_v41) (y := main_v42) 67 rfl (nw 68 (by decide)) (nw 67 (by decide)) (nw 67 (by decide))
  have e68 := unary_at' (ops := ops (F := F)) (V := V) (x := main_v42) (y := main_v43) 68 rfl (nw 69 (by decide)) (nw 68 (by decide))
  have e69 := unary_at' (ops := ops (F := F)) (V := V) (x := main_v43) (y := main_v44) 69 rfl (nw 70 (by decide)) (nw 69 (by decide))
  have e70 := unary_at' (ops := ops (F := F)) (V := V) (x := main_v44) (y := main_v45) 70 rfl (nw 71 (by decide)) (nw 70 (by decide))
  have e71 := binary_at' (ops := ops (F := F)) (V := V) (a := main_v40) (b := main_v45) (y := main_v46) 71 rfl (nw 72 (by decide)) (nw 71 (by decide)) (nw 71 (by decide))
  have e72 := unary_at' (ops := ops (F := F)) (V := V) (x := main_arg4) (y := main_v47) 72 rfl (nw 73 (by decide)) (nw 72 (by decide))
  have e73 := unary_at' (ops := ops (F := F)) (V := V) (x := main_v47) (y := main_v48) 73 rfl (nw 74 (by decide)) (nw 73 (by decide))
  have e74 := binary_at' (ops := ops (F := F)) (V := V) (a := main_v46) (b := main_v48) (y := main_v49) 74 rfl (nw 75 (by decide)) (nw 74 (by decide)) (nw 74 (by decide))
  have e75 := unary_at' (ops := ops (F := F)) (V := V) (x := main_arg5) (y := main_v50) 75 rfl (nw 76 (by decide)) (nw 75 (by decide))
  have e76 := unary_at' (ops := ops (F := F)) (V := V) (x := main_v50) (y := main_v51) 76 rfl (nw 77 (by decide)) (nw 76 (by decide))
  have e77 := binary_at' (ops := ops (F := F)) (V := V) (a := main_v49) (b := main_v51) (y := main_v52) 77 rfl (nw 78 (by decide)) (nw 77 (by decide)) (nw 77 (by decide))
  have u_main_arg4 := untouched_at (ops := ops (F := F)) (V := V) writesAre (r := main_arg4) (by decide)
  have u_main_arg5 := untouched_at (ops := ops (F := F)) (V := V) writesAre (r := main_arg5) (by decide)
  rw [e77, e76, e75, e74, e73, e72, e71, e70, e69, e68, e67, e66, e65, e64, e63, e62, mean_eq, var_eq, y_eq, u_main_arg4, u_main_arg5]
  rfl

/-- An argument buffer is written by no operation. -/
theorem arg_kept {r : Ref sig .tc} (hr : r ∉ written) :
    after (ops (F := F)) V (Proc.devRef .tc r) = V (Proc.devRef .tc r) := untouched_at writesAre hr

end Stages

/-- Every weakly fair execution of the reference ends with the result buffer at the composed term of the six
    argument arrays, and with those arrays as they were. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v52)
        = refTerm (m ((c.tc : Thread nD τ).loc main_arg0)) (m ((c.tc : Thread nD τ).loc main_arg1))
            (m ((c.tc : Thread nD τ).loc main_arg2)) (m ((c.tc : Thread nD τ).loc main_arg3))
            (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v52).trans (out_eq (launchContents m c)),
      (h c main_arg0).trans (arg_kept _ (by decide)), (h c main_arg1).trans (arg_kept _ (by decide)),
      (h c main_arg2).trans (arg_kept _ (by decide)), (h c main_arg3).trans (arg_kept _ (by decide)),
      (h c main_arg4).trans (arg_kept _ (by decide)), (h c main_arg5).trans (arg_kept _ (by decide))⟩)
    (run_main m ρ)

end Cert.RefHand

end
-- ==== Proof.RefHam.lean ====
/-
  The reference's Hamilton matrix read at an entry.

  The reference builds the 128×128 matrix from the four 32×32 blocks r, i, j, k of the weight: four columns of blocks,
  (r, −i, −j, −k), (i, r, −k, j), (j, k, r, −i), (k, −j, i, r), each a stack of four blocks, set side by side. Entry
  (a, b) therefore lies in column of blocks b / 32 and, inside it, in block a / 32, at the block's own entry
  (a % 32, b % 32); the block is one of r, i, j, k — the weight's columns 32·t … 32·t + 31 for t = 0 … 3 — with or
  without a sign. Going through the sixteen positions, block and sign are the ones of the quaternion product's matrix.
-/
import proofs.«133474_g54228257079526_cont_9to1c4b_631_6_alg».proof.Proof.RefOps
import proofs.«133474_g54228257079526_cont_9to1c4b_631_6_alg».proof.Proof.LibConcatAt
import proofs.«133474_g54228257079526_cont_9to1c4b_631_6_alg».proof.Proof.Spec
import Idealize.ShloMosaic.Lib.ValueLayout

noncomputable section

namespace Cert.RefHand

open Cert.ReferenceIdeal Cert.ReferenceIdeal.Gen Idealize.ShloMosaic Idealize.ShloMosaic.ValueIdx Cert.LibConcatAt

variable {F : FTy → Type} [FloatOps F]

/-- A stack of four 32×32 blocks read at (a, c): block a / 32 at its row a % 32. -/
theorem stack4_at (x0 x1 x2 x3 : Arr F S32x32) (a : Fin 128) (c : Fin 32) (p : Fin 4) (a' : Fin 32)
    (ha : 32 * p.val + a'.val = a.val) :
    stack4 x0 x1 x2 x3 (ix2 a c) = (![x0, x1, x2, x3] p) (ix2 a' c) := by
  unfold stack4
  fin_cases p
  · exact stacked_at _ _ a c 0 x0 rfl 0 rfl a' (by simpa using ha)
  · exact stacked_at _ _ a c 1 x1 rfl 32 rfl a' (by simpa using ha)
  · exact stacked_at _ _ a c 2 x2 rfl 64 rfl a' (by simpa using ha)
  · exact stacked_at _ _ a c 3 x3 rfl 96 rfl a' (by simpa using ha)

/-- Four 128×32 columns of blocks side by side read at (a, b): column b / 32 at its own column b % 32. -/
theorem beside4_at (y0 y1 y2 y3 : Arr F S128x32) (a b : Fin 128) (q : Fin 4) (b' : Fin 32)
    (hb : 32 * q.val + b'.val = b.val) :
    beside4 y0 y1 y2 y3 (ix2 a b) = (![y0, y1, y2, y3] q) (ix2 a b') := by
  unfold beside4
  fin_cases q
  · exact sideBySide_at _ _ a b 0 y0 rfl 0 rfl b' (by simpa using hb)
  · exact sideBySide_at _ _ a b 1 y1 rfl 32 rfl b' (by simpa using hb)
  · exact sideBySide_at _ _ a b 2 y2 rfl 64 rfl b' (by simpa using hb)
  · exact sideBySide_at _ _ a b 3 y3 rfl 96 rfl b' (by simpa using hb)

/-- The reference's Hamilton matrix is the quaternion product's matrix of the weight. -/
theorem hamHost_at (w : Arr Ideal S32x128) (a b : Fin 128) :
    hamHost w (ix2 a b) = Cert.Layer.ham (Cert.Layer.mat w) a b := by
  obtain ⟨p, hp⟩ : ∃ p : Fin 4, p = ⟨a.val / 32, by omega⟩ := ⟨_, rfl⟩
  obtain ⟨q, hq⟩ : ∃ q : Fin 4, q = ⟨b.val / 32, by omega⟩ := ⟨_, rfl⟩
  obtain ⟨a', ha'⟩ : ∃ a' : Fin 32, a' = ⟨a.val % 32, by omega⟩ := ⟨_, rfl⟩
  obtain ⟨b', hb'⟩ : ∃ b' : Fin 32, b' = ⟨b.val % 32, by omega⟩ := ⟨_, rfl⟩
  have ha : 32 * p.val + a'.val = a.val := by rw [hp, ha']; show 32 * (a.val / 32) + a.val % 32 = a.val; omega
  have hb : 32 * q.val + b'.val = b.val := by rw [hq, hb']; show 32 * (b.val / 32) + b.val % 32 = b.val; omega
  have hbv : b.val % 32 = b'.val := by rw [hb']
  unfold Cert.Layer.ham
  simp only [← hp, ← hq, ← ha', hbv]
  unfold hamHost
  rw [beside4_at _ _ _ _ a b q b' hb]
  fin_cases q <;> fin_cases p
  all_goals
    refine (stack4_at _ _ _ _ a b' _ a' ha).trans ?_
    first
      | exact slice2_axis1_eq 0 w slices_S32x128_S32x32_0_0 a' b'
      | exact slice2_axis1_eq 32 w slices_S32x128_S32x32_0_32 a' b'
      | exact slice2_axis1_eq 64 w slices_S32x128_S32x32_0_64 a' b'
      | exact slice2_axis1_eq 96 w slices_S32x128_S32x32_0_96 a' b'
      | exact congrArg Neg.neg (slice2_axis1_eq 0 w slices_S32x128_S32x32_0_0 a' b')
      | exact congrArg Neg.neg (slice2_axis1_eq 32 w slices_S32x128_S32x32_0_32 a' b')
      | exact congrArg Neg.neg (slice2_axis1_eq 64 w slices_S32x128_S32x32_0_64 a' b')
      | exact congrArg Neg.neg (slice2_axis1_eq 96 w slices_S32x128_S32x32_0_96 a' b')

end Cert.RefHand

end
-- ==== Proof.LibHostBroadcast.lean ====
/-
  Host `broadcast_in_dim` of small shapes read at an index built with `ix2`:
  a column [a,1] spread over the columns of [a,b], a row [1,b] spread over the rows of [a,b]
  (both with the identity dimension map ![0,1]), and a rank-0 scalar spread over any shape.
  Each is the general `broadcastInDim_apply` with the operand's index written out.
-/
import Idealize.ShloMosaic.Lib.ValueIdx
import Idealize.ShloMosaic.Lib.Pipeline.Value

namespace Cert.LibHostBroadcast

open Idealize.ShloMosaic Idealize.ShloMosaic.ValueIdx

variable {α : Type}

/-- A column [a,1] broadcast to [a,b] along the identity map, read at (p,c), is the column at (p,0). -/
theorem column_at {a b : ℕ} (v : (⟨2, ![a, 1]⟩ : Shape).Idx → α)
    (h : (⟨2, ![a, 1]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 p (0 : Fin 1)) := by
  refine broadcastInDim_apply _ h v (ix2 p c) (ix2 p (0 : Fin 1)) fun d => ?_
  match d with
  | ⟨0, _⟩ =>
    show p.val = if a = 1 then 0 else p.val
    split
    · have := p.isLt; omega
    · rfl
  | ⟨1, _⟩ => rfl

/-- A row [1,b] broadcast to [a,b] along the identity map, read at (p,c), is the row at (0,c). -/
theorem row_at {a b : ℕ} (v : (⟨2, ![1, b]⟩ : Shape).Idx → α)
    (h : (⟨2, ![1, b]⟩ : Shape).BroadcastsInDim ⟨2, ![a, b]⟩ (![0, 1] : Fin 2 → Fin 2)) (p : Fin a) (c : Fin b) :
    broadcastInDim ⟨2, ![a, b]⟩ (![0, 1] : Fin 2 → Fin 2) h v (ix2 p c) = v (ix2 (0 : Fin 1) c) := by
  refine broadcastInDim_apply _ h v (ix2 p c) (ix2 (0 : Fin 1) c) fun d => ?_
  match d with
  | ⟨0, _⟩ => rfl
  | ⟨1, _⟩ =>
    show c.val = if b = 1 then 0 else c.val
    split
    · have := c.isLt; omega
    · rfl

/-- A rank-0 scalar broadcast to any shape, read anywhere, is the scalar. -/
theorem scalar_at {t : Shape} (v : (⟨0, ![]⟩ : Shape).Idx → α) (dims : Fin 0 → Fin t.rank)
    (h : (⟨0, ![]⟩ : Shape).BroadcastsInDim t dims) (j : t.Idx) :
    broadcastInDim t dims h v j = v ix0 :=
  broadcastInDim_apply dims h v j ix0 fun d => d.elim0

end Cert.LibHostBroadcast
-- ==== Proof.LibColumnVec.lean ====
import Idealize.ShloMosaic.Lib.ValueIdx
import Idealize.ShloMosaic.Lib.Pipeline.Value
import Idealize.ShloMosaic.Lib.ValueLayout

/-!
# A vector set as a column, a column read as a vector, one column cut out of a matrix

Four re-layings of `N` numbers, each read at an index written by its coordinates:

* a vector [N] laid out as a column [N, 1] (a `broadcast_in_dim` along axis 0): entry `(n, 0)` is entry `n`;
* a vector [N] laid out as a row [1, N] (a `broadcast_in_dim` along axis 1): entry `(0, n)` is entry `n`;
* a column [N, 1] recast to a vector [N]: entry `n` is entry `(n, 0)`;
* column `k` cut out of a matrix [N, C] as a column [N, 1]: entry `(n, 0)` is entry `(n, k)`.

Nothing here depends on what the entries are.
-/

namespace Cert.LibColumnVec

open Idealize.ShloMosaic Idealize.ShloMosaic.ValueIdx

variable {α : Type}

/-- A vector laid out as a column. -/
theorem columnOfVector_at {N : ℕ} (v : (⟨1, ![N]⟩ : Shape).Idx → α)
    (h : (⟨1, ![N]⟩ : Shape).BroadcastsInDim ⟨2, ![N, 1]⟩ (![0] : Fin 1 → Fin 2)) (n : Fin N) :
    broadcastInDim ⟨2, ![N, 1]⟩ (![0] : Fin 1 → Fin 2) h v (ix2 n 0) = v (ix1 n) :=
  broadcastInDim_apply _ h v (ix2 n 0) (ix1 n) (fun a => by
    match a with
    | ⟨0, _⟩ =>
      show n.val = if N = 1 then 0 else n.val
      by_cases hN : N = 1
      · rw [if_pos hN]; have := n.isLt; omega
      · rw [if_neg hN])

/-- A vector laid out as a row. -/
theorem rowOfVector_at {N : ℕ} (v : (⟨1, ![N]⟩ : Shape).Idx → α)
    (h : (⟨1, ![N]⟩ : Shape).BroadcastsInDim ⟨2, ![1, N]⟩ (![1] : Fin 1 → Fin 2)) (n : Fin N) :
    broadcastInDim ⟨2, ![1, N]⟩ (![1] : Fin 1 → Fin 2) h v (ix2 0 n) = v (ix1 n) :=
  broadcastInDim_apply _ h v (ix2 0 n) (ix1 n) (fun a => by
    match a with
    | ⟨0, _⟩ =>
      show n.val = if N = 1 then 0 else n.val
      by_cases hN : N = 1
      · rw [if_pos hN]; have := n.isLt; omega
      · rw [if_neg hN])

/-- A column recast to a vector: the same numbers in the same order. -/
theorem vectorOfColumn_at {N : ℕ} (A : (⟨2, ![N, 1]⟩ : Shape).Idx → α)
    (h : (⟨2, ![N, 1]⟩ : Shape).ShapeCasts ⟨1, ![N]⟩) (n : Fin N) :
    shapeCast ⟨1, ![N]⟩ A h (ix1 n) = A (ix2 n 0) :=
  shapeCast_apply A h (ix1 n) (ix2 n 0) (by
    rw [Shape.rowMajor_val_two, Shape.rowMajor_val_one]
    show n.val * 1 + 0 = n.val
    omega)

/-- Column `k` of a matrix, cut out as a column. -/
theorem columnOfMatrix_at {N C : ℕ} (k : ℕ) (A : (⟨2, ![N, C]⟩ : Shape).Idx → α)
    (h : (⟨2, ![N, C]⟩ : Shape).Slices ![0, k] ⟨2, ![N, 1]⟩) (n : Fin N) :
    extractStridedSlice ⟨2, ![N, 1]⟩ ![0, k] A h (ix2 n 0)
      = A (ix2 n ⟨k, by have := h.2 1; simpa using this⟩) :=
  slice2_axis1_apply k A h n 0 _ (by simp)

end Cert.LibColumnVec
-- ==== Proof.RefRead.lean ====
/-
  The reference's result read at an entry.

  Entry (r, c) of the reference's result, written with the entries of Y = adj · (tanh(x · H(w1)) · H(w2)):
  the matrix products are sums over the contracted index, the Hamilton matrices are the quaternion product's,
  the column sum is the sum over the rows (from the initial value 0), the mean is that sum over 10000, the variance
  is the sum of squared deviations over 10000 − 0 = 10000 (the count is positive, so the helper's other branch is never
  taken), and a vector repeated down the rows reads its own entry c. The result is the two-pass normalisation
  ((Y(r,c) − mean) / sqrt(var + ε)) · γ(c) + β(c).
-/
import proofs.«133474_g54228257079526_cont_9to1c4b_631_6_alg».proof.Proof.RefHam
import proofs.«133474_g54228257079526_cont_9to1c4b_631_6_alg».proof.Proof.LibPlainDot
import proofs.«133474_g54228257079526_cont_9to1c4b_631_6_alg».proof.Proof.LibHostBroadcast
import proofs.«133474_g54228257079526_cont_9to1c4b_631_6_alg».proof.Proof.LibColumnVec

noncomputable section

open scoped BigOperators

namespace Cert.RefHand

open Cert.ReferenceIdeal Cert.ReferenceIdeal.Gen Idealize.ShloMosaic Idealize.ShloMosaic.ValueIdx

/-- The 32-bit float word of 10000.0 is the real number 10000. -/
theorem ofBits_10000 : Ideal.ofBits .f32 0x461C4000#32 = ((10000 : ℝ) : EReal) := by
  simp [Ideal.ofBits, Ideal.ieee, -EReal.coe_mul]; norm_num

/-- x · H at an entry: the sum over the contracted index. -/
theorem mulH_at (x : Arr Ideal S10000x128) (h : Arr Ideal S128x128) (r : Fin 10000) (c : Fin 128) :
    mulH x h (ix2 r c) = ∑ k : Fin 128, x (ix2 r k) * h (ix2 k c) :=
  Cert.LibPlainDot.dotGeneral_at dot_S10000x128_S128x128_S10000x128_1_0_0_1_n_n rfl rfl rfl rfl rfl rfl rfl rfl none .single x h r c

/-- adj · t at an entry. -/
theorem mulAdj_at (adj : Arr Ideal S10000x10000) (t : Arr Ideal S10000x128) (r : Fin 10000) (c : Fin 128) :
    mulAdj adj t (ix2 r c) = ∑ k : Fin 10000, adj (ix2 r k) * t (ix2 k c) :=
  Cert.LibPlainDot.dotGeneral_at dot_S10000x10000_S10000x128_S10000x128_1_0_0_1_n_n rfl rfl rfl rfl rfl rfl rfl rfl none .single adj t r c

/-- The array that is normalised, at an entry: Y = adj · (tanh(x · H(w1)) · H(w2)). -/
theorem yOf_at (x : Arr Ideal S10000x128) (adj : Arr Ideal S10000x10000) (w1 w2 : Arr Ideal S32x128)
    (r : Fin 10000) (c : Fin 128) :
    yOf x adj w1 w2 (ix2 r c)
      = Cert.Layer.agg (Cert.Layer.mat adj) (Cert.Layer.feat (Cert.Layer.mat x) (Cert.Layer.mat w1) (Cert.Layer.mat w2)) r c := by
  unfold yOf Cert.Layer.agg
  rw [mulAdj_at]
  refine Finset.sum_congr rfl fun k _ => ?_
  refine congrArg (fun t => adj (ix2 r k) * t) ?_
  unfold Cert.Layer.feat
  rw [mulH_at]
  refine Finset.sum_congr rfl fun j _ => ?_
  rw [hamHost_at]
  refine congrArg (fun t => Ideal.tanh t * Cert.Layer.ham (Cert.Layer.mat w2) j c) ?_
  rw [mulH_at]
  refine Finset.sum_congr rfl fun i _ => ?_
  rw [hamHost_at]
  rfl

/-- The sum over the rows at a column: the initial value 0 plus the sum of the column's entries. -/
theorem sumRows_at (y : Arr Ideal S10000x128) (c : Fin 128) :
    sumRows y (ix1 c) = ∑ r : Fin 10000, y (ix2 r c) := by
  unfold sumRows Host.reduceAdd
  show Ideal.hostReduceAdd reducesTo_S10000x128_S128_d0 y (constant (F := Ideal) S_ .f32 0x00000000#32 (Shape.Idx.first h_S_)) (ix1 c) = _
  rw [Ideal.hostReduceAdd_single reducesTo_S10000x128_S128_d0 (by decide : S10000x128.Reduces [0] S128) y _ (ix1 c),
    constant_apply, Ideal.ofBits_zero_f32, zero_add]
  exact Finset.sum_congr rfl fun r _ => congrArg y (by funext d; match d with | ⟨0, _⟩ => rfl | ⟨1, _⟩ => rfl)

/-- A vector laid out as a row and repeated down the rows reads, at (r, c), its entry c. -/
theorem downRows_asRow_at (v : Arr Ideal S128) (r : Fin 10000) (c : Fin 128) :
    downRows (asRow v) (ix2 r c) = v (ix1 c) := by
  unfold downRows asRow
  rw [Cert.LibHostBroadcast.row_at, Cert.LibColumnVec.rowOfVector_at]

/-- A scalar repeated along a vector reads the scalar. -/
theorem fill128_at (v : Arr Ideal S_) (c : Fin 128) : fill128 v (ix1 c) = v ix0 := by
  unfold fill128
  rw [Cert.LibHostBroadcast.scalar_at]

/-- The count the variance divides by is 10000 − 0 = 10000. -/
theorem countOf_at : countOf (F := Ideal) ix0 = ((10000 : ℝ) : EReal) := by
  show Ideal.ofBits .f32 0x461C4000#32 - (((0#32 : BitVec 32).toInt : ℝ) : EReal) = _
  rw [ofBits_10000]
  simp

/-- The column mean at a column. -/
theorem meanOf_at (y : Arr Ideal S10000x128) (c : Fin 128) :
    meanOf y (ix1 c) = Ideal.div (∑ r : Fin 10000, y (ix2 r c)) ((10000 : ℝ) : EReal) := by
  show Ideal.div (sumRows y (ix1 c)) (fill128 (F := Ideal) (constant (F := Ideal) S_ .f32 0x461C4000#32) (ix1 c)) = _
  rw [sumRows_at, fill128_at, constant_apply, ofBits_10000]

/-- The deviation from the mean at an entry. -/
theorem devOf_at (y : Arr Ideal S10000x128) (r : Fin 10000) (c : Fin 128) :
    devOf y (ix2 r c) = y (ix2 r c) - Ideal.div (∑ r' : Fin 10000, y (ix2 r' c)) ((10000 : ℝ) : EReal) := by
  show y (ix2 r c) - downRows (F := Ideal) (Host.divf (asRow (sumRows y)) (fill1x128 (F := Ideal) (constant (F := Ideal) S_ .f32 0x461C4000#32))) (ix2 r c) = _
  unfold downRows
  rw [Cert.LibHostBroadcast.row_at]
  show y (ix2 r c) - Ideal.div (asRow (sumRows y) (ix2 0 c)) (fill1x128 (F := Ideal) (constant (F := Ideal) S_ .f32 0x461C4000#32) (ix2 0 c)) = _
  unfold asRow fill1x128
  rw [Cert.LibColumnVec.rowOfVector_at, Cert.LibHostBroadcast.scalar_at, sumRows_at, constant_apply, ofBits_10000]

/-- The column variance at a column: the count 10000 is positive, so it is the sum of squared deviations over 10000. -/
theorem varOf_at (y : Arr Ideal S10000x128) (c : Fin 128) :
    varOf y (ix1 c) = Ideal.div (∑ r : Fin 10000, devOf y (ix2 r c) * devOf y (ix2 r c)) ((10000 : ℝ) : EReal) := by
  have hc : broadcastInDim S128 ![] bcast_S_S128 (cmpf (F := Ideal) .ogt (countOf (F := Ideal)) (constant (F := Ideal) S_ .f32 0x00000000#32)) (ix1 c) = 1#1 := by
    rw [Cert.LibHostBroadcast.scalar_at, cmpf_apply, countOf_at, constant_apply, Ideal.ofBits_zero_f32]
    show Ideal.cmp .ogt ((10000 : ℝ) : EReal) 0 = 1#1
    unfold Ideal.cmp
    simp
  unfold varOf
  rw [select_apply, hc, select_one]
  show Ideal.div (sumRows (F := Ideal) (mulf (devOf y) (devOf y)) (ix1 c)) (fill128 (F := Ideal) countOf (ix1 c)) = _
  rw [sumRows_at, fill128_at, countOf_at]
  rfl

/-- The normalisation as a function of the array that is normalised: ((y − mean) / sqrt(var + ε)) · γ + β. -/
def normTail {F : FTy → Type} [FloatOps F] (y : Arr F S10000x128) (g b : Arr F S128) : Arr F S10000x128 :=
  addf (mulf (Host.divf (subf y (downRows (asRow (meanOf y))))
        (downRows (asRow (Host.sqrt (addf (varOf y) (fill128 (constant S_ .f32 0x3727C5AC#32)))))))
      (downRows (asRow g)))
    (downRows (asRow b))

/-- The normalisation of an array y at an entry, in the two-pass form. -/
theorem normTail_at (y : Arr Ideal S10000x128) (g b : Arr Ideal S128) (r : Fin 10000) (c : Fin 128) :
    normTail y g b (ix2 r c)
      = Ideal.div (Cert.Layer.mat y r c - Ideal.div (Cert.Layer.colSum (Cert.Layer.mat y) c) ((10000 : ℝ) : EReal))
            (Ideal.sqrt (Ideal.div (∑ r' : Fin 10000,
                (Cert.Layer.mat y r' c - Ideal.div (Cert.Layer.colSum (Cert.Layer.mat y) c) ((10000 : ℝ) : EReal))
                  * (Cert.Layer.mat y r' c - Ideal.div (Cert.Layer.colSum (Cert.Layer.mat y) c) ((10000 : ℝ) : EReal))) ((10000 : ℝ) : EReal)
              + Cert.Layer.eps))
          * Cert.Layer.vec g c + Cert.Layer.vec b c := by
  show Ideal.div (y (ix2 r c) - downRows (asRow (meanOf y)) (ix2 r c))
        (downRows (asRow (Host.sqrt (addf (F := Ideal) (varOf y) (fill128 (F := Ideal) (constant (F := Ideal) S_ .f32 0x3727C5AC#32))))) (ix2 r c))
      * downRows (asRow g) (ix2 r c) + downRows (asRow b) (ix2 r c) = _
  rw [downRows_asRow_at, downRows_asRow_at, downRows_asRow_at, downRows_asRow_at, meanOf_at]
  show Ideal.div (y (ix2 r c) - Ideal.div (∑ r : Fin 10000, y (ix2 r c)) ((10000 : ℝ) : EReal))
        (Ideal.sqrt (varOf y (ix1 c) + fill128 (F := Ideal) (constant (F := Ideal) S_ .f32 0x3727C5AC#32) (ix1 c)))
      * g (ix1 c) + b (ix1 c) = _
  rw [varOf_at, fill128_at, constant_apply]
  simp only [devOf_at]
  rfl

/-- The reference's result at an entry: the two-pass normalisation of Y = adj · (tanh(x · H(w1)) · H(w2)). -/
theorem refTerm_at (a0 : Arr Ideal S10000x128) (a1 : Arr Ideal S10000x10000) (a2 a3 : Arr Ideal S32x128)
    (a4 a5 : Arr Ideal S128) (r : Fin 10000) (c : Fin 128) :
    refTerm a0 a1 a2 a3 a4 a5 (ix2 r c)
      = Ideal.div (Cert.Layer.agg (Cert.Layer.mat a1) (Cert.Layer.feat (Cert.Layer.mat a0) (Cert.Layer.mat a2) (Cert.Layer.mat a3)) r c - Ideal.div (Cert.Layer.colSum (Cert.Layer.agg (Cert.Layer.mat a1) (Cert.Layer.feat (Cert.Layer.mat a0) (Cert.Layer.mat a2) (Cert.Layer.mat a3))) c) ((10000 : ℝ) : EReal))
            (Ideal.sqrt (Ideal.div (∑ r' : Fin 10000,
                (Cert.Layer.agg (Cert.Layer.mat a1) (Cert.Layer.feat (Cert.Layer.mat a0) (Cert.Layer.mat a2) (Cert.Layer.mat a3)) r' c - Ideal.div (Cert.Layer.colSum (Cert.Layer.agg (Cert.Layer.mat a1) (Cert.Layer.feat (Cert.Layer.mat a0) (Cert.Layer.mat a2) (Cert.Layer.mat a3))) c) ((10000 : ℝ) : EReal))
                  * (Cert.Layer.agg (Cert.Layer.mat a1) (Cert.Layer.feat (Cert.Layer.mat a0) (Cert.Layer.mat a2) (Cert.Layer.mat a3)) r' c - Ideal.div (Cert.Layer.colSum (Cert.Layer.agg (Cert.Layer.mat a1) (Cert.Layer.feat (Cert.Layer.mat a0) (Cert.Layer.mat a2) (Cert.Layer.mat a3))) c) ((10000 : ℝ) : EReal))) ((10000 : ℝ) : EReal)
              + Cert.Layer.eps))
          * Cert.Layer.vec a4 c + Cert.Layer.vec a5 c := by
  have hY : Cert.Layer.mat (yOf a0 a1 a2 a3) = Cert.Layer.agg (Cert.Layer.mat a1) (Cert.Layer.feat (Cert.Layer.mat a0) (Cert.Layer.mat a2) (Cert.Layer.mat a3)) :=
    funext fun r => funext fun c => yOf_at a0 a1 a2 a3 r c
  show normTail (yOf a0 a1 a2 a3) a4 a5 (ix2 r c) = _
  rw [normTail_at, hY]

end Cert.RefHand

end
-- ==== Proof.LibOnePassVariance.lean ====
/-
  The one-pass variance, over the reals.

  For n > 0 numbers x_1 .. x_n with mean m = (sum x_i) / n, the biased variance can be taken in one pass from the
  sum and the sum of squares:
      (sum x_i ^ 2) / n - m * m  =  (sum (x_i - m) ^ 2) / n ,
  because sum (x_i - m)^2 = sum x_i^2 - 2 m sum x_i + n m^2 and sum x_i = n m. The right side is a sum of squares
  over a positive number, so it is never negative and clamping the left side below at 0 changes nothing.
-/
import Mathlib.Data.Real.Basic
import Mathlib.Algebra.BigOperators.Group.Finset.Basic
import Mathlib.Algebra.Order.BigOperators.Ring.Finset
import Mathlib.Tactic

open scoped BigOperators

namespace Cert.OnePassVariance

variable {ι : Type*} (S : Finset ι) (x : ι → ℝ)

/-- Sum of squared deviations from ANY centre m, expanded. -/
theorem sum_sq_dev (m : ℝ) :
    ∑ i ∈ S, (x i - m) * (x i - m) = ∑ i ∈ S, x i * x i - 2 * m * ∑ i ∈ S, x i + (S.card : ℝ) * (m * m) := by
  have : ∀ i, (x i - m) * (x i - m) = x i * x i - 2 * m * x i + m * m := fun i => by ring
  simp only [this, Finset.sum_add_distrib, Finset.sum_sub_distrib, Finset.sum_const, nsmul_eq_mul,
    ← Finset.mul_sum]

/-- With the mean as centre: the one-pass form of the biased variance. `n` is the count as a real number. -/
theorem one_pass (n : ℝ) (hn : n = (S.card : ℝ)) (hpos : 0 < n) :
    (∑ i ∈ S, x i * x i) / n - (∑ i ∈ S, x i) / n * ((∑ i ∈ S, x i) / n)
      = (∑ i ∈ S, (x i - (∑ j ∈ S, x j) / n) * (x i - (∑ j ∈ S, x j) / n)) / n := by
  rw [sum_sq_dev, ← hn]
  have hne : n ≠ 0 := ne_of_gt hpos
  field_simp
  ring

/-- The two-pass variance is never negative. -/
theorem two_pass_nonneg (n : ℝ) (hpos : 0 < n) (m : ℝ) :
    0 ≤ (∑ i ∈ S, (x i - m) * (x i - m)) / n :=
  div_nonneg (Finset.sum_nonneg fun i _ => mul_self_nonneg _) (le_of_lt hpos)

/-- Clamping the one-pass form below at zero still gives the two-pass variance. -/
theorem max_one_pass (n : ℝ) (hn : n = (S.card : ℝ)) (hpos : 0 < n) :
    max ((∑ i ∈ S, x i * x i) / n - (∑ i ∈ S, x i) / n * ((∑ i ∈ S, x i) / n)) 0
      = (∑ i ∈ S, (x i - (∑ j ∈ S, x j) / n) * (x i - (∑ j ∈ S, x j) / n)) / n := by
  rw [one_pass S x n hn hpos]
  exact max_eq_left (two_pass_nonneg S x n hpos _)

end Cert.OnePassVariance
-- ==== Proof.LibReal.lean ====
/-
  Arrays of extended reals all of whose entries are real numbers: the predicate under which the ring laws
  (distributivity, moving a factor across a finite sum) hold entry by entry, and its closure under the
  arithmetic that keeps reals real.
-/
import Mathlib.Data.EReal.Basic
import Mathlib.Data.EReal.Operations
import Mathlib.Algebra.BigOperators.Group.Finset.Basic

open scoped BigOperators

namespace LibReal

/-- Every entry of `x` is (the coercion of) a real number. -/
def AllReal {ι : Type} (x : ι → EReal) : Prop := ∀ i, ∃ r : ℝ, x i = (r : EReal)

theorem AllReal.add {ι : Type} {x y : ι → EReal} (hx : AllReal x) (hy : AllReal y) : AllReal (fun i => x i + y i) := fun i => by
  obtain ⟨a, ha⟩ := hx i; obtain ⟨b, hb⟩ := hy i
  exact ⟨a + b, by show x i + y i = _; rw [ha, hb, EReal.coe_add]⟩

theorem AllReal.mul {ι : Type} {x y : ι → EReal} (hx : AllReal x) (hy : AllReal y) : AllReal (fun i => x i * y i) := fun i => by
  obtain ⟨a, ha⟩ := hx i; obtain ⟨b, hb⟩ := hy i
  exact ⟨a * b, by show x i * y i = _; rw [ha, hb, EReal.coe_mul]⟩

/-- A finite sum of coerced reals is the coerced sum. -/
theorem coe_sum {κ : Type} (s : Finset κ) (f : κ → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A finite sum of real entries is real. -/
theorem exists_real_sum {κ : Type} (s : Finset κ) (f : κ → EReal) (h : ∀ k ∈ s, ∃ r : ℝ, f k = (r : EReal)) :
    ∃ r : ℝ, ∑ k ∈ s, f k = (r : EReal) := by
  classical
  choose! g hg using h
  exact ⟨∑ k ∈ s, g k, by rw [coe_sum]; exact Finset.sum_congr rfl hg⟩

end LibReal
-- ==== Proof.Algebra.lean ====
/-
  Batch normalisation in one pass and in two.

  Over the reals, for n > 0 numbers with sum S and sum of squares Q, the variance taken in one pass,
  Q/n − (S/n)², is the two-pass variance Σ(x − S/n)²/n, a sum of squares over a positive count and so never
  negative. With a positive stabiliser ε added, the square root is positive, and dividing by it is multiplying by
  its reciprocal. On the extended reals these steps (distributing, cancelling) need every entry to be a real
  number; then both forms are one real number, entry by entry.

  Also: the features tanh(x·H(w1))·H(w2) and the aggregate adj·T have real entries when their inputs have: an entry
  of a Hamilton matrix is an entry of the weight or its negative, tanh of a real is real, and a finite sum of
  products of reals is real.
-/
import proofs.«133474_g54228257079526_cont_9to1c4b_631_6_alg».proof.Proof.Spec
import proofs.«133474_g54228257079526_cont_9to1c4b_631_6_alg».proof.Proof.LibOnePassVariance
import proofs.«133474_g54228257079526_cont_9to1c4b_631_6_alg».proof.Proof.LibReal
import Mathlib

noncomputable section

namespace Cert.Layer

open Idealize.ShloMosaic
open scoped BigOperators

/-- The stabiliser's f32 word, 0 01101110 01001111100010110101100, is the real 10995116 · 2⁻⁴⁰ (about 1e-5). -/
theorem eps_eq : eps = ((10995116 * (2 : ℝ) ^ (-40 : ℤ) : ℝ) : EReal) := by
  unfold eps
  simp [Ideal.ofBits, Ideal.ieee, -EReal.coe_mul]

/-- The stabiliser is a positive real. -/
theorem eps_pos : ∃ e : ℝ, 0 < e ∧ eps = (e : EReal) :=
  ⟨10995116 * (2 : ℝ) ^ (-40 : ℤ), by positivity, eps_eq⟩

/-- The two-pass normalisation ((y − mean)/sqrt(var + ε))·γ + β, mean = Σy/n, var = Σ(y − mean)²/n, is the
    one-pass form of `norm` at every entry, when all entries are real. -/
theorem norm_eq_twoPass (y : Fin 10000 → Fin 128 → EReal) (hy : ∀ r c, ∃ v : ℝ, y r c = v)
    (g b : Fin 128 → EReal) (hg : ∀ c, ∃ v : ℝ, g c = v) (hb : ∀ c, ∃ v : ℝ, b c = v)
    (r : Fin 10000) (c : Fin 128) :
    Ideal.div (y r c - Ideal.div (colSum y c) ((10000 : ℝ) : EReal))
        (Ideal.sqrt (Ideal.div (∑ r' : Fin 10000, (y r' c - Ideal.div (colSum y c) ((10000 : ℝ) : EReal))
            * (y r' c - Ideal.div (colSum y c) ((10000 : ℝ) : EReal))) ((10000 : ℝ) : EReal) + eps)) * g c + b c
      = norm y g b r c := by
  classical
  choose Y hY using hy
  obtain ⟨G, hG⟩ := hg c
  obtain ⟨B, hB⟩ := hb c
  obtain ⟨e, he, hE⟩ := eps_pos
  have hN : (10000 : ℝ) ≠ 0 := by norm_num
  -- the column's sum and sum of squares are real
  have hs : colSum y c = ((∑ r' : Fin 10000, Y r' c : ℝ) : EReal) := by
    unfold colSum; rw [LibReal.coe_sum]; exact Finset.sum_congr rfl fun r' _ => hY r' c
  have hq : colSumSq y c = ((∑ r' : Fin 10000, Y r' c * Y r' c : ℝ) : EReal) := by
    unfold colSumSq; rw [LibReal.coe_sum]
    exact Finset.sum_congr rfl fun r' _ => by rw [hY r' c, EReal.coe_mul]
  generalize hS : (∑ r' : Fin 10000, Y r' c : ℝ) = S at hs
  generalize hQ : (∑ r' : Fin 10000, Y r' c * Y r' c : ℝ) = Q at hq
  -- the mean, by division and by the reciprocal
  have hm : Ideal.div (colSum y c) ((10000 : ℝ) : EReal) = ((S / 10000 : ℝ) : EReal) := by
    rw [hs, Ideal.div_coe hN, ← EReal.coe_mul, mul_one_div]
  have hm' : colSum y c * invN = ((S / 10000 : ℝ) : EReal) := by
    rw [hs, invN, ← EReal.coe_mul, mul_one_div]
  -- the sum of squared deviations is real
  have hv : (∑ r' : Fin 10000, (y r' c - Ideal.div (colSum y c) ((10000 : ℝ) : EReal))
      * (y r' c - Ideal.div (colSum y c) ((10000 : ℝ) : EReal)))
      = ((∑ r' : Fin 10000, (Y r' c - S / 10000) * (Y r' c - S / 10000) : ℝ) : EReal) := by
    rw [hm, LibReal.coe_sum]
    exact Finset.sum_congr rfl fun r' _ => by rw [hY r' c, ← EReal.coe_sub, ← EReal.coe_mul]
  -- one pass = two passes, over the reals
  have hone : Q / 10000 - S / 10000 * (S / 10000)
      = (∑ r' : Fin 10000, (Y r' c - S / 10000) * (Y r' c - S / 10000)) / 10000 := by
    have := Cert.OnePassVariance.one_pass Finset.univ (fun r' : Fin 10000 => Y r' c) 10000 (by simp) (by norm_num)
    rw [hS, hQ] at this
    exact this
  have hnn : 0 ≤ (∑ r' : Fin 10000, (Y r' c - S / 10000) * (Y r' c - S / 10000)) / 10000 :=
    Cert.OnePassVariance.two_pass_nonneg Finset.univ (fun r' : Fin 10000 => Y r' c) 10000 (by norm_num) (S / 10000)
  generalize (∑ r' : Fin 10000, (Y r' c - S / 10000) * (Y r' c - S / 10000) : ℝ) = V at hv hone hnn
  have hpos : 0 < V / 10000 + e := by linarith
  have hsq : 0 < Real.sqrt (V / 10000 + e) := Real.sqrt_pos.2 hpos
  -- the two-pass side
  have hL : Ideal.sqrt (Ideal.div ((V : ℝ) : EReal) ((10000 : ℝ) : EReal) + eps)
      = ((Real.sqrt (V / 10000 + e) : ℝ) : EReal) := by
    rw [Ideal.div_coe hN, hE, ← EReal.coe_mul, ← EReal.coe_add, mul_one_div, Ideal.sqrt_coe,
      if_neg (not_lt.2 hpos.le)]
  -- the one-pass side
  have hR : Ideal.rsqrt (colSumSq y c * invN - (colSum y c * invN) * (colSum y c * invN) + eps)
      = (((Real.sqrt (V / 10000 + e))⁻¹ : ℝ) : EReal) := by
    rw [hm', hq, invN, hE, ← EReal.coe_mul, ← EReal.coe_mul, ← EReal.coe_sub, ← EReal.coe_add, mul_one_div, hone,
      Ideal.rsqrt_coe, if_neg (not_lt.2 hpos.le), if_neg hpos.ne']
  unfold norm
  rw [hR, hm', hv, hm, hL, hY r c, hG, hB, ← EReal.coe_sub, Ideal.div_coe hsq.ne', ← EReal.coe_mul, ← EReal.coe_mul,
    ← EReal.coe_mul, ← EReal.coe_mul, ← EReal.coe_add, ← EReal.coe_add]
  congr 1
  rw [one_div]
  ring

/-- An entry of a Hamilton matrix of a weight with real entries is real. -/
theorem ham_real (w : Fin 32 → Fin 128 → EReal) (hw : ∀ i j, ∃ v : ℝ, w i j = v) (a b : Fin 128) :
    ∃ v : ℝ, ham w a b = v := by
  unfold ham
  dsimp only
  split_ifs
  · obtain ⟨v, hv⟩ := hw ⟨a.val % 32, by omega⟩
      ⟨32 * (blockOf ⟨a.val / 32, by omega⟩ ⟨b.val / 32, by omega⟩).val + b.val % 32,
        by have := (blockOf ⟨a.val / 32, by omega⟩ ⟨b.val / 32, by omega⟩).isLt; omega⟩
    exact ⟨-v, by rw [hv, EReal.coe_neg]⟩
  · exact hw _ _

/-- The features have real entries when the input and both weights have. -/
theorem feat_real (x : Fin 10000 → Fin 128 → EReal) (w1 w2 : Fin 32 → Fin 128 → EReal)
    (hx : ∀ r j, ∃ v : ℝ, x r j = v) (hw1 : ∀ i j, ∃ v : ℝ, w1 i j = v) (hw2 : ∀ i j, ∃ v : ℝ, w2 i j = v)
    (r : Fin 10000) (c : Fin 128) : ∃ v : ℝ, feat x w1 w2 r c = v := by
  unfold feat
  refine LibReal.exists_real_sum _ _ fun k _ => ?_
  obtain ⟨u, hu⟩ := LibReal.exists_real_sum Finset.univ (fun j : Fin 128 => x r j * ham w1 j k) fun j _ => by
    obtain ⟨p, hp⟩ := hx r j
    obtain ⟨q, hq⟩ := ham_real w1 hw1 j k
    exact ⟨p * q, by rw [hp, hq, EReal.coe_mul]⟩
  obtain ⟨h, hh⟩ := ham_real w2 hw2 k c
  exact ⟨Real.tanh u * h, by rw [hu, hh, Ideal.tanh_coe, EReal.coe_mul]⟩

/-- The aggregate has real entries when the adjacency and the features have. -/
theorem agg_real (adj : Fin 10000 → Fin 10000 → EReal) (t : Fin 10000 → Fin 128 → EReal)
    (hadj : ∀ r k, ∃ v : ℝ, adj r k = v) (ht : ∀ k c, ∃ v : ℝ, t k c = v)
    (r : Fin 10000) (c : Fin 128) : ∃ v : ℝ, agg adj t r c = v := by
  unfold agg
  refine LibReal.exists_real_sum _ _ fun k _ => ?_
  obtain ⟨p, hp⟩ := hadj r k
  obtain ⟨q, hq⟩ := ht k c
  exact ⟨p * q, by rw [hp, hq, EReal.coe_mul]⟩

end Cert.Layer

end
-- ==== Proof.RefLayer.lean ====
/-
  The reference computes the layer.

  Read at an entry (r, c) the reference's result is ((Y − mean)/sqrt(var + ε))·γ + β with Y = adj·T, mean the column
  sum of Y over 10000 and var the column sum of the squared deviations over 10000: the two-pass normalisation. When
  every entry of the six argument arrays is a real number so is every entry of T and of Y, and the two-pass form
  is the one-pass form of the specification.
-/
import proofs.«133474_g54228257079526_cont_9to1c4b_631_6_alg».proof.Proof.RefRead
import proofs.«133474_g54228257079526_cont_9to1c4b_631_6_alg».proof.Proof.Algebra

noncomputable section

namespace Cert.RefHand

open Cert.ReferenceIdeal Idealize.ShloMosaic Idealize.ShloMosaic.ValueIdx
open scoped BigOperators

/-- The reference's result is the layer of the specification, when every entry of the six arrays is a real number:
    entry by entry it is the two-pass normalisation of Y = adj · T, which for real entries is the one-pass form. -/
theorem refTerm_eq_layer (a0 : Arr Ideal S10000x128) (a1 : Arr Ideal S10000x10000) (a2 a3 : Arr Ideal S32x128)
    (a4 a5 : Arr Ideal S128)
    (h0 : ∀ i, ∃ v : ℝ, a0 i = v) (h1 : ∀ i, ∃ v : ℝ, a1 i = v) (h2 : ∀ i, ∃ v : ℝ, a2 i = v)
    (h3 : ∀ i, ∃ v : ℝ, a3 i = v) (h4 : ∀ i, ∃ v : ℝ, a4 i = v) (h5 : ∀ i, ∃ v : ℝ, a5 i = v) :
    refTerm a0 a1 a2 a3 a4 a5
      = Cert.Layer.arr (Cert.Layer.layer (Cert.Layer.mat a0) (Cert.Layer.mat a1) (Cert.Layer.mat a2)
          (Cert.Layer.mat a3) (Cert.Layer.vec a4) (Cert.Layer.vec a5)) := by
  funext j
  obtain ⟨r, c, rfl⟩ : ∃ (r : Fin 10000) (c : Fin 128), j = ix2 r c := ⟨j 0, j 1, eq_ix2 j⟩
  rw [refTerm_at]
  exact Cert.Layer.norm_eq_twoPass
    (Cert.Layer.agg (Cert.Layer.mat a1) (Cert.Layer.feat (Cert.Layer.mat a0) (Cert.Layer.mat a2) (Cert.Layer.mat a3)))
    (fun r c => Cert.Layer.agg_real _ _ (fun r k => h1 (ix2 r k))
      (fun k c => Cert.Layer.feat_real _ _ _ (fun r j => h0 (ix2 r j)) (fun i j => h2 (ix2 i j))
        (fun i j => h3 (ix2 i j)) k c) r c)
    (Cert.Layer.vec a4) (Cert.Layer.vec a5) (fun c => h4 (ix1 c)) (fun c => h5 (ix1 c)) r c

end Cert.RefHand

end
-- ==== Proof.LibFiniteEntries.lean ====
/-
  A finiteness test read back, for an array of any shape.

  A precondition "every entry of v is finite" is computed as  all(|v| < +∞):  the array of comparisons
  |v i| < +∞,  with +∞ a rank-0 f32 constant broadcast to v's shape, reduced by `and` over every axis into a
  single result, and the claim is that this result is 1.  Read backwards:
    • a reduction by `and` into one result that is 1 met a 1 at every index of its operand;
    • the bound's pattern (exponent bits all ones, fraction zero) denotes +∞;
    • an extended real whose absolute value  max x (−x)  is strictly below +∞ is a real number.
  Hence every entry of v is a real number.  Stated over an arbitrary shape and an arbitrary initial value of
  the reduction; imports the library only.
-/
import Idealize.ShloMosaic.PureOps
import Idealize.ShloMosaic.PureOps.Ideal
import Idealize.ShloMosaic.PureOps.Ideal.Laws
import Idealize.ShloMosaic.Lib.ReduceAll

noncomputable section

namespace Cert.LibFiniteEntries

open Idealize.ShloMosaic

/-- The f32 pattern with all exponent bits set and a zero fraction denotes +∞. -/
theorem top_f32 : Ideal.ofBits .f32 0x7F800000#32 = ⊤ := by
  simp [Ideal.ofBits, Ideal.ieee]

/-- An extended real whose absolute value  max x (−x)  is strictly below +∞ is a real number:
    at −∞ and at +∞ the absolute value is +∞, which is not below +∞. -/
theorem real_of_abs_lt_top (x : EReal) (h : Ideal.cmp .olt (max x (-x)) ⊤ = 1#1) : ∃ r : ℝ, x = (r : EReal) := by
  induction x using EReal.rec with
  | bot => simp [Ideal.cmp] at h
  | coe r => exact ⟨r, rfl⟩
  | top => simp [Ideal.cmp] at h

/-- The rank-0 shape has exactly one index. -/
instance subsingleton_idx0 : Subsingleton (⟨0, ![]⟩ : Shape).Idx := ⟨fun _ _ => funext fun d => d.elim0⟩

/-- ONE TEST, ANY SHAPE: if  all(|v| < +∞)  — the comparisons against the broadcast +∞ reduced by `and` into a
    result with a single index — came out 1, then every entry of  v  is a real number. -/
theorem real_of_all {s t u : Shape} {axes : List (Fin s.rank)} [Subsingleton t.Idx]
    (v : FVec Ideal s .f32)
    (hb : (⟨0, ![]⟩ : Shape).BroadcastsInDim s (![] : Fin 0 → Fin s.rank))
    (init : u.Idx → BitVec 1) (hr : s.ReducesTo axes t) (hu : 0 < u.numel) (j : t.Idx)
    (h : Host.reduce IntOp.andi
          (cmpf .olt (Host.absf v) (broadcastInDim s ![] hb (constant (F := Ideal) ⟨0, ![]⟩ .f32 0x7F800000#32)))
          init hr hu j = 1#1)
    (i : s.Idx) : ∃ r : ℝ, v i = (r : EReal) := by
  have e := Host.reduce_andi_all _ _ _ _ j h i
  -- the comparison at index i, every array operation read at that index
  have e' : Ideal.cmp .olt (max (v i) (-(v i))) (Ideal.ofBits .f32 0x7F800000#32) = 1#1 := e
  rw [top_f32] at e'
  exact real_of_abs_lt_top (v i) e'

end Cert.LibFiniteEntries

end
-- ==== Proof.Finite.lean ====
/-
  What the precondition says: every entry of every argument array is a real number.

  The precondition is the conjunction, over the six argument arrays, of  all(|v| < +∞):  the comparisons of |v i|
  with +∞ reduced by `and` into a single bit. A conjunction of bits that is 1 has every conjunct 1; a reduction by
  `and` that is 1 met a 1 at every index; and an extended real whose absolute value is below +∞ is neither −∞ nor +∞.
-/
import proofs.«133474_g54228257079526_cont_9to1c4b_631_6_alg».proof.Pre_finite_inputs
import proofs.«133474_g54228257079526_cont_9to1c4b_631_6_alg».proof.Proof.LibFiniteEntries
import Idealize.ShloMosaic.Lib.ValueIdx
import Idealize.ShloMosaic.Lib.Affine

noncomputable section

namespace Cert.Finite

open Idealize.ShloMosaic Cert.Pre_finite_inputs

variable [Cert.Pre_finite_inputs.Facts]
open Cert.Pre_finite_inputs.Facts

/-- If the finiteness test of the six argument arrays is all ones, every entry of each of them is real. -/
theorem entries_real (a0 : FVec Ideal S10000x128 .f32) (a1 : FVec Ideal S10000x10000 .f32)
    (a2 a3 : FVec Ideal S32x128 .f32) (a4 a5 : FVec Ideal S128 .f32)
    (h : Cert.Pre_finite_inputs.fn (F := Ideal) a0 a1 a2 a3 a4 a5 = fun _ => 1#1) :
    (∀ i, ∃ v : ℝ, a0 i = v) ∧ (∀ i, ∃ v : ℝ, a1 i = v) ∧ (∀ i, ∃ v : ℝ, a2 i = v)
      ∧ (∀ i, ∃ v : ℝ, a3 i = v) ∧ (∀ i, ∃ v : ℝ, a4 i = v) ∧ (∀ i, ∃ v : ℝ, a5 i = v) := by
  have h0 := congrFun h ValueIdx.ix0
  dsimp only [Cert.Pre_finite_inputs.fn, Cert.Pre_finite_inputs.fn_part1] at h0
  obtain ⟨h01234, t5⟩ := IntOp.andi_eq_one.1 h0
  obtain ⟨h0123, t4⟩ := IntOp.andi_eq_one.1 h01234
  obtain ⟨h012, t3⟩ := IntOp.andi_eq_one.1 h0123
  obtain ⟨h01, t2⟩ := IntOp.andi_eq_one.1 h012
  obtain ⟨t0, t1⟩ := IntOp.andi_eq_one.1 h01
  exact ⟨Cert.LibFiniteEntries.real_of_all a0 _ _ _ _ ValueIdx.ix0 t0,
    Cert.LibFiniteEntries.real_of_all a1 _ _ _ _ ValueIdx.ix0 t1,
    Cert.LibFiniteEntries.real_of_all a2 _ _ _ _ ValueIdx.ix0 t2,
    Cert.LibFiniteEntries.real_of_all a3 _ _ _ _ ValueIdx.ix0 t3,
    Cert.LibFiniteEntries.real_of_all a4 _ _ _ _ ValueIdx.ix0 t4,
    Cert.LibFiniteEntries.real_of_all a5 _ _ _ _ ValueIdx.ix0 t5⟩

end Cert.Finite

end
-- ==== Proof.lean ====
/-
  The layer's kernel against its reference, on the extended reals.

  Both programs compute T = tanh(x · H(w1)) · H(w2) with H the Hamilton matrix of a quaternion weight, Y = adj · T, and a
  batch normalisation of Y over its 10000 rows. The kernel streams the adjacency once, 200 rows at a grid point: it keeps
  T, Y and the running column sums and sums of squares in scratch buffers through the 50 points of a first phase, and
  normalises Y block by block in a second phase with the variance in the one-pass form q/n − (s/n)², the reciprocal of n
  a named constant. The reference forms the two-pass variance Σ(y − s/n)²/n. The two agree wherever every entry is a real
  number, which is what the precondition says of the inputs and what sums, products and tanh preserve.

  The frames: the kernel's, at any number format, from the body run point by point against an invariant that says what
  the scratch buffers hold; the reference's from its run read back. The named constant's statement is the ledger's own.
  The value: the kernel's result array is the layer of its launch contents, block by block; the reference's result is the
  same layer, stage by stage.
-/
import proofs.«133474_g54228257079526_cont_9to1c4b_631_6_alg».proof.Defs
import proofs.«133474_g54228257079526_cont_9to1c4b_631_6_alg».proof.Proof.Gen.Kernel
import proofs.«133474_g54228257079526_cont_9to1c4b_631_6_alg».proof.Proof.Gen.KernelIdeal
import proofs.«133474_g54228257079526_cont_9to1c4b_631_6_alg».proof.Proof.Gen.ReferenceIdeal
import proofs.«133474_g54228257079526_cont_9to1c4b_631_6_alg».proof.Proof.Gen.Pre_finite_inputs
import proofs.«133474_g54228257079526_cont_9to1c4b_631_6_alg».proof.Proof.KB.Body
import proofs.«133474_g54228257079526_cont_9to1c4b_631_6_alg».proof.Proof.KI.Final
import proofs.«133474_g54228257079526_cont_9to1c4b_631_6_alg».proof.Proof.RefRun
import proofs.«133474_g54228257079526_cont_9to1c4b_631_6_alg».proof.Proof.RefLayer
import proofs.«133474_g54228257079526_cont_9to1c4b_631_6_alg».proof.Proof.Finite
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.RefHand.run (F := Ideal) m ρ)

/-- The ledger's two entries, one statement: the table gives the name the value 1/10000. -/
theorem preserves : Cert.preserves_Kernel_KernelIdeal :=
  ⟨IdealRules.named_const.statement Cert.KernelIdeal.κ "inv_10000" .f32 0x38D1B717#32 ((1 / 10000 : ℝ) : EReal) rfl,
   IdealRules.named_const.statement Cert.KernelIdeal.κ "inv_10000" .f32 0x38D1B717#32 ((1 / 10000 : ℝ) : EReal) rfl⟩

/-- From launch contents that agree, both programs end with the layer of those contents in their result arrays. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  refine ⟨fun c => Cert.KernelValue.result m c, Cert.KernelValue.run m ρ, ?_⟩
  refine (θ_run Cert.ReferenceIdeal.defs _ _).mono (fun _ h c => ⟨(h c).1.trans ?_, (h c).2⟩)
    (Cert.RefHand.run (F := Ideal) m' ρ')
  obtain ⟨e0, e1, e2, e3, e4, e5⟩ := hagree c
  rw [e0, e1, e2, e3, e4, e5]
  obtain ⟨r0, r1, r2, r3, r4, r5⟩ := Cert.Finite.entries_real _ _ _ _ _ _ (hpre c)
  exact Cert.RefHand.refTerm_eq_layer _ _ _ _ _ _ r0 r1 r2 r3 r4 r5

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
